-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512x3 : Shape := ⟨4, ![4, 256, 512, 3]⟩
abbrev S32x1x128x128 : Shape := ⟨4, ![32, 1, 128, 128]⟩
abbrev S32x128x128 : Shape := ⟨3, ![32, 128, 128]⟩
abbrev S32x1 : Shape := ⟨2, ![32, 1]⟩
abbrev S_ : Shape := ⟨0, ![]⟩

class Facts : Prop where
  bcast_S_S4x256x512x3 : S_.BroadcastsInDim S4x256x512x3 (![] : Fin 0 → Fin S4x256x512x3.rank)
  reducesTo_S4x256x512x3_S_d0_1_2_3 : S4x256x512x3.ReducesTo [0, 1, 2, 3] S_
  h_S_ : 0 < S_.numel
  bcast_S_S32x1x128x128 : S_.BroadcastsInDim S32x1x128x128 (![] : Fin 0 → Fin S32x1x128x128.rank)
  reducesTo_S32x1x128x128_S_d0_1_2_3 : S32x1x128x128.ReducesTo [0, 1, 2, 3] S_
  bcast_S_S32x1 : S_.BroadcastsInDim S32x1 (![] : Fin 0 → Fin S32x1.rank)
  reducesTo_S32x1_S_d0_1 : S32x1.ReducesTo [0, 1] S_

variable [Facts]

def fn_part2 {F : FTy → Type} [FloatOps F] (main_arg11 : FVec F S32x1 .f32) (main_v33 : IVec S_ 1) : IVec S_ 1 :=
  let main_v34 : FVec F S32x1 .f32 := Host.absf main_arg11
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  main_v38

def fn_part1 {F : FTy → Type} [FloatOps F] (main_arg6 : FVec F S32x1 .f32) (main_arg7 : FVec F S32x1x128x128 .f32) (main_arg8 : FVec F S32x1x128x128 .f32) (main_arg11 : FVec F S32x1 .f32) (main_v13 : IVec S_ 1) (main_v16 : IVec S32x1x128x128 1) : IVec S_ 1 :=
  let main_c_5 : IVec S_ 1 := constantI S_ 1 1#1
  let main_v17 : IVec S_ 1 := (fun x v => Host.reduce IntOp.andi x v reducesTo_S32x1x128x128_S_d0_1_2_3 h_S_) main_v16 main_c_5
  let main_v18 : IVec S_ 1 := andi main_v13 main_v17
  let main_v19 : FVec F S32x1 .f32 := Host.absf main_arg6
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S32x1x128x128 .f32 := Host.absf main_arg7
  let main_cst_8 : FVec F S_ .f32 := constant S_ .f32 0x7F800000#32
  let main_v25 : FVec F S32x1x128x128 .f32 := broadcastInDim S32x1x128x128 ![] bcast_S_S32x1x128x128 main_cst_8
  let main_v26 : IVec S32x1x128x128 1 := cmpf .olt main_v24 main_v25
  let main_c_9 : IVec S_ 1 := constantI S_ 1 1#1
  let main_v27 : IVec S_ 1 := (fun x v => Host.reduce IntOp.andi x v reducesTo_S32x1x128x128_S_d0_1_2_3 h_S_) main_v26 main_c_9
  let main_v28 : IVec S_ 1 := andi main_v23 main_v27
  let main_v29 : FVec F S32x1x128x128 .f32 := Host.absf main_arg8
  let main_cst_10 : FVec F S_ .f32 := constant S_ .f32 0x7F800000#32
  let main_v30 : FVec F S32x1x128x128 .f32 := broadcastInDim S32x1x128x128 ![] bcast_S_S32x1x128x128 main_cst_10
  let main_v31 : IVec S32x1x128x128 1 := cmpf .olt main_v29 main_v30
  let main_c_11 : IVec S_ 1 := constantI S_ 1 1#1
  let main_v32 : IVec S_ 1 := (fun x v => Host.reduce IntOp.andi x v reducesTo_S32x1x128x128_S_d0_1_2_3 h_S_) main_v31 main_c_11
  let main_v33 : IVec S_ 1 := andi main_v28 main_v32
  fn_part2 (F := F) main_arg11 main_v33

def fn {F : FTy → Type} [FloatOps F] (main_arg0 : FVec F S4x256x512x3 .f32) (main_arg1 : FVec F S4x256x512x3 .f32) (main_arg2 : FVec F S32x1x128x128 .f32) (main_arg3 : FVec F S32x1x128x128 .f32) (main_arg4 : IVec S32x128x128 32) (main_arg5 : IVec S32x128x128 32) (main_arg6 : FVec F S32x1 .f32) (main_arg7 : FVec F S32x1x128x128 .f32) (main_arg8 : FVec F S32x1x128x128 .f32) (main_arg9 : IVec S32x128x128 32) (main_arg10 : IVec S32x128x128 32) (main_arg11 : FVec F S32x1 .f32) : IVec S_ 1 :=
  let main_v0 : FVec F S4x256x512x3 .f32 := Host.absf main_arg0
  let main_cst : FVec F S_ .f32 := constant S_ .f32 0x7F800000#32
  let main_v1 : FVec F S4x256x512x3 .f32 := broadcastInDim S4x256x512x3 ![] bcast_S_S4x256x512x3 main_cst
  let main_v2 : IVec S4x256x512x3 1 := cmpf .olt main_v0 main_v1
  let main_c : IVec S_ 1 := constantI S_ 1 1#1
  let main_v3 : IVec S_ 1 := (fun x v => Host.reduce IntOp.andi x v reducesTo_S4x256x512x3_S_d0_1_2_3 h_S_) main_v2 main_c
  let main_v4 : FVec F S4x256x512x3 .f32 := Host.absf main_arg1
  let main_cst_0 : FVec F S_ .f32 := constant S_ .f32 0x7F800000#32
  let main_v5 : FVec F S4x256x512x3 .f32 := broadcastInDim S4x256x512x3 ![] bcast_S_S4x256x512x3 main_cst_0
  let main_v6 : IVec S4x256x512x3 1 := cmpf .olt main_v4 main_v5
  let main_c_1 : IVec S_ 1 := constantI S_ 1 1#1
  let main_v7 : IVec S_ 1 := (fun x v => Host.reduce IntOp.andi x v reducesTo_S4x256x512x3_S_d0_1_2_3 h_S_) main_v6 main_c_1
  let main_v8 : IVec S_ 1 := andi main_v3 main_v7
  let main_v9 : FVec F S32x1x128x128 .f32 := Host.absf main_arg2
  let main_cst_2 : FVec F S_ .f32 := constant S_ .f32 0x7F800000#32
  let main_v10 : FVec F S32x1x128x128 .f32 := broadcastInDim S32x1x128x128 ![] bcast_S_S32x1x128x128 main_cst_2
  let main_v11 : IVec S32x1x128x128 1 := cmpf .olt main_v9 main_v10
  let main_c_3 : IVec S_ 1 := constantI S_ 1 1#1
  let main_v12 : IVec S_ 1 := (fun x v => Host.reduce IntOp.andi x v reducesTo_S32x1x128x128_S_d0_1_2_3 h_S_) main_v11 main_c_3
  let main_v13 : IVec S_ 1 := andi main_v8 main_v12
  let main_v14 : FVec F S32x1x128x128 .f32 := Host.absf main_arg3
  let main_cst_4 : FVec F S_ .f32 := constant S_ .f32 0x7F800000#32
  let main_v15 : FVec F S32x1x128x128 .f32 := broadcastInDim S32x1x128x128 ![] bcast_S_S32x1x128x128 main_cst_4
  let main_v16 : IVec S32x1x128x128 1 := cmpf .olt main_v14 main_v15
  fn_part1 (F := F) main_arg6 main_arg7 main_arg8 main_arg11 main_v13 main_v16
-- ==== Kernel.lean ====
abbrev S4x256x512x3 : Shape := ⟨4, ![4, 256, 512, 3]⟩
abbrev S32x1x128x128 : Shape := ⟨4, ![32, 1, 128, 128]⟩
abbrev S32x128x128 : Shape := ⟨3, ![32, 128, 128]⟩
abbrev S32x1 : Shape := ⟨2, ![32, 1]⟩
abbrev S32 : Shape := ⟨1, ![32]⟩
abbrev S32x1x1 : Shape := ⟨3, ![32, 1, 1]⟩
abbrev S_ : Shape := ⟨0, ![]⟩
abbrev S64x128x128 : Shape := ⟨3, ![64, 128, 128]⟩
abbrev S4x256x512x6 : Shape := ⟨4, ![4, 256, 512, 6]⟩
abbrev S4x6x256x512 : Shape := ⟨4, ![4, 6, 256, 512]⟩
abbrev S64x128x128x1 : Shape := ⟨4, ![64, 128, 128, 1]⟩
abbrev S64x128x128x2 : Shape := ⟨4, ![64, 128, 128, 2]⟩
abbrev S4x6x64x128x128 : Shape := ⟨5, ![4, 6, 64, 128, 128]⟩
abbrev S4x3x64x128x128 : Shape := ⟨5, ![4, 3, 64, 128, 128]⟩
abbrev S4x3x128x128 : Shape := ⟨4, ![4, 3, 128, 128]⟩
abbrev S128x128 : Shape := ⟨2, ![128, 128]⟩
abbrev S64x16x128 : Shape := ⟨3, ![64, 16, 128]⟩
abbrev S4x3x64x16x128 : Shape := ⟨5, ![4, 3, 64, 16, 128]⟩
abbrev S4x3x16x128 : Shape := ⟨4, ![4, 3, 16, 128]⟩
abbrev S16x128 : Shape := ⟨2, ![16, 128]⟩
abbrev S8x16x128 : Shape := ⟨3, ![8, 16, 128]⟩
abbrev S4x3x8x16x128 : Shape := ⟨5, ![4, 3, 8, 16, 128]⟩
abbrev S1x1x8x16x128 : Shape := ⟨5, ![1, 1, 8, 16, 128]⟩
abbrev S3x16x128 : Shape := ⟨3, ![3, 16, 128]⟩
abbrev S1x3x128x128 : Shape := ⟨4, ![1, 3, 128, 128]⟩
abbrev S3x128x128 : Shape := ⟨3, ![3, 128, 128]⟩

abbrev nBuf : Space → Nat
  | .hbm => 68
  | .vmem => 12
  | .smem => 0
  | _ => 0

abbrev bufTy : (tb : Table) → Fin (tcTables nBuf tb) → BufTy
  | .hbm, ⟨0, _⟩ => ⟨S4x256x512x3, .f32⟩
  | .hbm, ⟨1, _⟩ => ⟨S4x256x512x3, .f32⟩
  | .hbm, ⟨2, _⟩ => ⟨S32x1x128x128, .f32⟩
  | .hbm, ⟨3, _⟩ => ⟨S32x1x128x128, .f32⟩
  | .hbm, ⟨4, _⟩ => ⟨S32x128x128, .i32⟩
  | .hbm, ⟨5, _⟩ => ⟨S32x128x128, .i32⟩
  | .hbm, ⟨6, _⟩ => ⟨S32x1, .f32⟩
  | .hbm, ⟨7, _⟩ => ⟨S32x1x128x128, .f32⟩
  | .hbm, ⟨8, _⟩ => ⟨S32x1x128x128, .f32⟩
  | .hbm, ⟨9, _⟩ => ⟨S32x128x128, .i32⟩
  | .hbm, ⟨10, _⟩ => ⟨S32x128x128, .i32⟩
  | .hbm, ⟨11, _⟩ => ⟨S32x1, .f32⟩
  | .hbm, ⟨12, _⟩ => ⟨S32, .f32⟩
  | .hbm, ⟨13, _⟩ => ⟨S32x1x1, .f32⟩
  | .hbm, ⟨14, _⟩ => ⟨S32x128x128, .f32⟩
  | .hbm, ⟨15, _⟩ => ⟨S32x128x128, .f32⟩
  | .hbm, ⟨16, _⟩ => ⟨S_, .f32⟩
  | .hbm, ⟨17, _⟩ => ⟨S32x128x128, .f32⟩
  | .hbm, ⟨18, _⟩ => ⟨S32x128x128, .f32⟩
  | .hbm, ⟨19, _⟩ => ⟨S32x128x128, .f32⟩
  | .hbm, ⟨20, _⟩ => ⟨S32x128x128, .f32⟩
  | .hbm, ⟨21, _⟩ => ⟨S32x128x128, .f32⟩
  | .hbm, ⟨22, _⟩ => ⟨S32, .f32⟩
  | .hbm, ⟨23, _⟩ => ⟨S32x1x1, .f32⟩
  | .hbm, ⟨24, _⟩ => ⟨S32x128x128, .f32⟩
  | .hbm, ⟨25, _⟩ => ⟨S32x128x128, .f32⟩
  | .hbm, ⟨26, _⟩ => ⟨S_, .f32⟩
  | .hbm, ⟨27, _⟩ => ⟨S32x128x128, .f32⟩
  | .hbm, ⟨28, _⟩ => ⟨S32x128x128, .f32⟩
  | .hbm, ⟨29, _⟩ => ⟨S32x128x128, .f32⟩
  | .hbm, ⟨30, _⟩ => ⟨S32x128x128, .f32⟩
  | .hbm, ⟨31, _⟩ => ⟨S32x128x128, .f32⟩
  | .hbm, ⟨32, _⟩ => ⟨S64x128x128, .f32⟩
  | .hbm, ⟨33, _⟩ => ⟨S64x128x128, .i32⟩
  | .hbm, ⟨34, _⟩ => ⟨S64x128x128, .i32⟩
  | .hbm, ⟨35, _⟩ => ⟨S4x256x512x6, .f32⟩
  | .hbm, ⟨36, _⟩ => ⟨S4x6x256x512, .f32⟩
  | .hbm, ⟨37, _⟩ => ⟨S_, .i32⟩
  | .hbm, ⟨38, _⟩ => ⟨S64x128x128, .i32⟩
  | .hbm, ⟨39, _⟩ => ⟨S64x128x128, .i1⟩
  | .hbm, ⟨40, _⟩ => ⟨S_, .i32⟩
  | .hbm, ⟨41, _⟩ => ⟨S64x128x128, .i32⟩
  | .hbm, ⟨42, _⟩ => ⟨S64x128x128, .i32⟩
  | .hbm, ⟨43, _⟩ => ⟨S64x128x128, .i32⟩
  | .hbm, ⟨44, _⟩ => ⟨S_, .i32⟩
  | .hbm, ⟨45, _⟩ => ⟨S64x128x128, .i32⟩
  | .hbm, ⟨46, _⟩ => ⟨S64x128x128, .i1⟩
  | .hbm, ⟨47, _⟩ => ⟨S_, .i32⟩
  | .hbm, ⟨48, _⟩ => ⟨S64x128x128, .i32⟩
  | .hbm, ⟨49, _⟩ => ⟨S64x128x128, .i32⟩
  | .hbm, ⟨50, _⟩ => ⟨S64x128x128, .i32⟩
  | .hbm, ⟨51, _⟩ => ⟨S64x128x128x1, .i32⟩
  | .hbm, ⟨52, _⟩ => ⟨S64x128x128x1, .i32⟩
  | .hbm, ⟨53, _⟩ => ⟨S64x128x128x2, .i32⟩
  | .hbm, ⟨54, _⟩ => ⟨S4x6x64x128x128, .f32⟩
  | .hbm, ⟨55, _⟩ => ⟨S4x3x64x128x128, .f32⟩
  | .hbm, ⟨56, _⟩ => ⟨S4x3x64x128x128, .f32⟩
  | .hbm, ⟨57, _⟩ => ⟨S4x3x128x128, .f32⟩
  | .hbm, ⟨58, _⟩ => ⟨S4x3x128x128, .f32⟩
  | .hbm, ⟨59, _⟩ => ⟨S128x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x3x128x128, .f32⟩
  | .hbm, ⟨65, _⟩ => ⟨S3x128x128, .f32⟩
  | .hbm, ⟨66, _⟩ => ⟨S1x3x128x128, .f32⟩
  | .hbm, ⟨67, _⟩ => ⟨S3x128x128, .f32⟩
  | .local _ .vmem, ⟨0, _⟩ => ⟨S64x16x128, .f32⟩
  | .local _ .vmem, ⟨1, _⟩ => ⟨S64x16x128, .f32⟩
  | .local _ .vmem, ⟨2, _⟩ => ⟨S4x3x64x16x128, .f32⟩
  | .local _ .vmem, ⟨3, _⟩ => ⟨S4x3x64x16x128, .f32⟩
  | .local _ .vmem, ⟨4, _⟩ => ⟨S4x3x64x16x128, .f32⟩
  | .local _ .vmem, ⟨5, _⟩ => ⟨S4x3x64x16x128, .f32⟩
  | .local _ .vmem, ⟨6, _⟩ => ⟨S4x3x16x128, .f32⟩
  | .local _ .vmem, ⟨7, _⟩ => ⟨S4x3x16x128, .f32⟩
  | .local _ .vmem, ⟨8, _⟩ => ⟨S4x3x16x128, .f32⟩
  | .local _ .vmem, ⟨9, _⟩ => ⟨S4x3x16x128, .f32⟩
  | .local _ .vmem, ⟨10, _⟩ => ⟨S16x128, .f32⟩
  | .local _ .vmem, ⟨11, _⟩ => ⟨S16x128, .f32⟩
  | _, _ => ⟨S4x256x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_cst_4 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c8_i32 : BitVec 32 := 8#32
  let v1 : BitVec 32 := Scalar.muli c0_i32 c8_i32
  v1
def k0_off1 (c0_i32 : BitVec 32) : Fin 3 → Nat :=
  let c8_i32 : BitVec 32 := 8#32
  let v1 : BitVec 32 := Scalar.muli c0_i32 c8_i32
  let v2 : BitVec 32 := v1
  let v3 : Index := Scalar.indexCast v2
  let c0 : Index := 0#32
  let c0_0 : Index := 0#32
  ![v3.toNat, 0, 0]
def k0_off2 (c0_i32 : BitVec 32) : Fin 5 → Nat :=
  let c0_1 : Index := 0#32
  let c0_2 : Index := 0#32
  let c8_i32 : BitVec 32 := 8#32
  let v1 : BitVec 32 := Scalar.muli c0_i32 c8_i32
  let v2 : BitVec 32 := v1
  let v6 : Index := Scalar.indexCast v2
  let c0_3 : Index := 0#32
  let c0_4 : Index := 0#32
  ![0, 0, v6.toNat, 0, 0]
def k0_mult2 : BitVec 32 :=
  let c1_i32 : BitVec 32 := 1#32
  let c8_i32_11 : BitVec 32 := 8#32
  let v21 : BitVec 32 := Scalar.muli c1_i32 c8_i32_11
  v21
def k0_mult3 : BitVec 32 :=
  let c2_i32 : BitVec 32 := 2#32
  let c8_i32_24 : BitVec 32 := 8#32
  let v41 : BitVec 32 := Scalar.muli c2_i32 c8_i32_24
  v41
def k0_mult4 : BitVec 32 :=
  let c3_i32 : BitVec 32 := 3#32
  let c8_i32_37 : BitVec 32 := 8#32
  let v61 : BitVec 32 := Scalar.muli c3_i32 c8_i32_37
  v61
def k0_mult5 : BitVec 32 :=
  let c4_i32 : BitVec 32 := 4#32
  let c8_i32_50 : BitVec 32 := 8#32
  let v81 : BitVec 32 := Scalar.muli c4_i32 c8_i32_50
  v81
def k0_mult6 : BitVec 32 :=
  let c5_i32 : BitVec 32 := 5#32
  let c8_i32_63 : BitVec 32 := 8#32
  let v101 : BitVec 32 := Scalar.muli c5_i32 c8_i32_63
  v101
def k0_mult7 : BitVec 32 :=
  let c6_i32 : BitVec 32 := 6#32
  let c8_i32_76 : BitVec 32 := 8#32
  let v121 : BitVec 32 := Scalar.muli c6_i32 c8_i32_76
  v121
def k0_mult8 : BitVec 32 :=
  let c7_i32 : BitVec 32 := 7#32
  let c8_i32_89 : BitVec 32 := 8#32
  let v141 : BitVec 32 := Scalar.muli c7_i32 c8_i32_89
  v141
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, arg0.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, arg0.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x64x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x64x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x3x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x1_S32 : S32x1.ShapeCasts S32
  bcast_S32_S32x1x1_0 : S32.BroadcastsInDim S32x1x1 (![0] : Fin 1 → Fin S32x1x1.rank)
  shapeCasts_S32x1x128x128_S32x128x128 : S32x1x128x128.ShapeCasts S32x128x128
  bcast_S_S32x128x128 : S_.BroadcastsInDim S32x128x128 (![] : Fin 0 → Fin S32x128x128.rank)
  bcast_S32x1x1_S32x128x128_0_1_2 : S32x1x1.BroadcastsInDim S32x128x128 (![0, 1, 2] : Fin 3 → Fin S32x128x128.rank)
  concatenates_S32x128x128_S32x128x128_S64x128x128_d0 : Shape.Concatenates [S32x128x128, S32x128x128] S64x128x128 0
  concatenates_S4x256x512x3_S4x256x512x3_S4x256x512x6_d3 : Shape.Concatenates [S4x256x512x3, S4x256x512x3] S4x256x512x6 3
  transposes_S4x256x512x6_S4x6x256x512_0_3_1_2 : S4x256x512x6.Transposes [0, 3, 1, 2] S4x6x256x512
  bcast_S_S64x128x128 : S_.BroadcastsInDim S64x128x128 (![] : Fin 0 → Fin S64x128x128.rank)
  bcast_S64x128x128_S64x128x128x1_0_1_2 : S64x128x128.BroadcastsInDim S64x128x128x1 (![0, 1, 2] : Fin 3 → Fin S64x128x128x1.rank)
  concatenates_S64x128x128x1_S64x128x128x1_S64x128x128x2_d3 : Shape.Concatenates [S64x128x128x1, S64x128x128x1] S64x128x128x2 3
  slices_S4x6x64x128x128_S4x3x64x128x128_0_0_0_0_0 : S4x6x64x128x128.Slices ![0, 0, 0, 0, 0] S4x3x64x128x128
  slices_S4x6x64x128x128_S4x3x64x128x128_0_3_0_0_0 : S4x6x64x128x128.Slices ![0, 3, 0, 0, 0] S4x3x64x128x128
  h_S8x16x128 : 0 < S8x16x128.numel
  shapeCasts_S8x16x128_S8x16x128 : S8x16x128.ShapeCasts S8x16x128
  h_S4x3x8x16x128 : 0 < S4x3x8x16x128.numel
  shapeCasts_S4x3x8x16x128_S4x3x8x16x128 : S4x3x8x16x128.ShapeCasts S4x3x8x16x128
  shapeCasts_S8x16x128_S1x1x8x16x128 : S8x16x128.ShapeCasts S1x1x8x16x128
  broadcasts_S1x1x8x16x128_S4x3x8x16x128 : S1x1x8x16x128.Broadcasts S4x3x8x16x128
  reduces_S4x3x8x16x128_S4x3x16x128 : S4x3x8x16x128.Reduces [2] S4x3x16x128
  inb_S4x3x16x128_S4x3x16x128_0_0_0_0 : ∀ a, (![0, 0, 0, 0] : Fin 4 → Nat) a + S4x3x16x128.size a ≤ S4x3x16x128.size a
  h_S4x3x16x128 : 0 < S4x3x16x128.numel
  reduces_S4x3x16x128_S3x16x128 : S4x3x16x128.Reduces [0] S3x16x128
  reduces_S3x16x128_S16x128 : S3x16x128.Reduces [0] S16x128
  inb_S16x128_S16x128_0_0 : ∀ a, (![0, 0] : Fin 2 → Nat) a + S16x128.size a ≤ S16x128.size a
  h_S16x128 : 0 < S16x128.numel
  reducesTo_S128x128_S_d0_1 : S128x128.ReducesTo [0, 1] S_
  h_S_ : 0 < S_.numel
  slices_S4x3x128x128_S1x3x128x128_0_0_0_0 : S4x3x128x128.Slices ![0, 0, 0, 0] S1x3x128x128
  shapeCasts_S1x3x128x128_S3x128x128 : S1x3x128x128.ShapeCasts S3x128x128
  gather_S4x6x256x512_S64x128x128x2_S4x6x64x128x128_01_23_n_n_23_3_4611_wf : GatherDims.WF S4x6x256x512 S64x128x128x2 S4x6x64x128x128 [0, 1] [2, 3] [] [2, 3] [] 3 ![4, 6, 1, 1]
  hrank0 : 0 < grid0.rank
  k0_mult1_dvd : 8 ∣ k0_mult1.toNat
  k0_off1_inb : ∀ (r : Fin 8), ∀ a, (k0_off1 (BitVec.ofNat 32 r.val)) a + S8x16x128.size a ≤ S64x16x128.size a
  k0_off2_inb : ∀ (r : Fin 8), ∀ a, (k0_off2 (BitVec.ofNat 32 r.val)) a + S4x3x8x16x128.size a ≤ S4x3x64x16x128.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x128.size a ≤ S64x128x128.size a
  hwx0_0 : ∀ i : grid0.Coords, EltTy.bits .f32 = 32 ∨ (Rect.block (s := S64x128x128) S64x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x64x16x128.size a ≤ S4x3x64x128x128.size a
  hwx0_1 : ∀ i : grid0.Coords, EltTy.bits .f32 = 32 ∨ (Rect.block (s := S4x3x64x128x128) S4x3x64x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x64x16x128.size a ≤ S4x3x64x128x128.size a
  hwx0_2 : ∀ i : grid0.Coords, EltTy.bits .f32 = 32 ∨ (Rect.block (s := S4x3x64x128x128) S4x3x64x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x16x128.size a ≤ S4x3x128x128.size a
  hwx0_3 : ∀ i : grid0.Coords, EltTy.bits .f32 = 32 ∨ (Rect.block (s := S4x3x128x128) S4x3x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x3x16x128.size a ≤ S4x3x128x128.size a
  hwx0_4 : ∀ i : grid0.Coords, EltTy.bits .f32 = 32 ∨ (Rect.block (s := S4x3x128x128) S4x3x16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S128x128.size a
  hwx0_5 : ∀ i : grid0.Coords, EltTy.bits .f32 = 32 ∨ (Rect.block (s := S128x128) S16x128.size (cc0_transform_5 i) (hinb0_5 i)).WholeWords (EltTy.packing .f32)

variable [Facts₀]

def gather_S4x6x256x512_S64x128x128x2_S4x6x64x128x128_01_23_n_n_23_3_4611 : GatherDims S4x6x256x512 S64x128x128x2 S4x6x64x128x128 where
  offsetDims := [0, 1]
  collapsedSliceDims := [2, 3]
  operandBatchingDims := []
  startIndicesBatchingDims := []
  startIndexMap := [2, 3]
  indexVectorDim := 3
  sliceSizes := ![4, 6, 1, 1]
  wf := gather_S4x6x256x512_S64x128x128x2_S4x6x64x128x128_01_23_n_n_23_3_4611_wf

abbrev win0_0 : Pipeline.Window sig grid0 :=
  Pipeline.Window.ofSpec (Memref.whole main_v18) S64x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4x3x64x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4x3x64x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39_0) S4x3x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39_1) S4x3x16x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39_2) S16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x512x3 : Shape := ⟨4, ![4, 256, 512, 3]⟩
abbrev S32x1x128x128 : Shape := ⟨4, ![32, 1, 128, 128]⟩
abbrev S32x128x128 : Shape := ⟨3, ![32, 128, 128]⟩
abbrev S32x1 : Shape := ⟨2, ![32, 1]⟩
abbrev S_ : Shape := ⟨0, ![]⟩
abbrev S32x128x128x1 : Shape := ⟨4, ![32, 128, 128, 1]⟩
abbrev S32x128x128x2 : Shape := ⟨4, ![32, 128, 128, 2]⟩
abbrev S4x32x128x128x3 : Shape := ⟨5, ![4, 32, 128, 128, 3]⟩
abbrev S4x32x3x128x128 : Shape := ⟨5, ![4, 32, 3, 128, 128]⟩
abbrev S1x32x1x1x1 : Shape := ⟨5, ![1, 32, 1, 1, 1]⟩
abbrev S1x32x1x128x128 : Shape := ⟨5, ![1, 32, 1, 128, 128]⟩
abbrev S4x3x128x128 : Shape := ⟨4, ![4, 3, 128, 128]⟩
abbrev S1x3x128x128 : Shape := ⟨4, ![1, 3, 128, 128]⟩
abbrev S3x128x128 : Shape := ⟨3, ![3, 128, 128]⟩

abbrev nBuf : Space → Nat
  | .hbm => 176
  | .vmem => 0
  | .smem => 0
  | _ => 0

abbrev hbmTy0_0 (i : Nat) : BufTy := match i % 128 with
  | 0 => ⟨S4x256x512x3, .f32⟩
  | 1 => ⟨S4x256x512x3, .f32⟩
  | 2 => ⟨S32x1x128x128, .f32⟩
  | 3 => ⟨S32x1x128x128, .f32⟩
  | 4 => ⟨S32x128x128, .i32⟩
  | 5 => ⟨S32x128x128, .i32⟩
  | 6 => ⟨S32x1, .f32⟩
  | 7 => ⟨S32x1x128x128, .f32⟩
  | 8 => ⟨S32x1x128x128, .f32⟩
  | 9 => ⟨S32x128x128, .i32⟩
  | 10 => ⟨S32x128x128, .i32⟩
  | 11 => ⟨S32x1, .f32⟩
  | 12 => ⟨S_, .i32⟩
  | 13 => ⟨S32x128x128, .i32⟩
  | 14 => ⟨S32x128x128, .i1⟩
  | 15 => ⟨S_, .i32⟩
  | 16 => ⟨S32x128x128, .i32⟩
  | 17 => ⟨S32x128x128, .i32⟩
  | 18 => ⟨S32x128x128, .i32⟩
  | 19 => ⟨S_, .i32⟩
  | 20 => ⟨S32x128x128, .i32⟩
  | 21 => ⟨S32x128x128, .i1⟩
  | 22 => ⟨S_, .i32⟩
  | 23 => ⟨S32x128x128, .i32⟩
  | 24 => ⟨S32x128x128, .i32⟩
  | 25 => ⟨S32x128x128, .i32⟩
  | 26 => ⟨S32x128x128x1, .i32⟩
  | 27 => ⟨S32x128x128x1, .i32⟩
  | 28 => ⟨S32x128x128x2, .i32⟩
  | 29 => ⟨S4x32x128x128x3, .f32⟩
  | 30 => ⟨S4x32x3x128x128, .f32⟩
  | 31 => ⟨S1x32x1x1x1, .f32⟩
  | 32 => ⟨S1x32x1x128x128, .f32⟩
  | 33 => ⟨S1x32x1x128x128, .f32⟩
  | 34 => ⟨S1x32x1x128x128, .f32⟩
  | 35 => ⟨S4x32x3x128x128, .f32⟩
  | 36 => ⟨S4x32x3x128x128, .f32⟩
  | 37 => ⟨S_, .f32⟩
  | 38 => ⟨S4x3x128x128, .f32⟩
  | 39 => ⟨S1x32x1x128x128, .f32⟩
  | 40 => ⟨S1x32x1x128x128, .f32⟩
  | 41 => ⟨S1x32x1x128x128, .f32⟩
  | 42 => ⟨S4x32x3x128x128, .f32⟩
  | 43 => ⟨S4x32x3x128x128, .f32⟩
  | 44 => ⟨S_, .f32⟩
  | 45 => ⟨S4x3x128x128, .f32⟩
  | 46 => ⟨S_, .f32⟩
  | 47 => ⟨S4x3x128x128, .f32⟩
  | 48 => ⟨S4x3x128x128, .f32⟩
  | 49 => ⟨S4x3x128x128, .f32⟩
  | 50 => ⟨S_, .i32⟩
  | 51 => ⟨S32x128x128, .i32⟩
  | 52 => ⟨S32x128x128, .i1⟩
  | 53 => ⟨S_, .i32⟩
  | 54 => ⟨S32x128x128, .i32⟩
  | 55 => ⟨S32x128x128, .i32⟩
  | 56 => ⟨S32x128x128, .i32⟩
  | 57 => ⟨S_, .i32⟩
  | 58 => ⟨S32x128x128, .i32⟩
  | 59 => ⟨S32x128x128, .i1⟩
  | 60 => ⟨S_, .i32⟩
  | 61 => ⟨S32x128x128, .i32⟩
  | 62 => ⟨S32x128x128, .i32⟩
  | 63 => ⟨S32x128x128, .i32⟩
  | 64 => ⟨S32x128x128x1, .i32⟩
  | 65 => ⟨S32x128x128x1, .i32⟩
  | 66 => ⟨S32x128x128x2, .i32⟩
  | 67 => ⟨S4x32x128x128x3, .f32⟩
  | 68 => ⟨S4x32x3x128x128, .f32⟩
  | 69 => ⟨S1x32x1x1x1, .f32⟩
  | 70 => ⟨S1x32x1x128x128, .f32⟩
  | 71 => ⟨S1x32x1x128x128, .f32⟩
  | 72 => ⟨S1x32x1x128x128, .f32⟩
  | 73 => ⟨S4x32x3x128x128, .f32⟩
  | 74 => ⟨S4x32x3x128x128, .f32⟩
  | 75 => ⟨S_, .f32⟩
  | 76 => ⟨S4x3x128x128, .f32⟩
  | 77 => ⟨S1x32x1x128x128, .f32⟩
  | 78 => ⟨S1x32x1x128x128, .f32⟩
  | 79 => ⟨S1x32x1x128x128, .f32⟩
  | 80 => ⟨S4x32x3x128x128, .f32⟩
  | 81 => ⟨S4x32x3x128x128, .f32⟩
  | 82 => ⟨S_, .f32⟩
  | 83 => ⟨S4x3x128x128, .f32⟩
  | 84 => ⟨S_, .f32⟩
  | 85 => ⟨S4x3x128x128, .f32⟩
  | 86 => ⟨S4x3x128x128, .f32⟩
  | 87 => ⟨S4x3x128x128, .f32⟩
  | 88 => ⟨S4x3x128x128, .f32⟩
  | 89 => ⟨S_, .i32⟩
  | 90 => ⟨S32x128x128, .i32⟩
  | 91 => ⟨S32x128x128, .i1⟩
  | 92 => ⟨S_, .i32⟩
  | 93 => ⟨S32x128x128, .i32⟩
  | 94 => ⟨S32x128x128, .i32⟩
  | 95 => ⟨S32x128x128, .i32⟩
  | 96 => ⟨S_, .i32⟩
  | 97 => ⟨S32x128x128, .i32⟩
  | 98 => ⟨S32x128x128, .i1⟩
  | 99 => ⟨S_, .i32⟩
  | 100 => ⟨S32x128x128, .i32⟩
  | 101 => ⟨S32x128x128, .i32⟩
  | 102 => ⟨S32x128x128, .i32⟩
  | 103 => ⟨S32x128x128x1, .i32⟩
  | 104 => ⟨S32x128x128x1, .i32⟩
  | 105 => ⟨S32x128x128x2, .i32⟩
  | 106 => ⟨S4x32x128x128x3, .f32⟩
  | 107 => ⟨S4x32x3x128x128, .f32⟩
  | 108 => ⟨S1x32x1x1x1, .f32⟩
  | 109 => ⟨S1x32x1x128x128, .f32⟩
  | 110 => ⟨S1x32x1x128x128, .f32⟩
  | 111 => ⟨S1x32x1x128x128, .f32⟩
  | 112 => ⟨S4x32x3x128x128, .f32⟩
  | 113 => ⟨S4x32x3x128x128, .f32⟩
  | 114 => ⟨S_, .f32⟩
  | 115 => ⟨S4x3x128x128, .f32⟩
  | 116 => ⟨S1x32x1x128x128, .f32⟩
  | 117 => ⟨S1x32x1x128x128, .f32⟩
  | 118 => ⟨S1x32x1x128x128, .f32⟩
  | 119 => ⟨S4x32x3x128x128, .f32⟩
  | 120 => ⟨S4x32x3x128x128, .f32⟩
  | 121 => ⟨S_, .f32⟩
  | 122 => ⟨S4x3x128x128, .f32⟩
  | 123 => ⟨S_, .f32⟩
  | 124 => ⟨S4x3x128x128, .f32⟩
  | 125 => ⟨S4x3x128x128, .f32⟩
  | 126 => ⟨S4x3x128x128, .f32⟩
  | 127 => ⟨S_, .i32⟩
  | _ => ⟨S4x256x512x3, .f32⟩

abbrev hbmTy0_1 (i : Nat) : BufTy := match i % 128 with
  | 0 => ⟨S32x128x128, .i32⟩
  | 1 => ⟨S32x128x128, .i1⟩
  | 2 => ⟨S_, .i32⟩
  | 3 => ⟨S32x128x128, .i32⟩
  | 4 => ⟨S32x128x128, .i32⟩
  | 5 => ⟨S32x128x128, .i32⟩
  | 6 => ⟨S_, .i32⟩
  | 7 => ⟨S32x128x128, .i32⟩
  | 8 => ⟨S32x128x128, .i1⟩
  | 9 => ⟨S_, .i32⟩
  | 10 => ⟨S32x128x128, .i32⟩
  | 11 => ⟨S32x128x128, .i32⟩
  | 12 => ⟨S32x128x128, .i32⟩
  | 13 => ⟨S32x128x128x1, .i32⟩
  | 14 => ⟨S32x128x128x1, .i32⟩
  | 15 => ⟨S32x128x128x2, .i32⟩
  | 16 => ⟨S4x32x128x128x3, .f32⟩
  | 17 => ⟨S4x32x3x128x128, .f32⟩
  | 18 => ⟨S1x32x1x1x1, .f32⟩
  | 19 => ⟨S1x32x1x128x128, .f32⟩
  | 20 => ⟨S1x32x1x128x128, .f32⟩
  | 21 => ⟨S1x32x1x128x128, .f32⟩
  | 22 => ⟨S4x32x3x128x128, .f32⟩
  | 23 => ⟨S4x32x3x128x128, .f32⟩
  | 24 => ⟨S_, .f32⟩
  | 25 => ⟨S4x3x128x128, .f32⟩
  | 26 => ⟨S1x32x1x128x128, .f32⟩
  | 27 => ⟨S1x32x1x128x128, .f32⟩
  | 28 => ⟨S1x32x1x128x128, .f32⟩
  | 29 => ⟨S4x32x3x128x128, .f32⟩
  | 30 => ⟨S4x32x3x128x128, .f32⟩
  | 31 => ⟨S_, .f32⟩
  | 32 => ⟨S4x3x128x128, .f32⟩
  | 33 => ⟨S_, .f32⟩
  | 34 => ⟨S4x3x128x128, .f32⟩
  | 35 => ⟨S4x3x128x128, .f32⟩
  | 36 => ⟨S4x3x128x128, .f32⟩
  | 37 => ⟨S4x3x128x128, .f32⟩
  | 38 => ⟨S4x3x128x128, .f32⟩
  | 39 => ⟨S4x3x128x128, .f32⟩
  | 40 => ⟨S_, .f32⟩
  | 41 => ⟨S_, .f32⟩
  | 42 => ⟨S_, .f32⟩
  | 43 => ⟨S_, .f32⟩
  | 44 => ⟨S1x3x128x128, .f32⟩
  | 45 => ⟨S3x128x128, .f32⟩
  | 46 => ⟨S1x3x128x128, .f32⟩
  | 47 => ⟨S3x128x128, .f32⟩
  | _ => ⟨S4x256x512x3, .f32⟩

abbrev hbmTy (i : Nat) : BufTy := match i / 128 with
  | 0 => hbmTy0_0 i
  | 1 => hbmTy0_1 i
  | _ => ⟨S4x256x512x3, .f32⟩

abbrev bufTy : (tb : Table) → Fin (tcTables nBuf tb) → BufTy
  | .hbm, ⟨i, _⟩ => hbmTy i
  | _, _ => ⟨S4x256x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_19 : Ref sig .tc := ⟨.hbm, 127, rfl⟩
abbrev main_v94 : Ref sig .tc := ⟨.hbm, 128, rfl⟩
abbrev main_v95 : Ref sig .tc := ⟨.hbm, 129, rfl⟩
abbrev main_c_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_21 : Ref sig .tc := ⟨.hbm, 134, rfl⟩
abbrev main_v99 : Ref sig .tc := ⟨.hbm, 135, rfl⟩
abbrev main_v100 : Ref sig .tc := ⟨.hbm, 136, rfl⟩
abbrev main_c_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_23 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_24 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_26 : Ref sig .tc := ⟨.hbm, 168, rfl⟩
abbrev main_v128 : Ref sig .tc := ⟨.hbm, 169, rfl⟩
abbrev main_cst_27 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩

abbrev nD : Nat := 1
abbrev τ : Topo := Topo.v7x

variable {F : FTy → Type} [FloatOps F]

class Facts₀ : Prop where
  bcast_S_S32x128x128 : S_.BroadcastsInDim S32x128x128 (![] : Fin 0 → Fin S32x128x128.rank)
  bcast_S32x128x128_S32x128x128x1_0_1_2 : S32x128x128.BroadcastsInDim S32x128x128x1 (![0, 1, 2] : Fin 3 → Fin S32x128x128x1.rank)
  concatenates_S32x128x128x1_S32x128x128x1_S32x128x128x2_d3 : Shape.Concatenates [S32x128x128x1, S32x128x128x1] S32x128x128x2 3
  transposes_S4x32x128x128x3_S4x32x3x128x128_0_1_4_2_3 : S4x32x128x128x3.Transposes [0, 1, 4, 2, 3] S4x32x3x128x128
  bcast_S32x1_S1x32x1x1x1_1_2 : S32x1.BroadcastsInDim S1x32x1x1x1 (![1, 2] : Fin 2 → Fin S1x32x1x1x1.rank)
  bcast_S32x1x128x128_S1x32x1x128x128_1_2_3_4 : S32x1x128x128.BroadcastsInDim S1x32x1x128x128 (![1, 2, 3, 4] : Fin 4 → Fin S1x32x1x128x128.rank)
  bcast_S1x32x1x1x1_S1x32x1x128x128_0_1_2_3_4 : S1x32x1x1x1.BroadcastsInDim S1x32x1x128x128 (![0, 1, 2, 3, 4] : Fin 5 → Fin S1x32x1x128x128.rank)
  bcast_S1x32x1x128x128_S4x32x3x128x128_0_1_2_3_4 : S1x32x1x128x128.BroadcastsInDim S4x32x3x128x128 (![0, 1, 2, 3, 4] : Fin 5 → Fin S4x32x3x128x128.rank)
  reducesTo_S4x32x3x128x128_S4x3x128x128_d1 : S4x32x3x128x128.ReducesTo [1] S4x3x128x128
  h_S_ : 0 < S_.numel
  bcast_S_S4x3x128x128 : S_.BroadcastsInDim S4x3x128x128 (![] : Fin 0 → Fin S4x3x128x128.rank)
  reducesTo_S4x3x128x128_S_d0_1_2_3 : S4x3x128x128.ReducesTo [0, 1, 2, 3] S_
  slices_S4x3x128x128_S1x3x128x128_0_0_0_0 : S4x3x128x128.Slices ![0, 0, 0, 0] S1x3x128x128
  shapeCasts_S1x3x128x128_S3x128x128 : S1x3x128x128.ShapeCasts S3x128x128
  gather_S4x256x512x3_S32x128x128x2_S4x32x128x128x3_04_12_n_n_12_3_4113_wf : GatherDims.WF S4x256x512x3 S32x128x128x2 S4x32x128x128x3 [0, 4] [1, 2] [] [1, 2] [] 3 ![4, 1, 1, 3]

variable [Facts₀]

def gather_S4x256x512x3_S32x128x128x2_S4x32x128x128x3_04_12_n_n_12_3_4113 : GatherDims S4x256x512x3 S32x128x128x2 S4x32x128x128x3 where
  offsetDims := [0, 4]
  collapsedSliceDims := [1, 2]
  operandBatchingDims := []
  startIndicesBatchingDims := []
  startIndexMap := [1, 2]
  indexVectorDim := 3
  sliceSizes := ![4, 1, 1, 3]
  wf := gather_S4x256x512x3_S32x128x128x2_S4x32x128x128x3_04_12_n_n_12_3_4113_wf

class Facts : Prop extends Facts₀ where

variable [Facts]
-- ==== Proof.KBody.lean ====
/-
  The kernel body's arithmetic read at an index, at the exact values.

  The body walks the 64 sampled directions in eight chunks of eight.  For chunk j it loads the coefficients
  c j [8, 16, 128] and the samples g j [4, 3, 8, 16, 128], multiplies each sample by the coefficient of its direction
  and pixel, sums over the chunk's eight directions, and adds the result to a running total that starts at zero.  So
  at batch b, channel ch, row r, lane l the total after the eighth chunk is

      (((zero + Σ_k g0(b,ch,k,r,l)·c0(k,r,l)) + Σ_k g1(…)·c1(…)) + …) + Σ_k g7(…)·c7(…).

  The same walk runs for the second render; the last value is the squared difference of the two totals summed over
  batch and then over channel.
-/
import proofs.«172565_j15144054686503_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Render.KBody

open Cert.KernelIdeal Cert.KernelIdeal.Gen Idealize.ShloMosaic Idealize.ShloMosaic.ValueIdx

/-- The f32 zero the running totals start from. -/
abbrev zero : EReal := Ideal.ofBits .f32 0x00000000#32

/-- One chunk's contribution at (b, ch, r, l): the sum over its eight directions of sample times coefficient. -/
theorem chunk_apply (v4 : S8x16x128.Idx → EReal) (v7 : S4x3x8x16x128.Idx → EReal)
    (h2 : S8x16x128.ShapeCasts S1x1x8x16x128) (h3 : S1x1x8x16x128.Broadcasts S4x3x8x16x128)
    (h5 : S4x3x8x16x128.Reduces [2] S4x3x16x128) (hφ : FKind.Formats .f32)
    (hacc : (0x00000000#32 : BitVec 32) = FKind.add.neutral .f32 hφ)
    (b : Fin 4) (ch : Fin 3) (r : Fin 16) (l : Fin 128) :
    multiReduction (F := Ideal) .add [2] S4x3x16x128
        (mulf (F := Ideal) (φ := .f32) v7 (broadcastTo S4x3x8x16x128 (shapeCast S1x1x8x16x128 v4 h2) h3))
        0x00000000#32 h5 hφ hacc (ix4 b ch r l)
      = ∑ k : Fin 8, v7 (ix5 b ch k r l) * v4 (ix3 k r l) := by
  rw [Ideal.multiReduction_add_single]
  show ∑ k : Fin 8, _ = ∑ k : Fin 8, _
  refine Finset.sum_congr rfl fun k _ => ?_
  have e1 : h5.lift (ix4 b ch r l) k = ix5 b ch k r l := by
    funext a; apply Fin.ext
    match a with
    | ⟨0, _⟩ => rfl
    | ⟨1, _⟩ => rfl
    | ⟨2, _⟩ => rfl
    | ⟨3, _⟩ => rfl
    | ⟨4, _⟩ => rfl
  rw [e1]
  show v7 (ix5 b ch k r l) * broadcastTo S4x3x8x16x128 (shapeCast S1x1x8x16x128 v4 h2) h3 (ix5 b ch k r l) = _
  congr 1
  refine (broadcastTo_apply _ h3 (ix5 b ch k r l) (ix5 (0 : Fin 1) (0 : Fin 1) k r l) (fun a => ?_)).trans ?_
  · match a with
    | ⟨0, _⟩ => show (0 : ℕ) = if (1 : ℕ) = 1 then 0 else _; rw [if_pos rfl]
    | ⟨1, _⟩ => show (0 : ℕ) = if (1 : ℕ) = 1 then 0 else _; rw [if_pos rfl]
    | ⟨2, _⟩ => show k.val = if (8 : ℕ) = 1 then 0 else k.val; rw [if_neg (by decide)]
    | ⟨3, _⟩ => show r.val = if (16 : ℕ) = 1 then 0 else r.val; rw [if_neg (by decide)]
    | ⟨4, _⟩ => show l.val = if (128 : ℕ) = 1 then 0 else l.val; rw [if_neg (by decide)]
  · refine shapeCast_apply v4 h2 (ix5 (0 : Fin 1) (0 : Fin 1) k r l) (ix3 k r l) ?_
    rw [Shape.rowMajor_val_three, Shape.rowMajor_val_five]
    show (k.val * 16 + r.val) * 128 + l.val = ((((0 : ℕ) * 1 + 0) * 8 + k.val) * 16 + r.val) * 128 + l.val
    omega

/-- The eight chunks of coefficients and of samples a total is built from. -/
structure Chunks where
  c : Fin 8 → S8x16x128.Idx → EReal
  g : Fin 8 → S4x3x8x16x128.Idx → EReal

/-- The contribution of chunk j at (b, ch, r, l). -/
def term (X : Chunks) (j : Fin 8) (b : Fin 4) (ch : Fin 3) (r : Fin 16) (l : Fin 128) : EReal :=
  ∑ k : Fin 8, X.g j (ix5 b ch k r l) * X.c j (ix3 k r l)

/-- The running total after all eight chunks. -/
def total (X : Chunks) (b : Fin 4) (ch : Fin 3) (r : Fin 16) (l : Fin 128) : EReal :=
  zero + term X 0 b ch r l + term X 1 b ch r l + term X 2 b ch r l + term X 3 b ch r l + term X 4 b ch r l
    + term X 5 b ch r l + term X 6 b ch r l + term X 7 b ch r l

/-- The first render's running total after seven chunks. -/
def pred6 (X : Chunks) : S4x3x16x128.Idx → EReal :=
  k0_pay20 (F := Ideal)
    (k0_pay15 (F := Ideal)
      (k0_pay10 (F := Ideal) (k0_pay3 (F := Ideal) (X.c 0) (X.g 0)) (k0_pay5 (F := Ideal) (X.c 1)) (k0_pay6 (F := Ideal) (X.g 1)) (X.c 2) (X.g 2))
      (k0_pay12 (F := Ideal) (X.c 3)) (X.g 3) (X.c 4) (X.g 4))
    (X.c 5) (X.g 5) (X.c 6) (X.g 6)

/-- The first render's payload chain: the total of its chunks (the body's first store). -/
def predPay (X : Chunks) : S4x3x16x128.Idx → EReal :=
  k0_pay23 (F := Ideal) (pred6 X) (X.c 7) (X.g 7)

/-- The second render's running total after six chunks. -/
def gt5 (X : Chunks) : S4x3x16x128.Idx → EReal :=
  k0_pay18 (F := Ideal)
    (k0_pay16 (F := Ideal)
      (k0_pay11 (F := Ideal) (k0_pay4 (F := Ideal) (X.c 0) (X.g 0)) (k0_pay5 (F := Ideal) (X.c 1)) (k0_pay7 (F := Ideal) (X.g 1)) (X.c 2) (X.g 2))
      (k0_pay12 (F := Ideal) (X.c 3)) (X.g 3) (X.c 4) (X.g 4))
    (X.c 5) (X.g 5)

/-- The second render's seventh contribution. -/
def gt6 (X : Chunks) : S4x3x16x128.Idx → EReal := k0_pay21 (F := Ideal) (X.c 6) (X.g 6)

/-- The second render's payload chain (the body's second store); its chunks share the coefficients. -/
def gtPay (X : Chunks) : S4x3x16x128.Idx → EReal :=
  k0_pay24 (F := Ideal) (gt5 X) (gt6 X) (X.c 7) (X.g 7)

/-- The third store's payload: the squared difference of the two totals summed over batch, then over channel. -/
def lossPay (c : Fin 8 → S8x16x128.Idx → EReal) (gx gy : Fin 8 → S4x3x8x16x128.Idx → EReal) : S16x128.Idx → EReal :=
  k0_pay25 (F := Ideal) (gt5 ⟨c, gy⟩) (pred6 ⟨c, gx⟩) (gt6 ⟨c, gy⟩) (c 7) (gx 7) (gy 7)

theorem pay1_apply (i : S4x3x16x128.Idx) : k0_pay1 (F := Ideal) i = zero := rfl

/-- Two running totals agree when their eight contributions do. -/
theorem add8_congr {z a0 a1 a2 a3 a4 a5 a6 a7 b0 b1 b2 b3 b4 b5 b6 b7 : EReal}
    (h0 : a0 = b0) (h1 : a1 = b1) (h2 : a2 = b2) (h3 : a3 = b3) (h4 : a4 = b4) (h5 : a5 = b5) (h6 : a6 = b6) (h7 : a7 = b7) :
    z + a0 + a1 + a2 + a3 + a4 + a5 + a6 + a7 = z + b0 + b1 + b2 + b3 + b4 + b5 + b6 + b7 := by
  rw [h0, h1, h2, h3, h4, h5, h6, h7]

/-- The first render's chain at an index is the total. -/
theorem predPay_apply (X : Chunks) (b : Fin 4) (ch : Fin 3) (r : Fin 16) (l : Fin 128) :
    predPay X (ix4 b ch r l) = total X b ch r l := by
  unfold predPay pred6 k0_pay23 k0_pay20 k0_pay15 k0_pay10 k0_pay3 k0_pay22 k0_pay19 k0_pay17 k0_pay14 k0_pay13 k0_pay12
    k0_pay9 k0_pay8 k0_pay6 k0_pay5 k0_pay2 total term
  simp only [shapeCast_self, addf_apply, pay1_apply]
  exact add8_congr (chunk_apply (X.c 0) (X.g 0) _ _ _ _ _ b ch r l) (chunk_apply (X.c 1) (X.g 1) _ _ _ _ _ b ch r l)
    (chunk_apply (X.c 2) (X.g 2) _ _ _ _ _ b ch r l) (chunk_apply (X.c 3) (X.g 3) _ _ _ _ _ b ch r l)
    (chunk_apply (X.c 4) (X.g 4) _ _ _ _ _ b ch r l) (chunk_apply (X.c 5) (X.g 5) _ _ _ _ _ b ch r l)
    (chunk_apply (X.c 6) (X.g 6) _ _ _ _ _ b ch r l) (chunk_apply (X.c 7) (X.g 7) _ _ _ _ _ b ch r l)

/-- The second render's chain at an index is the total. -/
theorem gtPay_apply (X : Chunks) (b : Fin 4) (ch : Fin 3) (r : Fin 16) (l : Fin 128) :
    gtPay X (ix4 b ch r l) = total X b ch r l := by
  unfold gtPay gt5 gt6 k0_pay24 k0_pay21 k0_pay18 k0_pay16 k0_pay11 k0_pay4 k0_pay22 k0_pay19 k0_pay17 k0_pay14 k0_pay13 k0_pay12
    k0_pay9 k0_pay8 k0_pay7 k0_pay5 k0_pay2 total term
  simp only [shapeCast_self, addf_apply, pay1_apply]
  exact add8_congr (chunk_apply (X.c 0) (X.g 0) _ _ _ _ _ b ch r l) (chunk_apply (X.c 1) (X.g 1) _ _ _ _ _ b ch r l)
    (chunk_apply (X.c 2) (X.g 2) _ _ _ _ _ b ch r l) (chunk_apply (X.c 3) (X.g 3) _ _ _ _ _ b ch r l)
    (chunk_apply (X.c 4) (X.g 4) _ _ _ _ _ b ch r l) (chunk_apply (X.c 5) (X.g 5) _ _ _ _ _ b ch r l)
    (chunk_apply (X.c 6) (X.g 6) _ _ _ _ _ b ch r l) (chunk_apply (X.c 7) (X.g 7) _ _ _ _ _ b ch r l)

/-- The third payload at a pixel: over channel and batch, the squared difference of the two totals. -/
theorem lossPay_apply (c : Fin 8 → S8x16x128.Idx → EReal) (gx gy : Fin 8 → S4x3x8x16x128.Idx → EReal) (r : Fin 16) (l : Fin 128) :
    lossPay c gx gy (ix2 r l)
      = ∑ ch : Fin 3, ∑ b : Fin 4, (total ⟨c, gx⟩ b ch r l - total ⟨c, gy⟩ b ch r l) * (total ⟨c, gx⟩ b ch r l - total ⟨c, gy⟩ b ch r l) := by
  unfold lossPay k0_pay25
  refine (Ideal.multiReduction_add_single _ _ _ _ _ (ix2 r l)).trans ?_
  show ∑ ch : Fin 3, _ = ∑ ch : Fin 3, _
  refine Finset.sum_congr rfl fun ch _ => ?_
  refine (Ideal.multiReduction_add_single _ _ _ _ _ _).trans ?_
  show ∑ b : Fin 4, _ = ∑ b : Fin 4, _
  refine Finset.sum_congr rfl fun b _ => ?_
  have e : (reduces_S4x3x16x128_S3x16x128.lift (reduces_S3x16x128_S16x128.lift (ix2 r l) ch) b) = ix4 b ch r l := by
    funext a; apply Fin.ext
    match a with
    | ⟨0, _⟩ => rfl
    | ⟨1, _⟩ => rfl
    | ⟨2, _⟩ => rfl
    | ⟨3, _⟩ => rfl
  rw [e]
  show (predPay ⟨c, gx⟩ (ix4 b ch r l) - gtPay ⟨c, gy⟩ (ix4 b ch r l)) * (predPay ⟨c, gx⟩ (ix4 b ch r l) - gtPay ⟨c, gy⟩ (ix4 b ch r l)) = _
  rw [predPay_apply, gtPay_apply]

end Cert.Render.KBody

end
-- ==== Proof.KOut.lean ====
/-
  What one grid point leaves in the three output blocks, as values.

  At a point the body sees its three input blocks whole: the coefficients x0 [64, 16, 128] and the two sample blocks
  x1, x2 [4, 3, 64, 16, 128].  Chunk j of the walk is rows 8j … 8j+7 of the direction axis of each.  The body's three
  stores each cover their block, so what the blocks hold afterwards is the stores' payloads: the two totals and the
  per-pixel squared difference.
-/
import proofs.«172565_j15144054686503_2_alg».proof.Proof.Gen.KernelIdeal.Frame
import proofs.«172565_j15144054686503_2_alg».proof.Proof.KBody
import Idealize.ShloMosaic.Lib.Pipeline.Value
import Idealize.ShloMosaic.Lib.Tactic

set_option maxRecDepth 16384

noncomputable section

open scoped BigOperators

namespace Cert.Render.KOut

open Cert.KernelIdeal Cert.KernelIdeal.Gen Idealize.ShloMosaic Idealize.ShloMosaic.TcCoe Idealize.SL.Sem
open Idealize.ShloMosaic.ValueIdx Idealize.ShloMosaic.Tactic Cert.Render.KBody

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Chunk j of the coefficient block lies inside it. -/
theorem inb_c (j : Fin 8) : ∀ a, (![8 * j.val, 0, 0] : Fin 3 → Nat) a + S8x16x128.size a ≤ S64x16x128.size a := fun a => by
  have := j.isLt
  match a with
  | ⟨0, _⟩ => show 8 * j.val + 8 ≤ 64; omega
  | ⟨1, _⟩ => show 0 + 16 ≤ 16; omega
  | ⟨2, _⟩ => show 0 + 128 ≤ 128; omega

/-- Chunk j of a sample block lies inside it. -/
theorem inb_g (j : Fin 8) : ∀ a, (![0, 0, 8 * j.val, 0, 0] : Fin 5 → Nat) a + S4x3x8x16x128.size a ≤ S4x3x64x16x128.size a := fun a => by
  have := j.isLt
  match a with
  | ⟨0, _⟩ => show 0 + 4 ≤ 4; omega
  | ⟨1, _⟩ => show 0 + 3 ≤ 3; omega
  | ⟨2, _⟩ => show 8 * j.val + 8 ≤ 64; omega
  | ⟨3, _⟩ => show 0 + 16 ≤ 16; omega
  | ⟨4, _⟩ => show 0 + 128 ≤ 128; omega

/-- The eight coefficient chunks of a block: its rows 8j … 8j+7. -/
def cOf (x0 : S64x16x128.Idx → EReal) (j : Fin 8) : S8x16x128.Idx → EReal :=
  fun y => x0 ((Rect.unit (s := S64x16x128) ![8 * j.val, 0, 0] S8x16x128.size (inb_c j)).emb y)

/-- The eight sample chunks of a block. -/
def gOf (x : S4x3x64x16x128.Idx → EReal) (j : Fin 8) : S4x3x8x16x128.Idx → EReal :=
  fun y => x ((Rect.unit (s := S4x3x64x16x128) ![0, 0, 8 * j.val, 0, 0] S4x3x8x16x128.size (inb_g j)).emb y)

/-- Entry (k, r, l) of coefficient chunk j is entry (8j + k, r, l) of the block. -/
theorem cOf_apply (x0 : S64x16x128.Idx → EReal) (j k : Fin 8) (r : Fin 16) (l : Fin 128) :
    cOf x0 j (ix3 k r l) = x0 (ix3 (⟨8 * j.val + k.val, by have := j.isLt; have := k.isLt; omega⟩ : Fin 64) r l) := by
  show x0 _ = x0 _
  congr 1
  funext a; apply Fin.ext
  match a with
  | ⟨0, _⟩ => show 8 * j.val + 1 * k.val = 8 * j.val + k.val; omega
  | ⟨1, _⟩ => show 0 + 1 * r.val = r.val; omega
  | ⟨2, _⟩ => show 0 + 1 * l.val = l.val; omega

/-- Entry (b, ch, k, r, l) of sample chunk j is entry (b, ch, 8j + k, r, l) of the block. -/
theorem gOf_apply (x : S4x3x64x16x128.Idx → EReal) (j k : Fin 8) (b : Fin 4) (ch : Fin 3) (r : Fin 16) (l : Fin 128) :
    gOf x j (ix5 b ch k r l) = x (ix5 b ch (⟨8 * j.val + k.val, by have := j.isLt; have := k.isLt; omega⟩ : Fin 64) r l) := by
  show x _ = x _
  congr 1
  funext a; apply Fin.ext
  match a with
  | ⟨0, _⟩ => show 0 + 1 * b.val = b.val; omega
  | ⟨1, _⟩ => show 0 + 1 * ch.val = ch.val; omega
  | ⟨2, _⟩ => show 8 * j.val + 1 * k.val = 8 * j.val + k.val; omega
  | ⟨3, _⟩ => show 0 + 1 * r.val = r.val; omega
  | ⟨4, _⟩ => show 0 + 1 * l.val = l.val; omega

/-- The first output block after a point: the first render's total over the point's blocks. -/
theorem out3_eq (c : Dev nD) (i : grid0.Coords) (arg1 : Memref sig .tc .vmem S64x16x128 .f32) (harg1 : arg1.IsWhole) (arg2 : Memref sig .tc .vmem S4x3x64x16x128 .f32) (harg2 : arg2.IsWhole) (arg3 : Memref sig .tc .vmem S4x3x64x16x128 .f32) (harg3 : arg3.IsWhole) (arg4 : Memref sig .tc .vmem S4x3x16x128 .f32) (harg4 : arg4.IsWhole) (arg5 : Memref sig .tc .vmem S4x3x16x128 .f32) (harg5 : arg5.IsWhole) (arg6 : Memref sig .tc .vmem S16x128 .f32) (harg6 : arg6.IsWhole) (x0 : Vec Ideal S64x16x128 .f32) (x1 : Vec Ideal S4x3x64x16x128 .f32) (x2 : Vec Ideal S4x3x64x16x128 .f32) :
    out0_A_3 (F := Ideal) c i arg1 harg1 arg2 harg2 arg3 harg3 arg4 harg4 arg5 harg5 arg6 harg6 x0 x1 x2 = predPay ⟨cOf x0, gOf x1⟩ := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero hz4]
  simp only [View.readAt_eq_ld, harg1.read_unread, harg2.read_unread]
  rfl

/-- The second output block after a point: the second render's total. -/
theorem out4_eq (c : Dev nD) (i : grid0.Coords) (arg1 : Memref sig .tc .vmem S64x16x128 .f32) (harg1 : arg1.IsWhole) (arg2 : Memref sig .tc .vmem S4x3x64x16x128 .f32) (harg2 : arg2.IsWhole) (arg3 : Memref sig .tc .vmem S4x3x64x16x128 .f32) (harg3 : arg3.IsWhole) (arg4 : Memref sig .tc .vmem S4x3x16x128 .f32) (harg4 : arg4.IsWhole) (arg5 : Memref sig .tc .vmem S4x3x16x128 .f32) (harg5 : arg5.IsWhole) (arg6 : Memref sig .tc .vmem S16x128 .f32) (harg6 : arg6.IsWhole) (x0 : Vec Ideal S64x16x128 .f32) (x1 : Vec Ideal S4x3x64x16x128 .f32) (x2 : Vec Ideal S4x3x64x16x128 .f32) :
    out0_A_4 (F := Ideal) c i arg1 harg1 arg2 harg2 arg3 harg3 arg4 harg4 arg5 harg5 arg6 harg6 x0 x1 x2 = gtPay ⟨cOf x0, gOf x2⟩ := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  sl_unfold_words
  rw [View.canon_unit_zero hz4]
  simp only [View.readAt_eq_ld, harg1.read_unread, harg3.read_unread]
  rfl

/-- The third output block after a point: the per-pixel squared difference. -/
theorem out5_eq (c : Dev nD) (i : grid0.Coords) (arg1 : Memref sig .tc .vmem S64x16x128 .f32) (harg1 : arg1.IsWhole) (arg2 : Memref sig .tc .vmem S4x3x64x16x128 .f32) (harg2 : arg2.IsWhole) (arg3 : Memref sig .tc .vmem S4x3x64x16x128 .f32) (harg3 : arg3.IsWhole) (arg4 : Memref sig .tc .vmem S4x3x16x128 .f32) (harg4 : arg4.IsWhole) (arg5 : Memref sig .tc .vmem S4x3x16x128 .f32) (harg5 : arg5.IsWhole) (arg6 : Memref sig .tc .vmem S16x128 .f32) (harg6 : arg6.IsWhole) (x0 : Vec Ideal S64x16x128 .f32) (x1 : Vec Ideal S4x3x64x16x128 .f32) (x2 : Vec Ideal S4x3x64x16x128 .f32) :
    out0_A_5 (F := Ideal) c i arg1 harg1 arg2 harg2 arg3 harg3 arg4 harg4 arg5 harg5 arg6 harg6 x0 x1 x2 = lossPay (cOf x0) (gOf x1) (gOf x2) := by
  unfold out0_A_5
  rw [View.read_writes_eq_canon _ _ _ (cover0_A_5 c i arg1 harg1 arg2 harg2 arg3 harg3 arg4 harg4 arg5 harg5 arg6 harg6 x0 x1 x2)]
  unfold kernelRun0_A
  dsimp only
  sl_unfold_words
  rw [View.canon_unit_zero hz2]
  simp only [View.readAt_eq_ld, harg1.read_unread, harg2.read_unread, harg3.read_unread]
  rfl

end Cert.Render.KOut

end
-- ==== Proof.Spec.lean ====
/-
  The rendering loss written over coordinates, once in each of the two arrangements the programs use.

  A render pass sums, over 32 sampled directions n, the environment sample g n weighted by the direction's weight w n
  and its reflectance: diffuse d n plus ten times specular s n.  One arrangement keeps the diffuse and the specular
  sums apart and scales the specular sum afterwards (`passRef`); the other first folds weight and reflectance into one
  coefficient per direction (`coef`), joins the two passes' 32 directions into 64 (`cat`), and accumulates the 64
  products in eight chunks of eight (`acc8`).  The loss is the sum of squared differences of two renders divided by
  a pixel count; one arrangement sums over all four axes at once, the other first over batch, then channel, then
  over the image.

  The sampled position of an environment map is a pair of 32-bit words: a negative word is first moved up by the
  axis' extent, then read signed and clamped into the axis (`pos`).
-/
import Idealize.ShloMosaic.PureOps.Ideal
import Idealize.ShloMosaic.Lib.ValueIdx

noncomputable section

open scoped BigOperators

namespace Cert.Render

open Idealize.ShloMosaic Idealize.ShloMosaic.ValueIdx

/-! ## Positions -/

/-- A word moved up by `k` when it is negative. -/
def wrap (k v : BitVec 32) : BitVec 32 := Scalar.select (IntOp.cmpi .slt v 0#32) (IntOp.addi v k) v

/-- A word read signed and clamped into an axis of extent `n`. -/
def pos (n : Nat) (hn : 0 < n) (v : BitVec 32) : Fin n := ⟨min v.toInt.toNat (n - 1), by omega⟩

/-- The environment sample at batch `b`, channel `ch`, for the position words `iy` (rows, 256) and `ix` (columns, 512). -/
def samp (e : (⟨4, ![4, 256, 512, 3]⟩ : Shape).Idx → EReal) (iy ix : BitVec 32) (b : Fin 4) (ch : Fin 3) : EReal :=
  e (ix4 b (pos 256 (by decide) (wrap 256#32 iy)) (pos 512 (by decide) (wrap 512#32 ix)) ch)

/-! ## The two arrangements of a render -/

section
variable (zero ten : EReal)

/-- One pass with the diffuse and specular sums kept apart: Σ (d·w)·g + ten · Σ (s·w)·g, each sum started from `zero`. -/
def passRef (d s w g : Fin 32 → EReal) : EReal :=
  (zero + ∑ n, (d n * w n) * g n) + ten * (zero + ∑ n, (s n * w n) * g n)

/-- Two passes added. -/
def renderRef (d0 s0 w0 g0 d1 s1 w1 g1 : Fin 32 → EReal) : EReal :=
  passRef zero ten d0 s0 w0 g0 + passRef zero ten d1 s1 w1 g1

/-- The folded coefficient of a direction: w · (d + ten · s). -/
def coef (d s w : Fin 32 → EReal) (n : Fin 32) : EReal := w n * (d n + ten * s n)

/-- Two lists of 32 joined into one of 64. -/
def cat {α : Type} (a b : Fin 32 → α) (n : Fin 64) : α :=
  if h : n.val < 32 then a ⟨n.val, h⟩ else b ⟨n.val - 32, by have := n.isLt; omega⟩

/-- The sum of the eight terms of chunk `j`. -/
def chunk (f : Fin 64 → EReal) (j : Fin 8) : EReal := ∑ k : Fin 8, f ⟨8 * j.val + k.val, by have := j.isLt; have := k.isLt; omega⟩

/-- Sixty-four terms accumulated chunk by chunk onto a running total that starts at `zero`. -/
def acc8 (f : Fin 64 → EReal) : EReal :=
  zero + chunk f 0 + chunk f 1 + chunk f 2 + chunk f 3 + chunk f 4 + chunk f 5 + chunk f 6 + chunk f 7

/-- Both passes at once: the 64 products sample · coefficient accumulated in chunks. -/
def renderK (d0 s0 w0 g0 d1 s1 w1 g1 : Fin 32 → EReal) : EReal :=
  acc8 zero (fun n => cat g0 g1 n * cat (coef ten d0 s0 w0) (coef ten d1 s1 w1) n)

/-! ## The renders over the argument arrays

The arrays come in the order the programs take them: the environment map `e` [4, 256, 512, 3]; then for each pass the
specular `sp` and diffuse `df` reflectances [32, 1, 128, 128], the column words `jx` and row words `jy` [32, 128, 128],
and the weights `w` [32, 1]. -/

/-- The render at batch `b`, channel `ch`, pixel `(r, l)` with the sums kept apart. -/
def renderRefAt (e : (⟨4, ![4, 256, 512, 3]⟩ : Shape).Idx → EReal)
    (sp0 df0 : (⟨4, ![32, 1, 128, 128]⟩ : Shape).Idx → EReal) (jx0 jy0 : (⟨3, ![32, 128, 128]⟩ : Shape).Idx → BitVec 32)
    (w0 : (⟨2, ![32, 1]⟩ : Shape).Idx → EReal)
    (sp1 df1 : (⟨4, ![32, 1, 128, 128]⟩ : Shape).Idx → EReal) (jx1 jy1 : (⟨3, ![32, 128, 128]⟩ : Shape).Idx → BitVec 32)
    (w1 : (⟨2, ![32, 1]⟩ : Shape).Idx → EReal) (b : Fin 4) (ch : Fin 3) (r l : Fin 128) : EReal :=
  renderRef zero ten
    (fun n => df0 (ix4 n 0 r l)) (fun n => sp0 (ix4 n 0 r l)) (fun n => w0 (ix2 n 0))
    (fun n => samp e (jy0 (ix3 n r l)) (jx0 (ix3 n r l)) b ch)
    (fun n => df1 (ix4 n 0 r l)) (fun n => sp1 (ix4 n 0 r l)) (fun n => w1 (ix2 n 0))
    (fun n => samp e (jy1 (ix3 n r l)) (jx1 (ix3 n r l)) b ch)

/-- The same render with the coefficients folded and the 64 products accumulated in chunks. -/
def renderKAt (e : (⟨4, ![4, 256, 512, 3]⟩ : Shape).Idx → EReal)
    (sp0 df0 : (⟨4, ![32, 1, 128, 128]⟩ : Shape).Idx → EReal) (jx0 jy0 : (⟨3, ![32, 128, 128]⟩ : Shape).Idx → BitVec 32)
    (w0 : (⟨2, ![32, 1]⟩ : Shape).Idx → EReal)
    (sp1 df1 : (⟨4, ![32, 1, 128, 128]⟩ : Shape).Idx → EReal) (jx1 jy1 : (⟨3, ![32, 128, 128]⟩ : Shape).Idx → BitVec 32)
    (w1 : (⟨2, ![32, 1]⟩ : Shape).Idx → EReal) (b : Fin 4) (ch : Fin 3) (r l : Fin 128) : EReal :=
  renderK zero ten
    (fun n => df0 (ix4 n 0 r l)) (fun n => sp0 (ix4 n 0 r l)) (fun n => w0 (ix2 n 0))
    (fun n => samp e (jy0 (ix3 n r l)) (jx0 (ix3 n r l)) b ch)
    (fun n => df1 (ix4 n 0 r l)) (fun n => sp1 (ix4 n 0 r l)) (fun n => w1 (ix2 n 0))
    (fun n => samp e (jy1 (ix3 n r l)) (jx1 (ix3 n r l)) b ch)

/-- The chunked accumulation over two arrays: coefficients `A0` [64, 128, 128] and samples `A1` [4, 3, 64, 128, 128]. -/
def accAt (A0 : (⟨3, ![64, 128, 128]⟩ : Shape).Idx → EReal) (A1 : (⟨5, ![4, 3, 64, 128, 128]⟩ : Shape).Idx → EReal)
    (b : Fin 4) (ch : Fin 3) (r l : Fin 128) : EReal :=
  acc8 zero (fun n => A1 (ix5 b ch n r l) * A0 (ix3 n r l))

/-! ## The two arrangements of the loss -/

/-- Sum of squared differences over all of [4, 3, 128, 128] at once, from `zero`. -/
def sqSumAll (P Q : (⟨4, ![4, 3, 128, 128]⟩ : Shape).Idx → EReal) : EReal :=
  zero + ∑ j, (P j - Q j) * (P j - Q j)

/-- The squared differences summed over batch, then over channel, at one pixel. -/
def sqPixel (P Q : (⟨4, ![4, 3, 128, 128]⟩ : Shape).Idx → EReal) (r l : Fin 128) : EReal :=
  ∑ ch : Fin 3, ∑ b : Fin 4, (P (ix4 b ch r l) - Q (ix4 b ch r l)) * (P (ix4 b ch r l) - Q (ix4 b ch r l))

/-- … and then over the image. -/
def sqSumPixels (P Q : (⟨4, ![4, 3, 128, 128]⟩ : Shape).Idx → EReal) : EReal :=
  zero + ∑ i : (⟨2, ![128, 128]⟩ : Shape).Idx, sqPixel P Q (i 0) (i 1)

end

end Cert.Render

end
-- ==== Proof.KArr.lean ====
/-
  From blocks to arrays.

  The grid has eight points; point t handles image rows 16t … 16t+15.  Its coefficient block is rows 16t … of the
  middle axis of the coefficient array [64, 128, 128], its two sample blocks the same rows of axis 3 of the sample
  arrays [4, 3, 64, 128, 128]; it writes back rows 16t … of axis 2 of the two render arrays [4, 3, 128, 128] and rows
  16t … of the per-pixel array [128, 128].  Every row belongs to the block of point row / 16, so after the run each
  output array is one function of the three input arrays, index by index.
-/
import proofs.«172565_j15144054686503_2_alg».proof.Proof.Gen.KernelIdeal.Frame
import proofs.«172565_j15144054686503_2_alg».proof.Proof.KOut
import proofs.«172565_j15144054686503_2_alg».proof.Proof.Spec
import Idealize.ShloMosaic.Lib.Pipeline.Value

set_option maxRecDepth 16384

noncomputable section

open scoped BigOperators

namespace Cert.Render.KArr

open Cert.KernelIdeal Cert.KernelIdeal.Gen Idealize.ShloMosaic Idealize.ShloMosaic.TcCoe Idealize.SL.Sem
open Idealize.ShloMosaic.Pipeline (Dat)
open Idealize.ShloMosaic.ValueIdx Cert.Render Cert.Render.KBody Cert.Render.KOut

variable (m : (ℓ : Loc nD τ sig) → Buf (Elt Ideal) ℓ)

/-- The printed index maps, decided over the grid: every window's block index is the point's number on the row axis and
    zero elsewhere. -/
theorem idx_facts : ∀ t : Fin cfg0.N,
    win0_0.index t (0 : Fin 3) = 0 ∧ win0_0.index t (1 : Fin 3) = t.val ∧ win0_0.index t (2 : Fin 3) = 0
    ∧ win0_1.index t (0 : Fin 5) = 0 ∧ win0_1.index t (1 : Fin 5) = 0 ∧ win0_1.index t (2 : Fin 5) = 0 ∧ win0_1.index t (3 : Fin 5) = t.val ∧ win0_1.index t (4 : Fin 5) = 0
    ∧ win0_2.index t (0 : Fin 5) = 0 ∧ win0_2.index t (1 : Fin 5) = 0 ∧ win0_2.index t (2 : Fin 5) = 0 ∧ win0_2.index t (3 : Fin 5) = t.val ∧ win0_2.index t (4 : Fin 5) = 0
    ∧ win0_3.index t (0 : Fin 4) = 0 ∧ win0_3.index t (1 : Fin 4) = 0 ∧ win0_3.index t (2 : Fin 4) = t.val ∧ win0_3.index t (3 : Fin 4) = 0
    ∧ win0_4.index t (0 : Fin 4) = 0 ∧ win0_4.index t (1 : Fin 4) = 0 ∧ win0_4.index t (2 : Fin 4) = t.val ∧ win0_4.index t (3 : Fin 4) = 0
    ∧ win0_5.index t (0 : Fin 2) = t.val ∧ win0_5.index t (1 : Fin 2) = 0 :=
  (by decide +kernel : ∀ t : Fin grid0.N, _)

theorem tlt (t : Fin cfg0.N) : t.val < 8 := by have h : cfg0.N = 8 := N_0; have := t.isLt; omega

/-- Row r of point T's block is row 16 T + r of the image. -/
def rowOf (T : Nat) (hT : T < 8) (r : Fin 16) : Fin 128 := ⟨16 * T + r.val, by have := r.isLt; omega⟩

/-- The first render over whole arrays: the chunked accumulation at every index. -/
def predArr (A0 : S64x128x128.Idx → EReal) (A1 : S4x3x64x128x128.Idx → EReal) : S4x3x128x128.Idx → EReal :=
  fun i => accAt KBody.zero A0 A1 (i 0) (i 1) (i 2) (i 3)

/-- The per-pixel squared difference over whole arrays. -/
def pixArr (A0 : S64x128x128.Idx → EReal) (A1 A2 : S4x3x64x128x128.Idx → EReal) : S128x128.Idx → EReal :=
  fun i => sqPixel (predArr A0 A1) (predArr A0 A2) (i 0) (i 1)

/-- A total over blocks that are rows 16 T … of the arrays is the accumulation over the arrays at row 16 T + r. -/
theorem total_rows (x0 : S64x16x128.Idx → EReal) (x1 : S4x3x64x16x128.Idx → EReal)
    (A0 : S64x128x128.Idx → EReal) (A1 : S4x3x64x128x128.Idx → EReal) (T : Nat) (hT : T < 8)
    (h0 : ∀ (n : Fin 64) (r : Fin 16) (l : Fin 128), x0 (ix3 n r l) = A0 (ix3 n (rowOf T hT r) l))
    (h1 : ∀ (b : Fin 4) (ch : Fin 3) (n : Fin 64) (r : Fin 16) (l : Fin 128), x1 (ix5 b ch n r l) = A1 (ix5 b ch n (rowOf T hT r) l))
    (b : Fin 4) (ch : Fin 3) (r : Fin 16) (l : Fin 128) :
    total ⟨cOf x0, gOf x1⟩ b ch r l = accAt KBody.zero A0 A1 b ch (rowOf T hT r) l := by
  unfold total term accAt acc8 chunk
  simp only [cOf_apply, gOf_apply, h0, h1]

/-- The coefficient block of point t is rows 16t … of the coefficient array. -/
theorem iblk0_rows (c : Dev nD) (t : Fin cfg0.N) (n : Fin 64) (r : Fin 16) (l : Fin 128) :
    (iblk m c 0 t : S64x16x128.Idx → EReal) (ix3 n r l) = (V m c main_v18 : S64x128x128.Idx → EReal) (ix3 n (rowOf t.val (tlt t) r) l) := by
  obtain ⟨e0, e1, e2, -⟩ := idx_facts t
  unfold iblk
  rw [View.read_apply]
  show V m c main_v18 _ = V m c main_v18 _
  congr 1
  funext a; apply Fin.ext
  match a with
  | ⟨0, _⟩ => show win0_0.index t 0 * 64 + 1 * n.val = n.val; rw [e0]; omega
  | ⟨1, _⟩ => show win0_0.index t 1 * 16 + 1 * r.val = 16 * t.val + r.val; rw [e1]; omega
  | ⟨2, _⟩ => show win0_0.index t 2 * 128 + 1 * l.val = l.val; rw [e2]; omega

/-- The first sample block of point t is rows 16t … of the first sample array. -/
theorem iblk1_rows (c : Dev nD) (t : Fin cfg0.N) (b : Fin 4) (ch : Fin 3) (n : Fin 64) (r : Fin 16) (l : Fin 128) :
    (iblk m c 1 t : S4x3x64x16x128.Idx → EReal) (ix5 b ch n r l)
      = (V m c main_v37 : S4x3x64x128x128.Idx → EReal) (ix5 b ch n (rowOf t.val (tlt t) r) l) := by
  obtain ⟨-, -, -, e0, e1, e2, e3, e4, -⟩ := idx_facts t
  unfold iblk
  rw [View.read_apply]
  show V m c main_v37 _ = V m c main_v37 _
  congr 1
  funext a; apply Fin.ext
  match a with
  | ⟨0, _⟩ => show win0_1.index t 0 * 4 + 1 * b.val = b.val; rw [e0]; omega
  | ⟨1, _⟩ => show win0_1.index t 1 * 3 + 1 * ch.val = ch.val; rw [e1]; omega
  | ⟨2, _⟩ => show win0_1.index t 2 * 64 + 1 * n.val = n.val; rw [e2]; omega
  | ⟨3, _⟩ => show win0_1.index t 3 * 16 + 1 * r.val = 16 * t.val + r.val; rw [e3]; omega
  | ⟨4, _⟩ => show win0_1.index t 4 * 128 + 1 * l.val = l.val; rw [e4]; omega

/-- The second sample block of point t is rows 16t … of the second sample array. -/
theorem iblk2_rows (c : Dev nD) (t : Fin cfg0.N) (b : Fin 4) (ch : Fin 3) (n : Fin 64) (r : Fin 16) (l : Fin 128) :
    (iblk m c 2 t : S4x3x64x16x128.Idx → EReal) (ix5 b ch n r l)
      = (V m c main_v38 : S4x3x64x128x128.Idx → EReal) (ix5 b ch n (rowOf t.val (tlt t) r) l) := by
  obtain ⟨-, -, -, -, -, -, -, -, e0, e1, e2, e3, e4, -⟩ := idx_facts t
  unfold iblk
  rw [View.read_apply]
  show V m c main_v38 _ = V m c main_v38 _
  congr 1
  funext a; apply Fin.ext
  match a with
  | ⟨0, _⟩ => show win0_2.index t 0 * 4 + 1 * b.val = b.val; rw [e0]; omega
  | ⟨1, _⟩ => show win0_2.index t 1 * 3 + 1 * ch.val = ch.val; rw [e1]; omega
  | ⟨2, _⟩ => show win0_2.index t 2 * 64 + 1 * n.val = n.val; rw [e2]; omega
  | ⟨3, _⟩ => show win0_2.index t 3 * 16 + 1 * r.val = 16 * t.val + r.val; rw [e3]; omega
  | ⟨4, _⟩ => show win0_2.index t 4 * 128 + 1 * l.val = l.val; rw [e4]; omega

/-- A local index y of point T's render block and the array index with the same coordinates, row moved to 16 T + row:
    the first payload there is the accumulation over the arrays. -/
theorem pred_point (T : Nat) (hT : T < 8) (x0 : S64x16x128.Idx → EReal) (x1 : S4x3x64x16x128.Idx → EReal)
    (A0 : S64x128x128.Idx → EReal) (A1 : S4x3x64x128x128.Idx → EReal)
    (h0 : ∀ (n : Fin 64) (r : Fin 16) (l : Fin 128), x0 (ix3 n r l) = A0 (ix3 n (rowOf T hT r) l))
    (h1 : ∀ (b : Fin 4) (ch : Fin 3) (n : Fin 64) (r : Fin 16) (l : Fin 128), x1 (ix5 b ch n r l) = A1 (ix5 b ch n (rowOf T hT r) l))
    (y : S4x3x16x128.Idx) (i : S4x3x128x128.Idx)
    (hi0 : (i 0).val = (y 0).val) (hi1 : (i 1).val = (y 1).val) (hi2 : (i 2).val = 16 * T + (y 2).val) (hi3 : (i 3).val = (y 3).val) :
    predPay ⟨cOf x0, gOf x1⟩ y = predArr A0 A1 i := by
  obtain ⟨b, ch, r, l, rfl⟩ : ∃ (b : Fin 4) (ch : Fin 3) (r : Fin 16) (l : Fin 128), y = ix4 b ch r l := ⟨y 0, y 1, y 2, y 3, eq_ix4 y⟩
  have e0 : i 0 = b := Fin.ext hi0
  have e1 : i 1 = ch := Fin.ext hi1
  have e2 : i 2 = rowOf T hT r := Fin.ext hi2
  have e3 : i 3 = l := Fin.ext hi3
  rw [predPay_apply, total_rows x0 x1 A0 A1 T hT h0 h1]
  unfold predArr
  rw [e0, e1, e2, e3]

/-- The same for the second payload. -/
theorem gt_point (T : Nat) (hT : T < 8) (x0 : S64x16x128.Idx → EReal) (x2 : S4x3x64x16x128.Idx → EReal)
    (A0 : S64x128x128.Idx → EReal) (A2 : S4x3x64x128x128.Idx → EReal)
    (h0 : ∀ (n : Fin 64) (r : Fin 16) (l : Fin 128), x0 (ix3 n r l) = A0 (ix3 n (rowOf T hT r) l))
    (h2 : ∀ (b : Fin 4) (ch : Fin 3) (n : Fin 64) (r : Fin 16) (l : Fin 128), x2 (ix5 b ch n r l) = A2 (ix5 b ch n (rowOf T hT r) l))
    (y : S4x3x16x128.Idx) (i : S4x3x128x128.Idx)
    (hi0 : (i 0).val = (y 0).val) (hi1 : (i 1).val = (y 1).val) (hi2 : (i 2).val = 16 * T + (y 2).val) (hi3 : (i 3).val = (y 3).val) :
    gtPay ⟨cOf x0, gOf x2⟩ y = predArr A0 A2 i := by
  obtain ⟨b, ch, r, l, rfl⟩ : ∃ (b : Fin 4) (ch : Fin 3) (r : Fin 16) (l : Fin 128), y = ix4 b ch r l := ⟨y 0, y 1, y 2, y 3, eq_ix4 y⟩
  have e0 : i 0 = b := Fin.ext hi0
  have e1 : i 1 = ch := Fin.ext hi1
  have e2 : i 2 = rowOf T hT r := Fin.ext hi2
  have e3 : i 3 = l := Fin.ext hi3
  rw [gtPay_apply, total_rows x0 x2 A0 A2 T hT h0 h2]
  unfold predArr
  rw [e0, e1, e2, e3]

/-- … and for the third: the per-pixel squared difference of the two accumulations. -/
theorem pix_point (T : Nat) (hT : T < 8) (x0 : S64x16x128.Idx → EReal) (x1 x2 : S4x3x64x16x128.Idx → EReal)
    (A0 : S64x128x128.Idx → EReal) (A1 A2 : S4x3x64x128x128.Idx → EReal)
    (h0 : ∀ (n : Fin 64) (r : Fin 16) (l : Fin 128), x0 (ix3 n r l) = A0 (ix3 n (rowOf T hT r) l))
    (h1 : ∀ (b : Fin 4) (ch : Fin 3) (n : Fin 64) (r : Fin 16) (l : Fin 128), x1 (ix5 b ch n r l) = A1 (ix5 b ch n (rowOf T hT r) l))
    (h2 : ∀ (b : Fin 4) (ch : Fin 3) (n : Fin 64) (r : Fin 16) (l : Fin 128), x2 (ix5 b ch n r l) = A2 (ix5 b ch n (rowOf T hT r) l))
    (y : S16x128.Idx) (i : S128x128.Idx) (hi0 : (i 0).val = 16 * T + (y 0).val) (hi1 : (i 1).val = (y 1).val) :
    lossPay (cOf x0) (gOf x1) (gOf x2) y = pixArr A0 A1 A2 i := by
  obtain ⟨r, l, rfl⟩ : ∃ (r : Fin 16) (l : Fin 128), y = ix2 r l := ⟨y 0, y 1, eq_ix2 y⟩
  have e0 : i 0 = rowOf T hT r := Fin.ext hi0
  have e1 : i 1 = l := Fin.ext hi1
  rw [lossPay_apply]
  unfold pixArr sqPixel
  rw [e0, e1]
  refine Finset.sum_congr rfl fun ch _ => Finset.sum_congr rfl fun b _ => ?_
  rw [total_rows x0 x1 A0 A1 T hT h0 h1, total_rows x0 x2 A0 A2 T hT h0 h2]
  rfl

/-- WHAT POINT t WRITES BACK to the first render array is block t of the accumulation over the input arrays. -/
theorem flushed3_eq (c : Dev nD) (t : Fin cfg0.N) :
    (dats m 0 c).flushed 3 t = ((cfg0.win 3).blk t).view.read (Elt Ideal) (predArr (V m c main_v18) (V m c main_v37)) := by
  show (cfg0.win 3).cut (grid0.coords t) ((dats m 0 c).after 3 t) = _
  rw [after0_3]
  unfold outsAt0
  dsimp only
  rw [out3_eq]
  obtain ⟨-, -, -, -, -, -, -, -, -, -, -, -, -, e0, e1, e2, e3, -⟩ := idx_facts t
  funext y
  show predPay ⟨cOf (iblk m c 0 t), gOf (iblk m c 1 t)⟩ y = predArr (V m c main_v18) (V m c main_v37) (((cfg0.win 3).blk t).view.emb y)
  refine pred_point t.val (tlt t) (iblk m c 0 t) (iblk m c 1 t) (V m c main_v18) (V m c main_v37) (iblk0_rows m c t) (iblk1_rows m c t) y _ ?_ ?_ ?_ ?_
  · show win0_3.index t 0 * 4 + 1 * (y 0).val = (y 0).val; rw [e0]; omega
  · show win0_3.index t 1 * 3 + 1 * (y 1).val = (y 1).val; rw [e1]; omega
  · show win0_3.index t 2 * 16 + 1 * (y 2).val = 16 * t.val + (y 2).val; rw [e2]; omega
  · show win0_3.index t 3 * 128 + 1 * (y 3).val = (y 3).val; rw [e3]; omega

/-- … to the second render array likewise. -/
theorem flushed4_eq (c : Dev nD) (t : Fin cfg0.N) :
    (dats m 0 c).flushed 4 t = ((cfg0.win 4).blk t).view.read (Elt Ideal) (predArr (V m c main_v18) (V m c main_v38)) := by
  show (cfg0.win 4).cut (grid0.coords t) ((dats m 0 c).after 4 t) = _
  rw [after0_4]
  unfold outsAt0
  dsimp only
  rw [out4_eq]
  obtain ⟨-, -, -, -, -, -, -, -, -, -, -, -, -, -, -, -, -, e0, e1, e2, e3, -⟩ := idx_facts t
  funext y
  show gtPay ⟨cOf (iblk m c 0 t), gOf (iblk m c 2 t)⟩ y = predArr (V m c main_v18) (V m c main_v38) (((cfg0.win 4).blk t).view.emb y)
  refine gt_point t.val (tlt t) (iblk m c 0 t) (iblk m c 2 t) (V m c main_v18) (V m c main_v38) (iblk0_rows m c t) (iblk2_rows m c t) y _ ?_ ?_ ?_ ?_
  · show win0_4.index t 0 * 4 + 1 * (y 0).val = (y 0).val; rw [e0]; omega
  · show win0_4.index t 1 * 3 + 1 * (y 1).val = (y 1).val; rw [e1]; omega
  · show win0_4.index t 2 * 16 + 1 * (y 2).val = 16 * t.val + (y 2).val; rw [e2]; omega
  · show win0_4.index t 3 * 128 + 1 * (y 3).val = (y 3).val; rw [e3]; omega

/-- … and to the per-pixel array. -/
theorem flushed5_eq (c : Dev nD) (t : Fin cfg0.N) :
    (dats m 0 c).flushed 5 t = ((cfg0.win 5).blk t).view.read (Elt Ideal) (pixArr (V m c main_v18) (V m c main_v37) (V m c main_v38)) := by
  show (cfg0.win 5).cut (grid0.coords t) ((dats m 0 c).after 5 t) = _
  rw [after0_5]
  unfold outsAt0
  dsimp only
  rw [out5_eq]
  obtain ⟨-, -, -, -, -, -, -, -, -, -, -, -, -, -, -, -, -, -, -, -, -, e0, e1⟩ := idx_facts t
  funext y
  show lossPay (cOf (iblk m c 0 t)) (gOf (iblk m c 1 t)) (gOf (iblk m c 2 t)) y
    = pixArr (V m c main_v18) (V m c main_v37) (V m c main_v38) (((cfg0.win 5).blk t).view.emb y)
  refine pix_point t.val (tlt t) (iblk m c 0 t) (iblk m c 1 t) (iblk m c 2 t) (V m c main_v18) (V m c main_v37) (V m c main_v38)
    (iblk0_rows m c t) (iblk1_rows m c t) (iblk2_rows m c t) y _ ?_ ?_
  · show win0_5.index t 0 * 16 + 1 * (y 0).val = 16 * t.val + (y 0).val; rw [e0]; omega
  · show win0_5.index t 1 * 128 + 1 * (y 1).val = (y 1).val; rw [e1]; omega

/-- An index of a render array is in point t's block iff each coordinate is in the block's range on its axis. -/
theorem mem_blk3 (t : Fin cfg0.N) (i : S4x3x128x128.Idx) :
    i ∈ ((cfg0.win 3).blk t).view.set ↔ ∀ a : Fin 4, win0_3.index t a * S4x3x16x128.size a ≤ (i a).val ∧ (i a).val < win0_3.index t a * S4x3x16x128.size a + S4x3x16x128.size a := by
  show i ∈ ((View.whole main_v39_0).slice (win0_3.rect t)).set ↔ _
  rw [View.set_slice_whole, Rect.mem_set_unit]
  exact Iff.rfl

theorem mem_blk4 (t : Fin cfg0.N) (i : S4x3x128x128.Idx) :
    i ∈ ((cfg0.win 4).blk t).view.set ↔ ∀ a : Fin 4, win0_4.index t a * S4x3x16x128.size a ≤ (i a).val ∧ (i a).val < win0_4.index t a * S4x3x16x128.size a + S4x3x16x128.size a := by
  show i ∈ ((View.whole main_v39_1).slice (win0_4.rect t)).set ↔ _
  rw [View.set_slice_whole, Rect.mem_set_unit]
  exact Iff.rfl

theorem mem_blk5 (t : Fin cfg0.N) (i : S128x128.Idx) :
    i ∈ ((cfg0.win 5).blk t).view.set ↔ ∀ a : Fin 2, win0_5.index t a * S16x128.size a ≤ (i a).val ∧ (i a).val < win0_5.index t a * S16x128.size a + S16x128.size a := by
  show i ∈ ((View.whole main_v39_2).slice (win0_5.rect t)).set ↔ _
  rw [View.set_slice_whole, Rect.mem_set_unit]
  exact Iff.rfl

/-- The point whose block holds image row R. -/
def pointOf (R : Nat) (hR : R < 128) : Fin cfg0.N := ⟨R / 16, by have h : cfg0.N = 8 := N_0; rw [h]; omega⟩

/-- Every index of the first render array is in the block of the point of its row. -/
theorem cover3 (i : S4x3x128x128.Idx) : ∃ t : Fin cfg0.N, (cfg0.win 3).flush t = true ∧ i ∈ ((cfg0.win 3).blk t).view.set := by
  have h0 : (i 0).val < 4 := (i 0).isLt
  have h1 : (i 1).val < 3 := (i 1).isLt
  have h2 : (i 2).val < 128 := (i 2).isLt
  have h3 : (i 3).val < 128 := (i 3).isLt
  refine ⟨pointOf (i 2).val h2, flush0_3 _, ?_⟩
  obtain ⟨-, -, -, -, -, -, -, -, -, -, -, -, -, e0, e1, e2, e3, -⟩ := idx_facts (pointOf (i 2).val h2)
  have ht : (pointOf (i 2).val h2).val = (i 2).val / 16 := rfl
  rw [mem_blk3]
  intro a
  match a with
  | ⟨0, _⟩ => show win0_3.index _ 0 * 4 ≤ (i 0).val ∧ (i 0).val < win0_3.index _ 0 * 4 + 4; rw [e0]; omega
  | ⟨1, _⟩ => show win0_3.index _ 1 * 3 ≤ (i 1).val ∧ (i 1).val < win0_3.index _ 1 * 3 + 3; rw [e1]; omega
  | ⟨2, _⟩ => show win0_3.index _ 2 * 16 ≤ (i 2).val ∧ (i 2).val < win0_3.index _ 2 * 16 + 16; rw [e2, ht]; omega
  | ⟨3, _⟩ => show win0_3.index _ 3 * 128 ≤ (i 3).val ∧ (i 3).val < win0_3.index _ 3 * 128 + 128; rw [e3]; omega

theorem cover4 (i : S4x3x128x128.Idx) : ∃ t : Fin cfg0.N, (cfg0.win 4).flush t = true ∧ i ∈ ((cfg0.win 4).blk t).view.set := by
  have h0 : (i 0).val < 4 := (i 0).isLt
  have h1 : (i 1).val < 3 := (i 1).isLt
  have h2 : (i 2).val < 128 := (i 2).isLt
  have h3 : (i 3).val < 128 := (i 3).isLt
  refine ⟨pointOf (i 2).val h2, flush0_4 _, ?_⟩
  obtain ⟨-, -, -, -, -, -, -, -, -, -, -, -, -, -, -, -, -, e0, e1, e2, e3, -⟩ := idx_facts (pointOf (i 2).val h2)
  have ht : (pointOf (i 2).val h2).val = (i 2).val / 16 := rfl
  rw [mem_blk4]
  intro a
  match a with
  | ⟨0, _⟩ => show win0_4.index _ 0 * 4 ≤ (i 0).val ∧ (i 0).val < win0_4.index _ 0 * 4 + 4; rw [e0]; omega
  | ⟨1, _⟩ => show win0_4.index _ 1 * 3 ≤ (i 1).val ∧ (i 1).val < win0_4.index _ 1 * 3 + 3; rw [e1]; omega
  | ⟨2, _⟩ => show win0_4.index _ 2 * 16 ≤ (i 2).val ∧ (i 2).val < win0_4.index _ 2 * 16 + 16; rw [e2, ht]; omega
  | ⟨3, _⟩ => show win0_4.index _ 3 * 128 ≤ (i 3).val ∧ (i 3).val < win0_4.index _ 3 * 128 + 128; rw [e3]; omega

theorem cover5 (i : S128x128.Idx) : ∃ t : Fin cfg0.N, (cfg0.win 5).flush t = true ∧ i ∈ ((cfg0.win 5).blk t).view.set := by
  have h0 : (i 0).val < 128 := (i 0).isLt
  have h1 : (i 1).val < 128 := (i 1).isLt
  refine ⟨pointOf (i 0).val h0, flush0_5 _, ?_⟩
  obtain ⟨-, -, -, -, -, -, -, -, -, -, -, -, -, -, -, -, -, -, -, -, -, e0, e1⟩ := idx_facts (pointOf (i 0).val h0)
  have ht : (pointOf (i 0).val h0).val = (i 0).val / 16 := rfl
  rw [mem_blk5]
  intro a
  match a with
  | ⟨0, _⟩ => show win0_5.index _ 0 * 16 ≤ (i 0).val ∧ (i 0).val < win0_5.index _ 0 * 16 + 16; rw [e0, ht]; omega
  | ⟨1, _⟩ => show win0_5.index _ 1 * 128 ≤ (i 1).val ∧ (i 1).val < win0_5.index _ 1 * 128 + 128; rw [e1]; omega

/-- THE ARRAYS after the run: each output array is its function of the three input arrays. -/
theorem final3 (c : Dev nD) : (dats m 0 c).arrAt 3 cfg0.N = predArr (V m c main_v18) (V m c main_v37) :=
  (dats m 0 c).arrAt_eq_of_cover 3 _ (fun t _ => flushed3_eq m c t) cover3

theorem final4 (c : Dev nD) : (dats m 0 c).arrAt 4 cfg0.N = predArr (V m c main_v18) (V m c main_v38) :=
  (dats m 0 c).arrAt_eq_of_cover 4 _ (fun t _ => flushed4_eq m c t) cover4

theorem final5 (c : Dev nD) : (dats m 0 c).arrAt 5 cfg0.N = pixArr (V m c main_v18) (V m c main_v37) (V m c main_v38) :=
  (dats m 0 c).arrAt_eq_of_cover 5 _ (fun t _ => flushed5_eq m c t) cover5

end Cert.Render.KArr

end
-- ==== Proof.KTail.lean ====
/-
  The three results, read off what the run leaves.

  After the eight points the program sums the per-pixel array over the whole image, starting from zero, and divides
  by the pixel count; and it returns batch 0 of each render array with the unit batch axis dropped.
-/
import proofs.«172565_j15144054686503_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal
import Idealize.ShloMosaic.PureOps.Ideal.Laws

set_option maxRecDepth 16384

noncomputable section

open scoped BigOperators

namespace Cert.Render.KTail

open Cert.KernelIdeal Cert.KernelIdeal.Gen Idealize.ShloMosaic Idealize.ShloMosaic.TcCoe Idealize.SL.Sem
open Idealize.ShloMosaic.StableHlo Idealize.ShloMosaic.Tactic Idealize.ShloMosaic.ValueIdx
open Idealize.ShloMosaic.Pipeline (Dat)

variable (m : (ℓ : Loc nD τ sig) → Buf (Elt Ideal) ℓ)

/-- What the region leaves in output array w: the array after the last point. -/
theorem left_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 launch0.win.arr_inj c _ _ w

/-- Batch 0 of a render array with the batch axis dropped. -/
def batch0 (X : S4x3x128x128.Idx → EReal) : S3x128x128.Idx → EReal :=
  shapeCast S3x128x128 (extractStridedSlice S1x3x128x128 ![0, 0, 0, 0] X slices_S4x3x128x128_S1x3x128x128_0_0_0_0)
    shapeCasts_S1x3x128x128_S3x128x128

/-- The sum of a per-pixel array from zero, divided by the pixel count. -/
def meanOf (X : S128x128.Idx → EReal) : S_.Idx → EReal :=
  Host.divf (F := Ideal) (Host.reduceAdd (F := Ideal) X (constant (F := Ideal) S_ .f32 0x00000000#32) reducesTo_S128x128_S_d0_1 h_S_)
    (constant (F := Ideal) S_ .f32 0x47C00000#32)

/-- The second result is batch 0 of the first render array. -/
theorem tail_pred (c : Dev nD) :
    Pipeline.afterTail₀ cfgs (dats m) 0 (V0 m) [hostOps1] c main_v43 = batch0 ((dats m 0 c).arrAt 3 cfg0.N) := by
  unfold Pipeline.afterTail₀
  show StableHlo.after hostOps1 _ (Proc.devRef .tc main_v43) = _
  after_results
  rw [show Pipeline.withArrays (cfgs 0).spec c (V0 m c) (fun w => (dats m 0 c).arrAt w (cfgs 0).N) (Proc.devRef .tc main_v39_0)
    = (dats m 0 c).arrAt 3 cfg0.N from left_arr m c 3]
  rfl

/-- The third result is batch 0 of the second render array. -/
theorem tail_gt (c : Dev nD) :
    Pipeline.afterTail₀ cfgs (dats m) 0 (V0 m) [hostOps1] c main_v45 = batch0 ((dats m 0 c).arrAt 4 cfg0.N) := by
  unfold Pipeline.afterTail₀
  show StableHlo.after hostOps1 _ (Proc.devRef .tc main_v45) = _
  after_results
  rw [show Pipeline.withArrays (cfgs 0).spec c (V0 m c) (fun w => (dats m 0 c).arrAt w (cfgs 0).N) (Proc.devRef .tc main_v39_1)
    = (dats m 0 c).arrAt 4 cfg0.N from left_arr m c 4]
  rfl

/-- The first result is the mean of the per-pixel array. -/
theorem tail_loss (c : Dev nD) :
    Pipeline.afterTail₀ cfgs (dats m) 0 (V0 m) [hostOps1] c main_v41 = meanOf ((dats m 0 c).arrAt 5 cfg0.N) := by
  unfold Pipeline.afterTail₀
  show StableHlo.after hostOps1 _ (Proc.devRef .tc main_v41) = _
  after_results
  rw [show Pipeline.withArrays (cfgs 0).spec c (V0 m c) (fun w => (dats m 0 c).arrAt w (cfgs 0).N) (Proc.devRef .tc main_v39_2)
    = (dats m 0 c).arrAt 5 cfg0.N from left_arr m c 5]
  rfl

/-- Batch 0 at (ch, r, l) is the array at (0, ch, r, l). -/
theorem batch0_apply (X : S4x3x128x128.Idx → EReal) (ch : Fin 3) (r l : Fin 128) :
    batch0 X (ix3 ch r l) = X (ix4 0 ch r l) := by
  unfold batch0
  refine (shapeCast_apply _ shapeCasts_S1x3x128x128_S3x128x128 (ix3 ch r l) (ix4 (0 : Fin 1) ch r l) ?_).trans ?_
  · rw [Shape.rowMajor_val_four, Shape.rowMajor_val_three]
    show (((0 : ℕ) * 3 + ch.val) * 128 + r.val) * 128 + l.val = (ch.val * 128 + r.val) * 128 + l.val
    omega
  · unfold extractStridedSlice
    refine congrArg X (funext fun a => Fin.ext ?_)
    match a with
    | ⟨0, _⟩ => show (0 : ℕ) + 0 = 0; omega
    | ⟨1, _⟩ => show 0 + ch.val = ch.val; omega
    | ⟨2, _⟩ => show 0 + r.val = r.val; omega
    | ⟨3, _⟩ => show 0 + l.val = l.val; omega

/-- The mean at its one index: (zero + the sum over every pixel) divided by the pixel count. -/
theorem meanOf_apply (X : S128x128.Idx → EReal) (i : S_.Idx) :
    meanOf X i = Ideal.div (Ideal.ofBits .f32 0x00000000#32 + ∑ j : S128x128.Idx, X j) (Ideal.ofBits .f32 0x47C00000#32) := by
  unfold meanOf
  show Ideal.div (Host.reduceAdd (F := Ideal) X (constant (F := Ideal) S_ .f32 0x00000000#32) reducesTo_S128x128_S_d0_1 h_S_ i) _ = _
  refine congrArg (fun z : EReal => Ideal.div z (Ideal.ofBits .f32 0x47C00000#32)) ?_
  simp only [Host.reduceAdd, Ideal.hostReduceAdd_def]
  exact Ideal.hostReduceAdd_total reducesTo_S128x128_S_d0_1 (fun b => b.elim0) X _ i

end Cert.Render.KTail

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.KernelHost.lean ====
/-
  What the three input arrays of the kernel's one call hold when the call starts.

  The host computes them from the arguments before the call: the coefficient array [64, 128, 128] is the two passes'
  folded coefficients w · (d + 10 · s) joined along the direction axis; the two sample arrays [4, 3, 64, 128, 128] are
  channels 0–2 and 3–5 of one gather from the two environment maps joined along the channel axis, at the two passes'
  position words joined, a negative word first moved up by the axis' extent, each read signed and clamped into its axis.
  Each array is first written as the term of the host operations that produce it, then read at one index through the
  layout operations (reshape, broadcast, join, transpose, gather, slice), where it is the specification's
  `cat` of `coef`, or `cat` of `samp`.
-/
import proofs.«172565_j15144054686503_2_alg».proof.Proof.Gen.KernelIdeal.Frame
import proofs.«172565_j15144054686503_2_alg».proof.Proof.Spec
import proofs.«172565_j15144054686503_2_alg».proof.Proof.LibIdx
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.Render.KHost

open Idealize.ShloMosaic Idealize.ShloMosaic.ValueIdx Idealize.ShloMosaic.TcCoe
open Cert.KernelIdeal Cert.Render

/-! ## Two arrays joined along one axis

The join of two arrays is written below with its shape condition ahead of the arrays, so that the arrays can be
rewritten under it; it is the library's two-piece concatenation. -/

/-- Two arrays joined along axis `a` of the result shape `t`. -/
def cat2 {α : Type} (t s₁ s₂ : Shape) (a : Fin t.rank) (h : Shape.Concatenates [s₁, s₂] t a)
    (x₁ : s₁.Idx → α) (x₂ : s₂.Idx → α) : t.Idx → α :=
  concatenate t a [⟨s₁, x₁⟩, ⟨s₂, x₂⟩] h

theorem concatenate_eq_cat2 {α : Type} (t s₁ s₂ : Shape) (a : Fin t.rank) (h : Shape.Concatenates [s₁, s₂] t a)
    (x₁ : s₁.Idx → α) (x₂ : s₂.Idx → α) : concatenate t a [⟨s₁, x₁⟩, ⟨s₂, x₂⟩] h = cat2 t s₁ s₂ a h x₁ x₂ := rfl

/-- What a buffer holds after a list of host operations: each operation's result at its own buffer is its function of
    its operands' contents, any other buffer is untouched; a two-piece concatenation is written as `cat2`. -/
macro "host_results" : tactic =>
  `(tactic| (simp (disch := decide) only [StableHlo.after_cons, StableHlo.after_nil,
      StableHlo.nullary_result', StableHlo.unary_result', StableHlo.binary_result', StableHlo.ternary_result',
      StableHlo.reshape_result',
      StableHlo.nullary_result_ne', StableHlo.unary_result_ne', StableHlo.binary_result_ne', StableHlo.ternary_result_ne',
      StableHlo.reshape_result_ne', concatenate_eq_cat2]))

section Reads
variable {α : Type}

/-- A [64,128,128] join of two [32,128,128] arrays along the first axis reads the first array below 32 … -/
theorem cat2_rows_lt (x₁ x₂ : S32x128x128.Idx → α) (h : Shape.Concatenates [S32x128x128, S32x128x128] S64x128x128 0)
    (n : Fin 64) (r l : Fin 128) (hn : n.val < 32) :
    cat2 S64x128x128 S32x128x128 S32x128x128 0 h x₁ x₂ (ix3 n r l) = x₁ (ix3 ⟨n.val, hn⟩ r l) :=
  concatenate_pair_apply_left (0 : Fin S64x128x128.rank) x₁ x₂ h (ix3 n r l) rfl (ix3 ⟨n.val, hn⟩ r l)
    (fun b => match b with | ⟨0, _⟩ => rfl | ⟨1, _⟩ => rfl | ⟨2, _⟩ => rfl)

/-- … and the second array, 32 less, from 32 on. -/
theorem cat2_rows_ge (x₁ x₂ : S32x128x128.Idx → α) (h : Shape.Concatenates [S32x128x128, S32x128x128] S64x128x128 0)
    (n : Fin 64) (r l : Fin 128) (hn : ¬ n.val < 32) :
    cat2 S64x128x128 S32x128x128 S32x128x128 0 h x₁ x₂ (ix3 n r l)
      = x₂ (ix3 ⟨n.val - 32, by have := n.isLt; omega⟩ r l) :=
  concatenate_pair_apply_right (0 : Fin S64x128x128.rank) x₁ x₂ h (ix3 n r l) rfl rfl
    (ix3 ⟨n.val - 32, by have := n.isLt; omega⟩ r l)
    (fun b => match b with
      | ⟨0, _⟩ => fun hb => absurd rfl hb
      | ⟨1, _⟩ => fun _ => rfl
      | ⟨2, _⟩ => fun _ => rfl)
    (by show n.val - 32 + 32 = n.val; omega)

/-- The same join read through Spec's `cat`. -/
theorem cat2_rows (x₁ x₂ : S32x128x128.Idx → α) (h : Shape.Concatenates [S32x128x128, S32x128x128] S64x128x128 0)
    (n : Fin 64) (r l : Fin 128) :
    cat2 S64x128x128 S32x128x128 S32x128x128 0 h x₁ x₂ (ix3 n r l)
      = cat (fun k => x₁ (ix3 k r l)) (fun k => x₂ (ix3 k r l)) n := by
  unfold cat
  by_cases hn : n.val < 32
  · rw [dif_pos hn]; exact cat2_rows_lt x₁ x₂ h n r l hn
  · rw [dif_neg hn]; exact cat2_rows_ge x₁ x₂ h n r l hn

/-- A [32,1,128,128] array viewed [32,128,128]. -/
theorem reshape_read (x : S32x1x128x128.Idx → α) (h : S32x1x128x128.ShapeCasts S32x128x128) (k : Fin 32) (r l : Fin 128) :
    shapeCast S32x128x128 x h (ix3 k r l) = x (ix4 k (0 : Fin 1) r l) :=
  shapeCast_apply x h _ _ (by
    rw [Shape.rowMajor_val_four, Shape.rowMajor_val_three]
    show ((k.val * 1 + 0) * 128 + r.val) * 128 + l.val = (k.val * 128 + r.val) * 128 + l.val
    rw [Nat.mul_one, Nat.add_zero])

/-- A [32,1] column viewed [32], spread to [32,1,1] and then over the image [32,128,128]. -/
theorem weight_read (w : S32x1.Idx → α) (hs : S32x1.ShapeCasts S32) (hb1 : S32.BroadcastsInDim S32x1x1 ![0])
    (hb2 : S32x1x1.BroadcastsInDim S32x128x128 ![0, 1, 2]) (k : Fin 32) (r l : Fin 128) :
    broadcastInDim S32x128x128 ![0, 1, 2] hb2 (broadcastInDim S32x1x1 ![0] hb1 (shapeCast S32 w hs)) (ix3 k r l)
      = w (ix2 k (0 : Fin 1)) := by
  refine (broadcastInDim_apply _ hb2 _ (ix3 k r l) (ix3 k (0 : Fin 1) (0 : Fin 1))
    (fun a => match a with | ⟨0, _⟩ => rfl | ⟨1, _⟩ => rfl | ⟨2, _⟩ => rfl)).trans ?_
  refine (broadcastInDim_apply _ hb1 _ (ix3 k (0 : Fin 1) (0 : Fin 1)) (ix1 k)
    (fun a => match a with | ⟨0, _⟩ => rfl)).trans ?_
  exact shapeCast_apply w hs _ _ (by
    rw [Shape.rowMajor_val_two, Shape.rowMajor_val_one]
    show k.val * 1 + 0 = k.val
    rw [Nat.mul_one, Nat.add_zero])

end Reads

/-! ## The coefficient array -/

/-- Ten, as the programs write it. -/
local notation "ten" => Ideal.ofBits FTy.f32 0x41200000#32

/-- One pass's coefficients as the host computes them: the weights spread over the image, times the diffuse
    reflectance plus ten times the specular one. -/
def coefArr (w : S32x1.Idx → EReal) (df sp : S32x1x128x128.Idx → EReal) : S32x128x128.Idx → EReal :=
  mulf (F := Ideal) (φ := .f32)
    (broadcastInDim S32x128x128 ![0, 1, 2] Gen.bcast_S32x1x1_S32x128x128_0_1_2
      (broadcastInDim S32x1x1 ![0] Gen.bcast_S32_S32x1x1_0 (shapeCast S32 w Gen.shapeCasts_S32x1_S32)))
    (addf (F := Ideal) (φ := .f32) (shapeCast S32x128x128 df Gen.shapeCasts_S32x1x128x128_S32x128x128)
      (mulf (F := Ideal) (φ := .f32)
        (broadcastInDim S32x128x128 ![] Gen.bcast_S_S32x128x128 (constant (F := Ideal) S_ .f32 0x41200000#32))
        (shapeCast S32x128x128 sp Gen.shapeCasts_S32x1x128x128_S32x128x128)))

/-- Read at a direction and a pixel it is Spec's folded coefficient. -/
theorem coefArr_read (w : S32x1.Idx → EReal) (df sp : S32x1x128x128.Idx → EReal) (k : Fin 32) (r l : Fin 128) :
    coefArr w df sp (ix3 k r l)
      = coef ten (fun k => df (ix4 k 0 r l)) (fun k => sp (ix4 k 0 r l)) (fun k => w (ix2 k 0)) k := by
  show broadcastInDim S32x128x128 ![0, 1, 2] Gen.bcast_S32x1x1_S32x128x128_0_1_2
        (broadcastInDim S32x1x1 ![0] Gen.bcast_S32_S32x1x1_0 (shapeCast S32 w Gen.shapeCasts_S32x1_S32)) (ix3 k r l)
      * (shapeCast S32x128x128 df Gen.shapeCasts_S32x1x128x128_S32x128x128 (ix3 k r l)
        + ten * shapeCast S32x128x128 sp Gen.shapeCasts_S32x1x128x128_S32x128x128 (ix3 k r l))
      = w (ix2 k 0) * (df (ix4 k 0 r l) + ten * sp (ix4 k 0 r l))
  rw [weight_read, reshape_read, reshape_read]

/-! ## The sample arrays -/

section Gather
variable {α : Type}

/-- The pair of position words of a direction and pixel: the start index's component `u` sits at `(n, r, l, u)`. -/
theorem gd_siIdx (j : S4x6x64x128x128.Idx) (u : Fin 2) (hu : u.val < gather_S4x6x256x512_S64x128x128x2_S4x6x64x128x128_01_23_n_n_23_3_4611.startIndexMap.length) :
    gather_S4x6x256x512_S64x128x128x2_S4x6x64x128x128_01_23_n_n_23_3_4611.siIdx j ⟨u.val, hu⟩ = ix4 (j 2) (j 3) (j 4) u := by
  funext b
  refine Fin.ext ?_
  match b with
  | ⟨0, _⟩ => rfl
  | ⟨1, _⟩ => rfl
  | ⟨2, _⟩ => rfl
  | ⟨3, _⟩ => rfl

/-- THE GATHER READ AT AN INDEX: batch and channel are kept, the row is the first position word read signed and
    clamped into the 256 rows, the column the second clamped into the 512 columns. -/
theorem gather_read (T : S4x6x256x512.Idx → α) (I : IVec S64x128x128x2 32) (b : Fin 4) (ch6 : Fin 6) (n : Fin 64)
    (r l : Fin 128) :
    Host.gather gather_S4x6x256x512_S64x128x128x2_S4x6x64x128x128_01_23_n_n_23_3_4611 T I (ix5 b ch6 n r l)
      = T (ix4 b ch6 (pos 256 (by decide) (I (ix4 n r l 0))) (pos 512 (by decide) (I (ix4 n r l 1)))) := by
  unfold Host.gather
  congr 1
  funext a
  refine Fin.ext ?_
  match a with
  | ⟨0, _⟩ =>
    show gather_S4x6x256x512_S64x128x128x2_S4x6x64x128x128_01_23_n_n_23_3_4611.start (ix5 b ch6 n r l) I (0 : Fin 4) + gather_S4x6x256x512_S64x128x128x2_S4x6x64x128x128_01_23_n_n_23_3_4611.batchCoord (ix5 b ch6 n r l) (0 : Fin 4) + gather_S4x6x256x512_S64x128x128x2_S4x6x64x128x128_01_23_n_n_23_3_4611.offCoord (ix5 b ch6 n r l) (0 : Fin 4) = b.val
    rw [GatherDims.batchCoord_eq_zero _ _ _ List.not_mem_nil]
    unfold GatherDims.start
    rw [dif_neg (by decide)]
    unfold GatherDims.offCoord
    rw [dif_pos (by decide)]
    have hk : ∀ (i : Nat) (hi : i < gather_S4x6x256x512_S64x128x128x2_S4x6x64x128x128_01_23_n_n_23_3_4611.offsetDims.length), i = 0 →
        (ix5 b ch6 n r l (gather_S4x6x256x512_S64x128x128x2_S4x6x64x128x128_01_23_n_n_23_3_4611.offsetDims[i]'hi)).val = b.val := by
      intro i hi e; subst e; rfl
    simp only [Nat.zero_add]
    exact hk _ _ (by decide)
  | ⟨1, _⟩ =>
    show gather_S4x6x256x512_S64x128x128x2_S4x6x64x128x128_01_23_n_n_23_3_4611.start (ix5 b ch6 n r l) I (1 : Fin 4) + gather_S4x6x256x512_S64x128x128x2_S4x6x64x128x128_01_23_n_n_23_3_4611.batchCoord (ix5 b ch6 n r l) (1 : Fin 4) + gather_S4x6x256x512_S64x128x128x2_S4x6x64x128x128_01_23_n_n_23_3_4611.offCoord (ix5 b ch6 n r l) (1 : Fin 4) = ch6.val
    rw [GatherDims.batchCoord_eq_zero _ _ _ List.not_mem_nil]
    unfold GatherDims.start
    rw [dif_neg (by decide)]
    unfold GatherDims.offCoord
    rw [dif_pos (by decide)]
    have hk : ∀ (i : Nat) (hi : i < gather_S4x6x256x512_S64x128x128x2_S4x6x64x128x128_01_23_n_n_23_3_4611.offsetDims.length), i = 1 →
        (ix5 b ch6 n r l (gather_S4x6x256x512_S64x128x128x2_S4x6x64x128x128_01_23_n_n_23_3_4611.offsetDims[i]'hi)).val = ch6.val := by
      intro i hi e; subst e; rfl
    simp only [Nat.zero_add]
    exact hk _ _ (by decide)
  | ⟨2, _⟩ =>
    show gather_S4x6x256x512_S64x128x128x2_S4x6x64x128x128_01_23_n_n_23_3_4611.start (ix5 b ch6 n r l) I (2 : Fin 4) + gather_S4x6x256x512_S64x128x128x2_S4x6x64x128x128_01_23_n_n_23_3_4611.batchCoord (ix5 b ch6 n r l) (2 : Fin 4) + gather_S4x6x256x512_S64x128x128x2_S4x6x64x128x128_01_23_n_n_23_3_4611.offCoord (ix5 b ch6 n r l) (2 : Fin 4)
      = min (I (ix4 n r l 0)).toInt.toNat (256 - 1)
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi := gd_siIdx (ix5 b ch6 n r l) (0 : Fin 2) (by decide)
    rw [show (⟨List.idxOf (2 : Fin 4) gather_S4x6x256x512_S64x128x128x2_S4x6x64x128x128_01_23_n_n_23_3_4611.startIndexMap, List.idxOf_lt_length_iff.2 (by decide)⟩ : Fin gather_S4x6x256x512_S64x128x128x2_S4x6x64x128x128_01_23_n_n_23_3_4611.startIndexMap.length)
        = ⟨(0 : Fin 2).val, by decide⟩ from Fin.ext (by decide), hsi]
    rfl
  | ⟨3, _⟩ =>
    show gather_S4x6x256x512_S64x128x128x2_S4x6x64x128x128_01_23_n_n_23_3_4611.start (ix5 b ch6 n r l) I (3 : Fin 4) + gather_S4x6x256x512_S64x128x128x2_S4x6x64x128x128_01_23_n_n_23_3_4611.batchCoord (ix5 b ch6 n r l) (3 : Fin 4) + gather_S4x6x256x512_S64x128x128x2_S4x6x64x128x128_01_23_n_n_23_3_4611.offCoord (ix5 b ch6 n r l) (3 : Fin 4)
      = min (I (ix4 n r l 1)).toInt.toNat (512 - 1)
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi := gd_siIdx (ix5 b ch6 n r l) (1 : Fin 2) (by decide)
    rw [show (⟨List.idxOf (3 : Fin 4) gather_S4x6x256x512_S64x128x128x2_S4x6x64x128x128_01_23_n_n_23_3_4611.startIndexMap, List.idxOf_lt_length_iff.2 (by decide)⟩ : Fin gather_S4x6x256x512_S64x128x128x2_S4x6x64x128x128_01_23_n_n_23_3_4611.startIndexMap.length)
        = ⟨(1 : Fin 2).val, by decide⟩ from Fin.ext (by decide), hsi]
    rfl

end Gather

section Layout
variable {α : Type}

/-- The channel-first view of the joined map: `(b, ch, y, x)` reads `(b, y, x, ch)`. -/
theorem transpose_read (E : S4x256x512x6.Idx → α) (h : S4x256x512x6.Transposes [0, 3, 1, 2] S4x6x256x512)
    (b : Fin 4) (ch6 : Fin 6) (y : Fin 256) (x : Fin 512) :
    transpose S4x6x256x512 [0, 3, 1, 2] E h (ix4 b ch6 y x) = E (ix4 b y x ch6) :=
  transpose_apply _ E h _ _ fun a => match a with | ⟨0, _⟩ => rfl | ⟨1, _⟩ => rfl | ⟨2, _⟩ => rfl | ⟨3, _⟩ => rfl

/-- Channels 0–2 of the two maps joined along the channel axis are the first map's … -/
theorem cat2_chan_lt (e₁ e₂ : S4x256x512x3.Idx → α)
    (h : Shape.Concatenates [S4x256x512x3, S4x256x512x3] S4x256x512x6 3)
    (b : Fin 4) (y : Fin 256) (x : Fin 512) (ch : Fin 3) :
    cat2 S4x256x512x6 S4x256x512x3 S4x256x512x3 3 h e₁ e₂ (ix4 b y x ⟨ch.val, by have := ch.isLt; omega⟩)
      = e₁ (ix4 b y x ch) :=
  concatenate_pair_apply_left (3 : Fin S4x256x512x6.rank) e₁ e₂ h _ rfl (ix4 b y x ch)
    (fun a => match a with | ⟨0, _⟩ => rfl | ⟨1, _⟩ => rfl | ⟨2, _⟩ => rfl | ⟨3, _⟩ => rfl)

/-- … and channels 3–5 the second map's channels 0–2. -/
theorem cat2_chan_ge (e₁ e₂ : S4x256x512x3.Idx → α)
    (h : Shape.Concatenates [S4x256x512x3, S4x256x512x3] S4x256x512x6 3)
    (b : Fin 4) (y : Fin 256) (x : Fin 512) (ch : Fin 3) :
    cat2 S4x256x512x6 S4x256x512x3 S4x256x512x3 3 h e₁ e₂ (ix4 b y x ⟨3 + ch.val, by have := ch.isLt; omega⟩)
      = e₂ (ix4 b y x ch) :=
  concatenate_pair_apply_right (3 : Fin S4x256x512x6.rank) e₁ e₂ h _ rfl rfl (ix4 b y x ch)
    (fun a => match a with
      | ⟨0, _⟩ => fun _ => rfl
      | ⟨1, _⟩ => fun _ => rfl
      | ⟨2, _⟩ => fun _ => rfl
      | ⟨3, _⟩ => fun hb => absurd rfl hb)
    (by show ch.val + 3 = 3 + ch.val; omega)

/-- The first three channels cut out of six. -/
theorem slice_lo_read (G : S4x6x64x128x128.Idx → α) (h : S4x6x64x128x128.Slices ![0, 0, 0, 0, 0] S4x3x64x128x128)
    (b : Fin 4) (ch : Fin 3) (n : Fin 64) (r l : Fin 128) :
    extractStridedSlice S4x3x64x128x128 ![0, 0, 0, 0, 0] G h (ix5 b ch n r l)
      = G (ix5 b ⟨ch.val, by have := ch.isLt; omega⟩ n r l) :=
  extractStridedSlice_apply _ G h _ _ (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm)

/-- The last three channels cut out of six. -/
theorem slice_hi_read (G : S4x6x64x128x128.Idx → α) (h : S4x6x64x128x128.Slices ![0, 3, 0, 0, 0] S4x3x64x128x128)
    (b : Fin 4) (ch : Fin 3) (n : Fin 64) (r l : Fin 128) :
    extractStridedSlice S4x3x64x128x128 ![0, 3, 0, 0, 0] G h (ix5 b ch n r l)
      = G (ix5 b ⟨3 + ch.val, by have := ch.isLt; omega⟩ n r l) :=
  extractStridedSlice_apply _ G h _ _ (fun a => by
    match a with
    | ⟨0, _⟩ => exact (Nat.zero_add _).symm
    | ⟨1, _⟩ => exact rfl
    | ⟨2, _⟩ => exact (Nat.zero_add _).symm
    | ⟨3, _⟩ => exact (Nat.zero_add _).symm
    | ⟨4, _⟩ => exact (Nat.zero_add _).symm)

/-- Two [64,128,128] arrays, each given a trailing unit axis, joined along it: component 0 is the first … -/
theorem pair_read0 (p q : S64x128x128.Idx → α)
    (hc : Shape.Concatenates [S64x128x128x1, S64x128x128x1] S64x128x128x2 3)
    (hb : S64x128x128.BroadcastsInDim S64x128x128x1 ![0, 1, 2]) (n : Fin 64) (r l : Fin 128) :
    cat2 S64x128x128x2 S64x128x128x1 S64x128x128x1 3 hc (broadcastInDim S64x128x128x1 ![0, 1, 2] hb p)
        (broadcastInDim S64x128x128x1 ![0, 1, 2] hb q) (ix4 n r l 0) = p (ix3 n r l) := by
  refine (concatenate_pair_apply_left (3 : Fin S64x128x128x2.rank) _ _ hc (ix4 n r l 0) rfl (ix4 n r l (0 : Fin 1))
    (fun a => match a with | ⟨0, _⟩ => rfl | ⟨1, _⟩ => rfl | ⟨2, _⟩ => rfl | ⟨3, _⟩ => rfl)).trans ?_
  exact broadcastInDim_apply _ hb p _ (ix3 n r l) (fun a => match a with | ⟨0, _⟩ => rfl | ⟨1, _⟩ => rfl | ⟨2, _⟩ => rfl)

/-- … and component 1 the second. -/
theorem pair_read1 (p q : S64x128x128.Idx → α)
    (hc : Shape.Concatenates [S64x128x128x1, S64x128x128x1] S64x128x128x2 3)
    (hb : S64x128x128.BroadcastsInDim S64x128x128x1 ![0, 1, 2]) (n : Fin 64) (r l : Fin 128) :
    cat2 S64x128x128x2 S64x128x128x1 S64x128x128x1 3 hc (broadcastInDim S64x128x128x1 ![0, 1, 2] hb p)
        (broadcastInDim S64x128x128x1 ![0, 1, 2] hb q) (ix4 n r l 1) = q (ix3 n r l) := by
  refine (concatenate_pair_apply_right (3 : Fin S64x128x128x2.rank) _ _ hc (ix4 n r l 1) rfl rfl (ix4 n r l (0 : Fin 1))
    (fun a => match a with
      | ⟨0, _⟩ => fun _ => rfl
      | ⟨1, _⟩ => fun _ => rfl
      | ⟨2, _⟩ => fun _ => rfl
      | ⟨3, _⟩ => fun hb => absurd rfl hb)
    rfl).trans ?_
  exact broadcastInDim_apply _ hb q _ (ix3 n r l) (fun a => match a with | ⟨0, _⟩ => rfl | ⟨1, _⟩ => rfl | ⟨2, _⟩ => rfl)

end Layout

/-- A negative position word moved up by `k`, over a whole array of words. -/
def wrapArr (k : BitVec 32) (J : IVec S64x128x128 32) : IVec S64x128x128 32 :=
  select (cmpi .slt J (broadcastInDim S64x128x128 ![] Gen.bcast_S_S64x128x128 (constantI S_ 32 0#32)))
    (addi J (broadcastInDim S64x128x128 ![] Gen.bcast_S_S64x128x128 (constantI S_ 32 k))) J

theorem wrapArr_read (k : BitVec 32) (J : IVec S64x128x128 32) (i : S64x128x128.Idx) : wrapArr k J i = wrap k (J i) := rfl

/-- The position pairs as the host builds them: the two passes' row words joined and wrapped by 256, the column words
    joined and wrapped by 512, paired along a trailing axis. -/
def posArr (jy0 jy1 jx0 jx1 : IVec S32x128x128 32) : IVec S64x128x128x2 32 :=
  cat2 S64x128x128x2 S64x128x128x1 S64x128x128x1 3 Gen.concatenates_S64x128x128x1_S64x128x128x1_S64x128x128x2_d3
    (broadcastInDim S64x128x128x1 ![0, 1, 2] Gen.bcast_S64x128x128_S64x128x128x1_0_1_2
      (wrapArr 256#32 (cat2 S64x128x128 S32x128x128 S32x128x128 0 Gen.concatenates_S32x128x128_S32x128x128_S64x128x128_d0 jy0 jy1)))
    (broadcastInDim S64x128x128x1 ![0, 1, 2] Gen.bcast_S64x128x128_S64x128x128x1_0_1_2
      (wrapArr 512#32 (cat2 S64x128x128 S32x128x128 S32x128x128 0 Gen.concatenates_S32x128x128_S32x128x128_S64x128x128_d0 jx0 jx1)))

/-- The gathered samples, six channels: the two maps joined along the channel axis, viewed channel-first, read at the
    position pairs. -/
def gathered (e0 e1 : S4x256x512x3.Idx → EReal) (I : IVec S64x128x128x2 32) : S4x6x64x128x128.Idx → EReal :=
  Host.gather gather_S4x6x256x512_S64x128x128x2_S4x6x64x128x128_01_23_n_n_23_3_4611
    (transpose S4x6x256x512 [0, 3, 1, 2]
      (cat2 S4x256x512x6 S4x256x512x3 S4x256x512x3 3 Gen.concatenates_S4x256x512x3_S4x256x512x3_S4x256x512x6_d3 e0 e1)
      Gen.transposes_S4x256x512x6_S4x6x256x512_0_3_1_2) I

/-- Channels 0–2 of the gathered array are the first map's samples … -/
theorem gathered_read_lo (e0 e1 : S4x256x512x3.Idx → EReal) (jy0 jy1 jx0 jx1 : IVec S32x128x128 32)
    (b : Fin 4) (ch : Fin 3) (n : Fin 64) (r l : Fin 128) :
    gathered e0 e1 (posArr jy0 jy1 jx0 jx1) (ix5 b ⟨ch.val, by have := ch.isLt; omega⟩ n r l)
      = cat (fun k => samp e0 (jy0 (ix3 k r l)) (jx0 (ix3 k r l)) b ch)
            (fun k => samp e0 (jy1 (ix3 k r l)) (jx1 (ix3 k r l)) b ch) n := by
  unfold gathered
  rw [gather_read, transpose_read, cat2_chan_lt]
  unfold posArr
  rw [pair_read0, pair_read1, wrapArr_read, wrapArr_read, cat2_rows, cat2_rows]
  unfold cat
  by_cases hn : n.val < 32
  · simp only [dif_pos hn]; rfl
  · simp only [dif_neg hn]; rfl

/-- … and channels 3–5 the second map's. -/
theorem gathered_read_hi (e0 e1 : S4x256x512x3.Idx → EReal) (jy0 jy1 jx0 jx1 : IVec S32x128x128 32)
    (b : Fin 4) (ch : Fin 3) (n : Fin 64) (r l : Fin 128) :
    gathered e0 e1 (posArr jy0 jy1 jx0 jx1) (ix5 b ⟨3 + ch.val, by have := ch.isLt; omega⟩ n r l)
      = cat (fun k => samp e1 (jy0 (ix3 k r l)) (jx0 (ix3 k r l)) b ch)
            (fun k => samp e1 (jy1 (ix3 k r l)) (jx1 (ix3 k r l)) b ch) n := by
  unfold gathered
  rw [gather_read, transpose_read, cat2_chan_ge]
  unfold posArr
  rw [pair_read0, pair_read1, wrapArr_read, wrapArr_read, cat2_rows, cat2_rows]
  unfold cat
  by_cases hn : n.val < 32
  · simp only [dif_pos hn]; rfl
  · simp only [dif_neg hn]; rfl

/-! ## The three arrays when the call starts -/

variable (m : (ℓ : Loc Cert.KernelIdeal.nD Cert.KernelIdeal.τ Cert.KernelIdeal.sig) → Buf (Elt Ideal) ℓ)
  (c : Dev Cert.KernelIdeal.nD)

/-- The coefficient array is the two passes' coefficients joined. -/
theorem v18_eq :
    (Gen.V m c main_v18 : S64x128x128.Idx → EReal)
      = cat2 S64x128x128 S32x128x128 S32x128x128 0 Gen.concatenates_S32x128x128_S32x128x128_S64x128x128_d0
          (coefArr (m ((c : Thread nD τ).loc main_arg6) : S32x1.Idx → EReal) (m ((c : Thread nD τ).loc main_arg3) : S32x1x128x128.Idx → EReal) (m ((c : Thread nD τ).loc main_arg2) : S32x1x128x128.Idx → EReal))
          (coefArr (m ((c : Thread nD τ).loc main_arg11) : S32x1.Idx → EReal) (m ((c : Thread nD τ).loc main_arg8) : S32x1x128x128.Idx → EReal) (m ((c : Thread nD τ).loc main_arg7) : S32x1x128x128.Idx → EReal)) := by
  show StableHlo.after Gen.hostOps0 (fun b => m (c, b)) (Proc.devRef .tc main_v18) = _
  host_results
  rfl

/-- (K1) The coefficient array at direction `n` of the joined 64 and pixel `(r, l)`. -/
theorem K1 (n : Fin 64) (r l : Fin 128) :
    (Gen.V m c main_v18 : S64x128x128.Idx → EReal) (ix3 n r l)
      = cat (coef ten (fun k => (m ((c : Thread nD τ).loc main_arg3) : S32x1x128x128.Idx → EReal) (ix4 k 0 r l))
                (fun k => (m ((c : Thread nD τ).loc main_arg2) : S32x1x128x128.Idx → EReal) (ix4 k 0 r l))
                (fun k => (m ((c : Thread nD τ).loc main_arg6) : S32x1.Idx → EReal) (ix2 k 0)))
            (coef ten (fun k => (m ((c : Thread nD τ).loc main_arg8) : S32x1x128x128.Idx → EReal) (ix4 k 0 r l))
                (fun k => (m ((c : Thread nD τ).loc main_arg7) : S32x1x128x128.Idx → EReal) (ix4 k 0 r l))
                (fun k => (m ((c : Thread nD τ).loc main_arg11) : S32x1.Idx → EReal) (ix2 k 0))) n := by
  refine (congrFun (v18_eq m c) (ix3 n r l)).trans ?_
  rw [cat2_rows]
  unfold cat
  split
  · exact coefArr_read _ _ _ _ r l
  · exact coefArr_read _ _ _ _ r l

/-- The first sample array is channels 0–2 of the gathered samples … -/
theorem v37_eq :
    (Gen.V m c main_v37 : S4x3x64x128x128.Idx → EReal)
      = extractStridedSlice S4x3x64x128x128 ![0, 0, 0, 0, 0]
          (gathered (m ((c : Thread nD τ).loc main_arg0) : S4x256x512x3.Idx → EReal) (m ((c : Thread nD τ).loc main_arg1) : S4x256x512x3.Idx → EReal)
            (posArr (m ((c : Thread nD τ).loc main_arg5) : S32x128x128.Idx → BitVec 32) (m ((c : Thread nD τ).loc main_arg10) : S32x128x128.Idx → BitVec 32) (m ((c : Thread nD τ).loc main_arg4) : S32x128x128.Idx → BitVec 32) (m ((c : Thread nD τ).loc main_arg9) : S32x128x128.Idx → BitVec 32)))
          Gen.slices_S4x6x64x128x128_S4x3x64x128x128_0_0_0_0_0 := by
  show StableHlo.after Gen.hostOps0 (fun b => m (c, b)) (Proc.devRef .tc main_v37) = _
  host_results
  rfl

/-- … and the second is channels 3–5. -/
theorem v38_eq :
    (Gen.V m c main_v38 : S4x3x64x128x128.Idx → EReal)
      = extractStridedSlice S4x3x64x128x128 ![0, 3, 0, 0, 0]
          (gathered (m ((c : Thread nD τ).loc main_arg0) : S4x256x512x3.Idx → EReal) (m ((c : Thread nD τ).loc main_arg1) : S4x256x512x3.Idx → EReal)
            (posArr (m ((c : Thread nD τ).loc main_arg5) : S32x128x128.Idx → BitVec 32) (m ((c : Thread nD τ).loc main_arg10) : S32x128x128.Idx → BitVec 32) (m ((c : Thread nD τ).loc main_arg4) : S32x128x128.Idx → BitVec 32) (m ((c : Thread nD τ).loc main_arg9) : S32x128x128.Idx → BitVec 32)))
          Gen.slices_S4x6x64x128x128_S4x3x64x128x128_0_3_0_0_0 := by
  show StableHlo.after Gen.hostOps0 (fun b => m (c, b)) (Proc.devRef .tc main_v38) = _
  host_results
  rfl

/-- (K2) The first sample array at batch `b`, channel `ch`, direction `n` and pixel `(r, l)`: the first map's sample
    at the direction's position words, rows wrapped by 256 and columns by 512. -/
theorem K2 (b : Fin 4) (ch : Fin 3) (n : Fin 64) (r l : Fin 128) :
    (Gen.V m c main_v37 : S4x3x64x128x128.Idx → EReal) (ix5 b ch n r l)
      = cat (fun k => samp (m ((c : Thread nD τ).loc main_arg0) : S4x256x512x3.Idx → EReal) ((m ((c : Thread nD τ).loc main_arg5) : S32x128x128.Idx → BitVec 32) (ix3 k r l)) ((m ((c : Thread nD τ).loc main_arg4) : S32x128x128.Idx → BitVec 32) (ix3 k r l)) b ch)
            (fun k => samp (m ((c : Thread nD τ).loc main_arg0) : S4x256x512x3.Idx → EReal) ((m ((c : Thread nD τ).loc main_arg10) : S32x128x128.Idx → BitVec 32) (ix3 k r l)) ((m ((c : Thread nD τ).loc main_arg9) : S32x128x128.Idx → BitVec 32) (ix3 k r l)) b ch) n := by
  refine (congrFun (v37_eq m c) (ix5 b ch n r l)).trans ?_
  rw [slice_lo_read]
  exact gathered_read_lo _ _ _ _ _ _ b ch n r l

/-- (K3) The second sample array: the same with the second map. -/
theorem K3 (b : Fin 4) (ch : Fin 3) (n : Fin 64) (r l : Fin 128) :
    (Gen.V m c main_v38 : S4x3x64x128x128.Idx → EReal) (ix5 b ch n r l)
      = cat (fun k => samp (m ((c : Thread nD τ).loc main_arg1) : S4x256x512x3.Idx → EReal) ((m ((c : Thread nD τ).loc main_arg5) : S32x128x128.Idx → BitVec 32) (ix3 k r l)) ((m ((c : Thread nD τ).loc main_arg4) : S32x128x128.Idx → BitVec 32) (ix3 k r l)) b ch)
            (fun k => samp (m ((c : Thread nD τ).loc main_arg1) : S4x256x512x3.Idx → EReal) ((m ((c : Thread nD τ).loc main_arg10) : S32x128x128.Idx → BitVec 32) (ix3 k r l)) ((m ((c : Thread nD τ).loc main_arg9) : S32x128x128.Idx → BitVec 32) (ix3 k r l)) b ch) n := by
  refine (congrFun (v38_eq m c) (ix5 b ch n r l)).trans ?_
  rw [slice_hi_read]
  exact gathered_read_hi _ _ _ _ _ _ b ch n r l

end Cert.Render.KHost

end
-- ==== Proof.KValue.lean ====
/-
  The kernel program's three results as functions of its twelve arguments.

  The coefficient array the call receives is the joined list of folded coefficients, and its two sample arrays are
  the joined lists of environment samples of the two maps; so each render array is, index by index, the chunked
  render of the arguments, the per-pixel array their squared difference summed over batch and channel, and the three
  results follow from what the program does after the call.
-/
import proofs.«172565_j15144054686503_2_alg».proof.Proof.KArr
import proofs.«172565_j15144054686503_2_alg».proof.Proof.KTail
import proofs.«172565_j15144054686503_2_alg».proof.Proof.KernelHost
import proofs.«172565_j15144054686503_2_alg».proof.Proof.Spec

set_option maxRecDepth 16384

noncomputable section

open scoped BigOperators

namespace Cert.Render.KValue

open Cert.KernelIdeal Cert.KernelIdeal.Gen Idealize.ShloMosaic Idealize.ShloMosaic.TcCoe Idealize.SL.Sem
open Idealize.ShloMosaic.ValueIdx Cert.Render

local notation "zero" => Ideal.ofBits FTy.f32 0x00000000#32
local notation "ten" => Ideal.ofBits FTy.f32 0x41200000#32
local notation "npix" => Ideal.ofBits FTy.f32 0x47C00000#32

variable (m : (ℓ : Loc nD τ sig) → Buf (Elt Ideal) ℓ) (c : Dev nD)

/-- The chunked render of an environment map with the program's reflectances, position words and weights. -/
def renderOf (e : S4x256x512x3.Idx → EReal) (b : Fin 4) (ch : Fin 3) (r l : Fin 128) : EReal :=
  renderKAt zero ten e (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) b ch r l

/-- The first render array, index by index. -/
theorem pred_apply (b : Fin 4) (ch : Fin 3) (r l : Fin 128) :
    KArr.predArr (V m c main_v18) (V m c main_v37) (ix4 b ch r l) = renderOf m c (m ((c : Thread nD τ).loc main_arg0) : S4x256x512x3.Idx → EReal) b ch r l := by
  unfold KArr.predArr accAt renderOf renderKAt renderK
  refine congrArg (acc8 zero) (funext fun n => ?_)
  exact congrArg₂ (· * ·) (KHost.K2 m c b ch n r l) (KHost.K1 m c n r l)

/-- The second render array, index by index. -/
theorem gt_apply (b : Fin 4) (ch : Fin 3) (r l : Fin 128) :
    KArr.predArr (V m c main_v18) (V m c main_v38) (ix4 b ch r l) = renderOf m c (m ((c : Thread nD τ).loc main_arg1) : S4x256x512x3.Idx → EReal) b ch r l := by
  unfold KArr.predArr accAt renderOf renderKAt renderK
  refine congrArg (acc8 zero) (funext fun n => ?_)
  exact congrArg₂ (· * ·) (KHost.K3 m c b ch n r l) (KHost.K1 m c n r l)

/-- The second result at (ch, r, l): the first render at batch 0. -/
theorem res_pred (ch : Fin 3) (r l : Fin 128) :
    (Pipeline.afterTail₀ cfgs (dats m) 0 (V0 m) [hostOps1] c main_v43 : S3x128x128.Idx → EReal) (ix3 ch r l)
      = renderOf m c (m ((c : Thread nD τ).loc main_arg0) : S4x256x512x3.Idx → EReal) 0 ch r l := by
  rw [KTail.tail_pred, KTail.batch0_apply, KArr.final3]
  exact pred_apply m c 0 ch r l

/-- The third result at (ch, r, l): the second render at batch 0. -/
theorem res_gt (ch : Fin 3) (r l : Fin 128) :
    (Pipeline.afterTail₀ cfgs (dats m) 0 (V0 m) [hostOps1] c main_v45 : S3x128x128.Idx → EReal) (ix3 ch r l)
      = renderOf m c (m ((c : Thread nD τ).loc main_arg1) : S4x256x512x3.Idx → EReal) 0 ch r l := by
  rw [KTail.tail_gt, KTail.batch0_apply, KArr.final4]
  exact gt_apply m c 0 ch r l

/-- The first result: the squared differences of the two render arrays, summed pixel by pixel from zero, over the
    pixel count. -/
theorem res_loss (i : S_.Idx) :
    (Pipeline.afterTail₀ cfgs (dats m) 0 (V0 m) [hostOps1] c main_v41 : S_.Idx → EReal) i
      = Ideal.div (sqSumPixels zero (KArr.predArr (V m c main_v18) (V m c main_v37)) (KArr.predArr (V m c main_v18) (V m c main_v38))) npix := by
  rw [KTail.tail_loss, KTail.meanOf_apply, KArr.final5]
  rfl

end Cert.Render.KValue

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.LibSumHalves.lean ====
/-
  A sum over 64 terms is the sum of its first 32 terms plus the sum of its last 32 terms, in any commutative monoid
  (so also on the extended reals, where addition is commutative and associative but not cancellative).
-/
import Mathlib.Algebra.BigOperators.Fin

open scoped BigOperators

namespace Cert.LibSumHalves

/-- `∑_{k<64} f k = ∑_{k<32} f k + ∑_{k<32} f (32 + k)`. -/
theorem sum_fin64_halves {M : Type*} [AddCommMonoid M] (f : Fin 64 → M) :
    ∑ k : Fin 64, f k = (∑ k : Fin 32, f ⟨k.val, by omega⟩) + ∑ k : Fin 32, f ⟨32 + k.val, by omega⟩ :=
  Fin.sum_univ_add (a := 32) (b := 32) f

end Cert.LibSumHalves
-- ==== Proof.Algebra.lean ====
/-
  The algebra behind the two arrangements of a render and of the loss, on the extended reals.

  * Accumulating 64 terms in eight chunks of eight onto a total that starts at 0 is their plain sum: addition of
    extended reals is commutative and associative, which is all a regrouping needs.
  * When every reflectance, weight and sample is a real number and so is the specular factor t, the folded
    arrangement  Σ_{n<64} g n · (w n · (d n + t · s n))  over the two passes' joined lists equals the arrangement that
    keeps the sums apart,  [Σ_{n<32} (d0 n · w0 n) · g0 n + t · Σ_{n<32} (s0 n · w0 n) · g0 n] + [the same for the
    second pass].  Multiplication does not distribute over addition on all of the extended reals, but it does on the
    reals, and the embedding of the reals commutes with sums and products: both sides are the embedding of one real
    number, and in the reals the identity is distributivity.
  * The sum of squared differences taken over batch, then channel, then the image is the sum over all four axes at
    once: a finite sum in a commutative monoid may be taken in any order.
  * The literal 10.0 denotes a real number.
-/
import proofs.«172565_j15144054686503_2_alg».proof.Proof.Spec
import proofs.«172565_j15144054686503_2_alg».proof.Proof.LibERealSum
import proofs.«172565_j15144054686503_2_alg».proof.Proof.LibSumHalves
import Mathlib
import Idealize.ShloMosaic.PureOps.Ideal
import Idealize.ShloMosaic.PureOps.Ideal.Laws
import Idealize.ShloMosaic.Lib.ValueIdx

noncomputable section

open scoped BigOperators

namespace Cert.Render.Alg

open Idealize.ShloMosaic Idealize.ShloMosaic.ValueIdx Cert.Render

/-! ## Chunks -/

/-- The 64 terms, indexed by chunk `j` and place `k` in the chunk, are the eight chunk sums added up: the pair
    `(j, k)` names the term `8·j + k`, and every term below 64 is named once. -/
theorem sum_eq_sum_chunks (f : Fin 64 → EReal) : ∑ n : Fin 64, f n = ∑ j : Fin 8, chunk f j := by
  have h := Equiv.sum_comp (finProdFinEquiv (m := 8) (n := 8)) f
  rw [Fintype.sum_prod_type] at h
  rw [← h]
  refine Finset.sum_congr rfl fun j _ => ?_
  unfold chunk
  refine Finset.sum_congr rfl fun k _ => ?_
  congr 1
  refine Fin.ext ?_
  show (k : ℕ) + 8 * (j : ℕ) = 8 * (j : ℕ) + (k : ℕ)
  exact Nat.add_comm _ _

/-- Accumulating the eight chunk sums onto 0 gives the plain sum of the 64 terms. -/
theorem acc8_eq_sum (f : Fin 64 → EReal) : acc8 0 f = ∑ n : Fin 64, f n := by
  rw [sum_eq_sum_chunks, Fin.sum_univ_eight]
  unfold acc8
  rw [zero_add]

/-! ## Joined lists -/

/-- The first 32 places of a joined list are the first list. -/
theorem cat_left {α : Type} (a b : Fin 32 → α) (k : Fin 32) (h : k.val < 64) : cat a b ⟨k.val, h⟩ = a k := by
  unfold cat
  rw [dif_pos (show (⟨k.val, h⟩ : Fin 64).val < 32 from k.isLt)]

/-- The last 32 places of a joined list are the second list. -/
theorem cat_right {α : Type} (a b : Fin 32 → α) (k : Fin 32) (h : 32 + k.val < 64) : cat a b ⟨32 + k.val, h⟩ = b k := by
  unfold cat
  rw [dif_neg (show ¬ (⟨32 + k.val, h⟩ : Fin 64).val < 32 from by simp)]
  congr 1
  exact Fin.ext (by simp)

/-- A sum over a joined list of 64 products is the sum over the first pass plus the sum over the second. -/
theorem sum_cat_mul (g0 g1 c0 c1 : Fin 32 → EReal) :
    ∑ n : Fin 64, cat g0 g1 n * cat c0 c1 n = (∑ k : Fin 32, g0 k * c0 k) + ∑ k : Fin 32, g1 k * c1 k := by
  rw [Cert.LibSumHalves.sum_fin64_halves]
  simp only [cat_left, cat_right]

/-! ## One pass, over the reals -/

/-- For real lists and a real factor the folded pass  Σ g n · (w n · (d n + t · s n))  equals the pass with the sums
    kept apart  Σ (d n · w n) · g n + t · Σ (s n · w n) · g n : both are the embedding of a real number, and the two
    real numbers agree by distributivity. -/
theorem pass_eq (t : ℝ) (d s w g : Fin 32 → ℝ) :
    ∑ k : Fin 32, (g k : EReal) * coef (t : EReal) (fun n => (d n : EReal)) (fun n => (s n : EReal)) (fun n => (w n : EReal)) k
      = passRef 0 (t : EReal) (fun n => (d n : EReal)) (fun n => (s n : EReal)) (fun n => (w n : EReal))
          (fun n => (g n : EReal)) := by
  unfold passRef coef
  rw [zero_add, zero_add]
  simp only [← EReal.coe_mul, ← EReal.coe_add, ← Cert.LibERealSum.coe_sum]
  congr 1
  rw [Finset.mul_sum, ← Finset.sum_add_distrib]
  refine Finset.sum_congr rfl fun k _ => ?_
  ring

/-! ## The two arrangements of a render agree on real data -/

/-- Both passes folded, joined and accumulated in chunks equal the two passes with the sums kept apart, when the
    running totals start at 0 and every datum and the factor `t` are real. -/
theorem renderK_eq_renderRef (t : ℝ) (d0 s0 w0 g0 d1 s1 w1 g1 : Fin 32 → ℝ) :
    renderK 0 (t : EReal) (fun n => (d0 n : EReal)) (fun n => (s0 n : EReal)) (fun n => (w0 n : EReal))
        (fun n => (g0 n : EReal)) (fun n => (d1 n : EReal)) (fun n => (s1 n : EReal)) (fun n => (w1 n : EReal))
        (fun n => (g1 n : EReal))
      = renderRef 0 (t : EReal) (fun n => (d0 n : EReal)) (fun n => (s0 n : EReal)) (fun n => (w0 n : EReal))
        (fun n => (g0 n : EReal)) (fun n => (d1 n : EReal)) (fun n => (s1 n : EReal)) (fun n => (w1 n : EReal))
        (fun n => (g1 n : EReal)) := by
  unfold renderK renderRef
  rw [acc8_eq_sum, sum_cat_mul, pass_eq, pass_eq]

/-! ## The renders over the argument arrays -/

/-- Over arrays whose float entries are all real, with totals starting at 0 and a real factor, the render with folded
    coefficients and chunked accumulation equals the render with the sums kept apart, at every batch, channel and
    pixel; the position words are arbitrary (they only select which environment entry is sampled). -/
theorem renderKAt_eq_renderRefAt (zero ten : EReal) (hz : zero = 0) (ht : ∃ t : ℝ, ten = (t : EReal))
    (e : (⟨4, ![4, 256, 512, 3]⟩ : Shape).Idx → EReal)
    (sp0 df0 : (⟨4, ![32, 1, 128, 128]⟩ : Shape).Idx → EReal) (jx0 jy0 : (⟨3, ![32, 128, 128]⟩ : Shape).Idx → BitVec 32)
    (w0 : (⟨2, ![32, 1]⟩ : Shape).Idx → EReal)
    (sp1 df1 : (⟨4, ![32, 1, 128, 128]⟩ : Shape).Idx → EReal) (jx1 jy1 : (⟨3, ![32, 128, 128]⟩ : Shape).Idx → BitVec 32)
    (w1 : (⟨2, ![32, 1]⟩ : Shape).Idx → EReal)
    (he : ∀ i, ∃ x : ℝ, e i = (x : EReal))
    (hsp0 : ∀ i, ∃ x : ℝ, sp0 i = (x : EReal)) (hdf0 : ∀ i, ∃ x : ℝ, df0 i = (x : EReal))
    (hw0 : ∀ i, ∃ x : ℝ, w0 i = (x : EReal))
    (hsp1 : ∀ i, ∃ x : ℝ, sp1 i = (x : EReal)) (hdf1 : ∀ i, ∃ x : ℝ, df1 i = (x : EReal))
    (hw1 : ∀ i, ∃ x : ℝ, w1 i = (x : EReal))
    (b : Fin 4) (ch : Fin 3) (r l : Fin 128) :
    renderKAt zero ten e sp0 df0 jx0 jy0 w0 sp1 df1 jx1 jy1 w1 b ch r l
      = renderRefAt zero ten e sp0 df0 jx0 jy0 w0 sp1 df1 jx1 jy1 w1 b ch r l := by
  obtain ⟨t, rfl⟩ := ht
  subst hz
  choose e' he' using he
  choose sp0' hsp0' using hsp0
  choose df0' hdf0' using hdf0
  choose w0' hw0' using hw0
  choose sp1' hsp1' using hsp1
  choose df1' hdf1' using hdf1
  choose w1' hw1' using hw1
  obtain rfl : e = fun i => (e' i : EReal) := funext he'
  obtain rfl : sp0 = fun i => (sp0' i : EReal) := funext hsp0'
  obtain rfl : df0 = fun i => (df0' i : EReal) := funext hdf0'
  obtain rfl : w0 = fun i => (w0' i : EReal) := funext hw0'
  obtain rfl : sp1 = fun i => (sp1' i : EReal) := funext hsp1'
  obtain rfl : df1 = fun i => (df1' i : EReal) := funext hdf1'
  obtain rfl : w1 = fun i => (w1' i : EReal) := funext hw1'
  exact renderK_eq_renderRef t
    (fun n => df0' (ix4 n 0 r l)) (fun n => sp0' (ix4 n 0 r l)) (fun n => w0' (ix2 n 0))
    (fun n => e' (ix4 b (pos 256 (by decide) (wrap 256#32 (jy0 (ix3 n r l))))
      (pos 512 (by decide) (wrap 512#32 (jx0 (ix3 n r l)))) ch))
    (fun n => df1' (ix4 n 0 r l)) (fun n => sp1' (ix4 n 0 r l)) (fun n => w1' (ix2 n 0))
    (fun n => e' (ix4 b (pos 256 (by decide) (wrap 256#32 (jy1 (ix3 n r l))))
      (pos 512 (by decide) (wrap 512#32 (jx1 (ix3 n r l)))) ch))

/-! ## The two arrangements of the loss -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A fourfold finite sum in a commutative monoid taken with the last two axes outermost and the first two swapped. -/
theorem sum4_reorder {M : Type*} [AddCommMonoid M] {α β γ δ : Type*} [Fintype α] [Fintype β] [Fintype γ] [Fintype δ]
    (F : α → β → γ → δ → M) :
    ∑ a, ∑ b, ∑ c, ∑ d, F a b c d = ∑ c, ∑ d, ∑ b, ∑ a, F a b c d := by
  calc ∑ a, ∑ b, ∑ c, ∑ d, F a b c d
      = ∑ a, ∑ c, ∑ b, ∑ d, F a b c d := Finset.sum_congr rfl fun a _ => Finset.sum_comm
    _ = ∑ c, ∑ a, ∑ b, ∑ d, F a b c d := Finset.sum_comm
    _ = ∑ c, ∑ a, ∑ d, ∑ b, F a b c d :=
        Finset.sum_congr rfl fun c _ => Finset.sum_congr rfl fun a _ => Finset.sum_comm
    _ = ∑ c, ∑ d, ∑ a, ∑ b, F a b c d := Finset.sum_congr rfl fun c _ => Finset.sum_comm
    _ = ∑ c, ∑ d, ∑ b, ∑ a, F a b c d :=
        Finset.sum_congr rfl fun c _ => Finset.sum_congr rfl fun d _ => Finset.sum_comm

/-- Summing the squared differences over batch, then channel, then the image gives the sum over all four axes at
    once, whatever total the sums start from. -/
theorem sqSumPixels_eq_sqSumAll (zero : EReal) (P Q : (⟨4, ![4, 3, 128, 128]⟩ : Shape).Idx → EReal) :
    sqSumPixels zero P Q = sqSumAll zero P Q := by
  unfold sqSumPixels sqSumAll sqPixel
  rw [sum_idx2, sum_idx4 (fun j => (P j - Q j) * (P j - Q j)),
    sum4_reorder (fun (b : Fin 4) (ch : Fin 3) (r l : Fin 128) =>
      (P (ix4 b ch r l) - Q (ix4 b ch r l)) * (P (ix4 b ch r l) - Q (ix4 b ch r l)))]

/-- Chunked accumulation from a total known to be 0 is the plain sum. -/
theorem acc8_eq_sum' (zero : EReal) (hz : zero = 0) (f : Fin 64 → EReal) : acc8 zero f = ∑ n : Fin 64, f n := by
  subst hz
  exact acc8_eq_sum f

/-- The chunked accumulation over a coefficient array and a sample array, from a total known to be 0, is the plain
    sum of the 64 products. -/
theorem accAt_eq_sum (zero : EReal) (hz : zero = 0) (A0 : (⟨3, ![64, 128, 128]⟩ : Shape).Idx → EReal)
    (A1 : (⟨5, ![4, 3, 64, 128, 128]⟩ : Shape).Idx → EReal) (b : Fin 4) (ch : Fin 3) (r l : Fin 128) :
    accAt zero A0 A1 b ch r l = ∑ n : Fin 64, A1 (ix5 b ch n r l) * A0 (ix3 n r l) := by
  unfold accAt
  exact acc8_eq_sum' zero hz _

/-! ## Constants -/

/-- The literal `+0.0` denotes 0. -/
theorem zero_lit : Ideal.ofBits .f32 0x00000000#32 = 0 := Ideal.ofBits_zero_f32

/-- The literal `10.0` (sign 0, exponent 130, fraction 2^21: 1.25 · 2^3) denotes the real number 10. -/
theorem ten_lit : Ideal.ofBits .f32 0x41200000#32 = ((10 : ℝ) : EReal) := by
  simp [Ideal.ofBits, Ideal.ieee, -EReal.coe_mul]; norm_num

/-- In particular it denotes a real number. -/
theorem ten_real : ∃ t : ℝ, Ideal.ofBits .f32 0x41200000#32 = ((t : ℝ) : EReal) := ⟨10, ten_lit⟩

end Cert.Render.Alg

end
-- ==== Proof.Finite.lean ====
import proofs.«172565_j15144054686503_2_alg».proof.Defs
import proofs.«172565_j15144054686503_2_alg».proof.Proof.Gen.KernelIdeal
import proofs.«172565_j15144054686503_2_alg».proof.Proof.Gen.Pre_finite_inputs
import Idealize.ShloMosaic.Lib.ValueIdx
import Idealize.ShloMosaic.Lib.ReduceAll
import Idealize.ShloMosaic.PureOps.Ideal.Laws

/-
  The precondition makes every float input real.

  The precondition is the conjunction, over the eight float arguments, of the test "every entry x has |x| < +∞".
  Over the extended reals |x| is max x (-x); it lies strictly below +∞ exactly when x is neither +∞ nor -∞, that is,
  when x is (the image of) a real number.  One generic lemma reads the test back for an array of any shape; the
  theorem splits the conjunction and applies it eight times.
-/

namespace Cert.Render.Fin

open Idealize.ShloMosaic Idealize.ShloMosaic.ValueIdx Idealize.SL.Sem

/-- The rank-0 shape has exactly one index. -/
instance subsingleton_scalar_idx : Subsingleton (⟨0, ![]⟩ : Shape).Idx :=
  ⟨fun a b => funext fun d => d.elim0⟩

/-- The f32 pattern `0x7F800000` is the extended real `+∞`. -/
theorem ofBits_inf_f32 : Ideal.ofBits .f32 0x7F800000#32 = (⊤ : EReal) := by
  simp [Ideal.ofBits, Ideal.ieee]

/-- An extended real whose absolute value `max x (-x)` lies strictly below `+∞` is a real:
`+∞` fails the test itself, and `-∞` fails it through its negation. -/
theorem real_of_abs_lt_top (x : EReal) (h : max x (-x) < ⊤) : ∃ r : ℝ, x = (r : EReal) := by
  induction x using EReal.rec with
  | bot => simp at h
  | coe r => exact ⟨r, rfl⟩
  | top => simp at h

/-- The all-entries test read back: if the conjunction over every index of the test
`|x i| < +∞` is true, every entry of `x` is a real. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x)
          (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) := by
  have h := Host.reduce_andi_all _ _ hr hu ix0 e i
  -- the test at the index: the comparison word of |x i| against the constant
  change Ideal.cmp .olt (max (x i) (-(x i))) (Ideal.ofBits .f32 0x7F800000#32) = 1#1 at h
  rw [ofBits_inf_f32] at h
  refine real_of_abs_lt_top (x i) ?_
  by_contra hn
  have h' : BitVec.ofBool (decide (max (x i) (-(x i)) < (⊤ : EReal))) = 1#1 := h
  rw [decide_eq_false hn] at h'
  exact absurd h' (by decide)

/-- Under the precondition every entry of every float argument array is a real. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨4, ![4, 256, 512, 3]⟩ : Shape).Idx, ∃ x : ℝ, (m ((c.tc : Thread Cert.KernelIdeal.nD Cert.KernelIdeal.τ).loc Cert.KernelIdeal.main_arg0)) i = (x : EReal)) ∧
    (∀ i : (⟨4, ![4, 256, 512, 3]⟩ : Shape).Idx, ∃ x : ℝ, (m ((c.tc : Thread Cert.KernelIdeal.nD Cert.KernelIdeal.τ).loc Cert.KernelIdeal.main_arg1)) i = (x : EReal)) ∧
    (∀ i : (⟨4, ![32, 1, 128, 128]⟩ : Shape).Idx, ∃ x : ℝ, (m ((c.tc : Thread Cert.KernelIdeal.nD Cert.KernelIdeal.τ).loc Cert.KernelIdeal.main_arg2)) i = (x : EReal)) ∧
    (∀ i : (⟨4, ![32, 1, 128, 128]⟩ : Shape).Idx, ∃ x : ℝ, (m ((c.tc : Thread Cert.KernelIdeal.nD Cert.KernelIdeal.τ).loc Cert.KernelIdeal.main_arg3)) i = (x : EReal)) ∧
    (∀ i : (⟨2, ![32, 1]⟩ : Shape).Idx, ∃ x : ℝ, (m ((c.tc : Thread Cert.KernelIdeal.nD Cert.KernelIdeal.τ).loc Cert.KernelIdeal.main_arg6)) i = (x : EReal)) ∧
    (∀ i : (⟨4, ![32, 1, 128, 128]⟩ : Shape).Idx, ∃ x : ℝ, (m ((c.tc : Thread Cert.KernelIdeal.nD Cert.KernelIdeal.τ).loc Cert.KernelIdeal.main_arg7)) i = (x : EReal)) ∧
    (∀ i : (⟨4, ![32, 1, 128, 128]⟩ : Shape).Idx, ∃ x : ℝ, (m ((c.tc : Thread Cert.KernelIdeal.nD Cert.KernelIdeal.τ).loc Cert.KernelIdeal.main_arg8)) i = (x : EReal)) ∧
    (∀ i : (⟨2, ![32, 1]⟩ : Shape).Idx, ∃ x : ℝ, (m ((c.tc : Thread Cert.KernelIdeal.nD Cert.KernelIdeal.τ).loc Cert.KernelIdeal.main_arg11)) i = (x : EReal)) := by
  have e := congrFun (h c) ix0
  dsimp only [Cert.Pre_finite_inputs.fn, Cert.Pre_finite_inputs.fn_part1, Cert.Pre_finite_inputs.fn_part2] at e
  obtain ⟨e, e11⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_all _ _ _ _ e0 i, fun i => real_of_all _ _ _ _ e1 i,
    fun i => real_of_all _ _ _ _ e2 i, fun i => real_of_all _ _ _ _ e3 i,
    fun i => real_of_all _ _ _ _ e6 i, fun i => real_of_all _ _ _ _ e7 i,
    fun i => real_of_all _ _ _ _ e8 i, fun i => real_of_all _ _ _ _ e11 i⟩

end Cert.Render.Fin
-- ==== Proof.RefSide.lean ====
/-
  The reference program read index by index.

  Its three results are stated over coordinates: the two renders at (b, ch, r, l) are the specification's render
  with the diffuse and the specular sums kept apart; the second and third results are the two renders at batch 0;
  the first result is the sum of the squared differences of the two renders over all four axes, divided by the
  pixel count.

  The only steps that are not a plain reading of an operand at one index are the gather of the environment map at
  the wrapped position words (read signed and clamped, on the row and the column axis) and the join of the row and
  column words into the start indices; both are read here coordinate by coordinate.
-/
import proofs.«172565_j15144054686503_2_alg».proof.Proof.Gen.ReferenceIdeal.Read
import proofs.«172565_j15144054686503_2_alg».proof.Proof.Spec
import proofs.«172565_j15144054686503_2_alg».proof.Proof.LibIdx
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Render.Ref

open Cert.ReferenceIdeal Cert.ReferenceIdeal.Gen Cert.ReferenceIdeal.Read
open Idealize.ShloMosaic Idealize.ShloMosaic.ValueIdx Idealize.ShloMosaic.StableHlo

local notation "zero" => (Ideal.ofBits FTy.f32 0x00000000#32)
local notation "ten" => (Ideal.ofBits FTy.f32 0x41200000#32)
local notation "npix" => (Ideal.ofBits FTy.f32 0x47C00000#32)

-- Two indices of the same small rank are equal when each coordinate computes to the same number.
local macro "idx_eq2" : tactic =>
  `(tactic| (funext a; refine Fin.ext ?_; match a with | ⟨0, _⟩ => rfl | ⟨1, _⟩ => rfl))
local macro "idx_eq3" : tactic =>
  `(tactic| (funext a; refine Fin.ext ?_; match a with | ⟨0, _⟩ => rfl | ⟨1, _⟩ => rfl | ⟨2, _⟩ => rfl))
local macro "idx_eq4" : tactic =>
  `(tactic| (funext a; refine Fin.ext ?_; match a with | ⟨0, _⟩ => rfl | ⟨1, _⟩ => rfl | ⟨2, _⟩ => rfl | ⟨3, _⟩ => rfl))
local macro "idx_eq5" : tactic =>
  `(tactic| (funext a; refine Fin.ext ?_; match a with | ⟨0, _⟩ => rfl | ⟨1, _⟩ => rfl | ⟨2, _⟩ => rfl | ⟨3, _⟩ => rfl | ⟨4, _⟩ => rfl))

/-! ## The gather read at an index

The environment map [4, 256, 512, 3] is read at start indices [32, 128, 128, 2]: the result element
(b, n, r, l, ch) is the map at batch b, channel ch, at the row given by component 0 and the column given by
component 1 of the start index (n, r, l), each read signed and clamped into its axis.  The start indices are two
columns [32, 128, 128, 1] joined along the last axis, and the result is then transposed to (b, n, ch, r, l). -/

section Gather
variable {α : Type}

/-- The start-indices index at which the result index (b, n, r, l, ch) reads component c of its start index is (n, r, l, c). -/
theorem siIdx_eq (b : Fin 4) (n : Fin 32) (r l : Fin 128) (ch : Fin 3) (c : Fin 2) (hc : c.val < gather_S4x256x512x3_S32x128x128x2_S4x32x128x128x3_04_12_n_n_12_3_4113.startIndexMap.length) :
    gather_S4x256x512x3_S32x128x128x2_S4x32x128x128x3_04_12_n_n_12_3_4113.siIdx (ix5 b n r l ch) ⟨c.val, hc⟩ = ix4 n r l c := by
  idx_eq4

/-- The gather at the result index (b, n, r, l, ch). -/
theorem gather_env_apply (x : S4x256x512x3.Idx → α) (idx : IVec S32x128x128x2 32)
    (b : Fin 4) (n : Fin 32) (r l : Fin 128) (ch : Fin 3) :
    Host.gather gather_S4x256x512x3_S32x128x128x2_S4x32x128x128x3_04_12_n_n_12_3_4113 x idx (ix5 b n r l ch)
      = x (ix4 b (pos 256 (by decide) (idx (ix4 n r l 0))) (pos 512 (by decide) (idx (ix4 n r l 1))) ch) := by
  unfold Host.gather
  refine congrArg x (funext fun a => Fin.ext ?_)
  match a with
  | ⟨0, _⟩ => show 0 + 0 + b.val = b.val; omega
  | ⟨1, _⟩ =>
    show min (idx (gather_S4x256x512x3_S32x128x128x2_S4x32x128x128x3_04_12_n_n_12_3_4113.siIdx (ix5 b n r l ch) ⟨(0 : Fin 2).val, by decide⟩)).toInt.toNat (256 - 1) + 0 + 0
      = min (idx (ix4 n r l 0)).toInt.toNat (256 - 1)
    rw [siIdx_eq]
    rfl
  | ⟨2, _⟩ =>
    show min (idx (gather_S4x256x512x3_S32x128x128x2_S4x32x128x128x3_04_12_n_n_12_3_4113.siIdx (ix5 b n r l ch) ⟨(1 : Fin 2).val, by decide⟩)).toInt.toNat (512 - 1) + 0 + 0
      = min (idx (ix4 n r l 1)).toInt.toNat (512 - 1)
    rw [siIdx_eq]
    rfl
  | ⟨3, _⟩ => show 0 + 0 + ch.val = ch.val; omega

/-- Two columns joined along the last axis, read in the first column. -/
theorem cat_apply_left (c0 c1 : S32x128x128x1.Idx → α) (n : Fin 32) (r l : Fin 128) :
    concatenate S32x128x128x2 3 [⟨S32x128x128x1, c0⟩, ⟨S32x128x128x1, c1⟩]
        concatenates_S32x128x128x1_S32x128x128x1_S32x128x128x2_d3 (ix4 n r l 0) = c0 (ix4 n r l 0) :=
  concatenate_pair_apply_left (t := S32x128x128x2) (s₁ := S32x128x128x1) (s₂ := S32x128x128x1) 3 c0 c1
    concatenates_S32x128x128x1_S32x128x128x1_S32x128x128x2_d3 (ix4 n r l (0 : Fin 2)) rfl (ix4 n r l (0 : Fin 1)) (fun b => by
    match b with
    | ⟨0, _⟩ => rfl
    | ⟨1, _⟩ => rfl
    | ⟨2, _⟩ => rfl
    | ⟨3, _⟩ => rfl)

/-- Two columns joined along the last axis, read in the second column. -/
theorem cat_apply_right (c0 c1 : S32x128x128x1.Idx → α) (n : Fin 32) (r l : Fin 128) :
    concatenate S32x128x128x2 3 [⟨S32x128x128x1, c0⟩, ⟨S32x128x128x1, c1⟩]
        concatenates_S32x128x128x1_S32x128x128x1_S32x128x128x2_d3 (ix4 n r l 1) = c1 (ix4 n r l 0) :=
  concatenate_pair_apply_right (t := S32x128x128x2) (s₁ := S32x128x128x1) (s₂ := S32x128x128x1) 3 c0 c1
    concatenates_S32x128x128x1_S32x128x128x1_S32x128x128x2_d3 (ix4 n r l (1 : Fin 2)) rfl rfl (ix4 n r l (0 : Fin 1)) (fun b hb => by
    match b, hb with
    | ⟨0, _⟩, _ => rfl
    | ⟨1, _⟩, _ => rfl
    | ⟨2, _⟩, _ => rfl
    | ⟨3, _⟩, hb => exact absurd rfl hb) rfl

/-- The transposed gather of the joined columns at (b, n, ch, r, l): the map at the two clamped positions. -/
theorem sample_apply (x : S4x256x512x3.Idx → α) (c0 c1 : S32x128x128x1.Idx → BitVec 32)
    (b : Fin 4) (n : Fin 32) (ch : Fin 3) (r l : Fin 128) :
    transpose S4x32x3x128x128 [0, 1, 4, 2, 3]
        (Host.gather gather_S4x256x512x3_S32x128x128x2_S4x32x128x128x3_04_12_n_n_12_3_4113 x (concatenate S32x128x128x2 3 [⟨S32x128x128x1, c0⟩, ⟨S32x128x128x1, c1⟩]
          concatenates_S32x128x128x1_S32x128x128x1_S32x128x128x2_d3))
        transposes_S4x32x128x128x3_S4x32x3x128x128_0_1_4_2_3 (ix5 b n ch r l)
      = x (ix4 b (pos 256 (by decide) (c0 (ix4 n r l 0))) (pos 512 (by decide) (c1 (ix4 n r l 0))) ch) := by
  refine (transpose_apply [0, 1, 4, 2, 3] _ transposes_S4x32x128x128x3_S4x32x3x128x128_0_1_4_2_3 (ix5 b n ch r l)
    (ix5 b n r l ch) (fun a => by
      match a with
      | ⟨0, _⟩ => rfl
      | ⟨1, _⟩ => rfl
      | ⟨2, _⟩ => rfl
      | ⟨3, _⟩ => rfl
      | ⟨4, _⟩ => rfl)).trans ?_
  rw [gather_env_apply, cat_apply_left, cat_apply_right]

end Gather

/-! ## The position words

A position word is moved up by the axis' extent when it is negative: the select of the program is `wrap`. -/

theorem wrap_v4 (x5 : (⟨S32x128x128, .i32⟩ : BufTy).Contents (Elt Ideal)) (i : S32x128x128.Idx) :
    val_main_v4 (F := Ideal) x5 i = wrap 256#32 (x5 i) := by
  rw [val_main_v4_apply, val_main_v1_apply, val_main_v3_apply, val_main_v0_apply,
    val_main_v2_apply, val_main_c_apply, val_main_c_0_apply]
  rfl

theorem wrap_v9 (x4 : (⟨S32x128x128, .i32⟩ : BufTy).Contents (Elt Ideal)) (i : S32x128x128.Idx) :
    val_main_v9 (F := Ideal) x4 i = wrap 512#32 (x4 i) := by
  rw [val_main_v9_apply, val_main_v6_apply, val_main_v8_apply, val_main_v5_apply,
    val_main_v7_apply, val_main_c_1_apply, val_main_c_2_apply]
  rfl

theorem wrap_v35 (x10 : (⟨S32x128x128, .i32⟩ : BufTy).Contents (Elt Ideal)) (i : S32x128x128.Idx) :
    val_main_v35 (F := Ideal) x10 i = wrap 256#32 (x10 i) := by
  rw [val_main_v35_apply, val_main_v32_apply, val_main_v34_apply, val_main_v31_apply,
    val_main_v33_apply, val_main_c_5_apply, val_main_c_6_apply]
  rfl

theorem wrap_v40 (x9 : (⟨S32x128x128, .i32⟩ : BufTy).Contents (Elt Ideal)) (i : S32x128x128.Idx) :
    val_main_v40 (F := Ideal) x9 i = wrap 512#32 (x9 i) := by
  rw [val_main_v40_apply, val_main_v37_apply, val_main_v39_apply, val_main_v36_apply,
    val_main_v38_apply, val_main_c_7_apply, val_main_c_8_apply]
  rfl

theorem wrap_v67 (x5 : (⟨S32x128x128, .i32⟩ : BufTy).Contents (Elt Ideal)) (i : S32x128x128.Idx) :
    val_main_v67 (F := Ideal) x5 i = wrap 256#32 (x5 i) := by
  rw [val_main_v67_apply, val_main_v64_apply, val_main_v66_apply, val_main_v63_apply,
    val_main_v65_apply, val_main_c_12_apply, val_main_c_13_apply]
  rfl

theorem wrap_v72 (x4 : (⟨S32x128x128, .i32⟩ : BufTy).Contents (Elt Ideal)) (i : S32x128x128.Idx) :
    val_main_v72 (F := Ideal) x4 i = wrap 512#32 (x4 i) := by
  rw [val_main_v72_apply, val_main_v69_apply, val_main_v71_apply, val_main_v68_apply,
    val_main_v70_apply, val_main_c_14_apply, val_main_c_15_apply]
  rfl

theorem wrap_v98 (x10 : (⟨S32x128x128, .i32⟩ : BufTy).Contents (Elt Ideal)) (i : S32x128x128.Idx) :
    val_main_v98 (F := Ideal) x10 i = wrap 256#32 (x10 i) := by
  rw [val_main_v98_apply, val_main_v95_apply, val_main_v97_apply, val_main_v94_apply,
    val_main_v96_apply, val_main_c_19_apply, val_main_c_20_apply]
  rfl

theorem wrap_v103 (x9 : (⟨S32x128x128, .i32⟩ : BufTy).Contents (Elt Ideal)) (i : S32x128x128.Idx) :
    val_main_v103 (F := Ideal) x9 i = wrap 512#32 (x9 i) := by
  rw [val_main_v103_apply, val_main_v100_apply, val_main_v102_apply, val_main_v99_apply,
    val_main_v101_apply, val_main_c_21_apply, val_main_c_22_apply]
  rfl

/-! ## The samples

The transposed gather of each pass at (b, n, ch, r, l) is the environment sample at the pass' row and column words. -/

theorem samp_v14 (x0 : (⟨S4x256x512x3, .f32⟩ : BufTy).Contents (Elt Ideal))
    (x4 x5 : (⟨S32x128x128, .i32⟩ : BufTy).Contents (Elt Ideal))
    (b : Fin 4) (n : Fin 32) (ch : Fin 3) (r l : Fin 128) :
    val_main_v14 (F := Ideal) x0 x4 x5 (ix5 b n ch r l) = samp x0 (x5 (ix3 n r l)) (x4 (ix3 n r l)) b ch := by
  unfold val_main_v14 val_main_v13 val_main_v12
  have e0 : idx_main_v10 (ix4 n r l 0) = ix3 n r l := by idx_eq3
  have e1 : idx_main_v11 (ix4 n r l 0) = ix3 n r l := by idx_eq3
  rw [sample_apply, val_main_v10_apply, val_main_v11_apply, e0, e1, wrap_v4, wrap_v9]
  rfl

theorem samp_v45 (x0 : (⟨S4x256x512x3, .f32⟩ : BufTy).Contents (Elt Ideal))
    (x9 x10 : (⟨S32x128x128, .i32⟩ : BufTy).Contents (Elt Ideal))
    (b : Fin 4) (n : Fin 32) (ch : Fin 3) (r l : Fin 128) :
    val_main_v45 (F := Ideal) x0 x9 x10 (ix5 b n ch r l) = samp x0 (x10 (ix3 n r l)) (x9 (ix3 n r l)) b ch := by
  unfold val_main_v45 val_main_v44 val_main_v43
  have e0 : idx_main_v41 (ix4 n r l 0) = ix3 n r l := by idx_eq3
  have e1 : idx_main_v42 (ix4 n r l 0) = ix3 n r l := by idx_eq3
  rw [sample_apply, val_main_v41_apply, val_main_v42_apply, e0, e1, wrap_v35, wrap_v40]
  rfl

theorem samp_v77 (x1 : (⟨S4x256x512x3, .f32⟩ : BufTy).Contents (Elt Ideal))
    (x4 x5 : (⟨S32x128x128, .i32⟩ : BufTy).Contents (Elt Ideal))
    (b : Fin 4) (n : Fin 32) (ch : Fin 3) (r l : Fin 128) :
    val_main_v77 (F := Ideal) x1 x4 x5 (ix5 b n ch r l) = samp x1 (x5 (ix3 n r l)) (x4 (ix3 n r l)) b ch := by
  unfold val_main_v77 val_main_v76 val_main_v75
  have e0 : idx_main_v73 (ix4 n r l 0) = ix3 n r l := by idx_eq3
  have e1 : idx_main_v74 (ix4 n r l 0) = ix3 n r l := by idx_eq3
  rw [sample_apply, val_main_v73_apply, val_main_v74_apply, e0, e1, wrap_v67, wrap_v72]
  rfl

theorem samp_v108 (x1 : (⟨S4x256x512x3, .f32⟩ : BufTy).Contents (Elt Ideal))
    (x9 x10 : (⟨S32x128x128, .i32⟩ : BufTy).Contents (Elt Ideal))
    (b : Fin 4) (n : Fin 32) (ch : Fin 3) (r l : Fin 128) :
    val_main_v108 (F := Ideal) x1 x9 x10 (ix5 b n ch r l) = samp x1 (x10 (ix3 n r l)) (x9 (ix3 n r l)) b ch := by
  unfold val_main_v108 val_main_v107 val_main_v106
  have e0 : idx_main_v104 (ix4 n r l 0) = ix3 n r l := by idx_eq3
  have e1 : idx_main_v105 (ix4 n r l 0) = ix3 n r l := by idx_eq3
  rw [sample_apply, val_main_v104_apply, val_main_v105_apply, e0, e1, wrap_v98, wrap_v103]
  rfl

/-! ## The sums over the 32 directions

Each pass has a diffuse and a specular sum: the reflectance times the weight, broadcast over batch and channel,
times the sample, summed over the direction axis from `zero`. -/

theorem sum_v21 (x0 : (⟨S4x256x512x3, .f32⟩ : BufTy).Contents (Elt Ideal))
    (x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v21 (F := Ideal) x0 x3 x4 x5 x6 (ix4 b ch r l)
      = zero + ∑ n : Fin 32, (x3 (ix4 n 0 r l) * x6 (ix2 n 0))
          * samp x0 (x5 (ix3 n r l)) (x4 (ix3 n r l)) b ch := by
  rw [val_main_v21_apply]
  refine congrArg₂ (· + ·) rfl (Finset.sum_congr rfl fun n _ => ?_)
  have e0 : idx_main_v21 (ix4 b ch r l) n = ix5 b n ch r l := by idx_eq5
  have e1 : idx_main_v16 (idx_main_v19 (ix5 b n ch r l)) = ix4 n 0 r l := by idx_eq4
  have e2 : idx_main_v15 (idx_main_v17 (idx_main_v19 (ix5 b n ch r l))) = ix2 n 0 := by idx_eq2
  rw [e0, val_main_v20_apply, val_main_v19_apply, val_main_v18_apply, val_main_v16_apply,
    val_main_v17_apply, val_main_v15_apply, e1, e2, samp_v14]
  rfl

theorem sum_v27 (x0 : (⟨S4x256x512x3, .f32⟩ : BufTy).Contents (Elt Ideal))
    (x2 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v27 (F := Ideal) x0 x2 x4 x5 x6 (ix4 b ch r l)
      = zero + ∑ n : Fin 32, (x2 (ix4 n 0 r l) * x6 (ix2 n 0))
          * samp x0 (x5 (ix3 n r l)) (x4 (ix3 n r l)) b ch := by
  rw [val_main_v27_apply]
  refine congrArg₂ (· + ·) rfl (Finset.sum_congr rfl fun n _ => ?_)
  have e0 : idx_main_v27 (ix4 b ch r l) n = ix5 b n ch r l := by idx_eq5
  have e1 : idx_main_v22 (idx_main_v25 (ix5 b n ch r l)) = ix4 n 0 r l := by idx_eq4
  have e2 : idx_main_v15 (idx_main_v23 (idx_main_v25 (ix5 b n ch r l))) = ix2 n 0 := by idx_eq2
  rw [e0, val_main_v26_apply, val_main_v25_apply, val_main_v24_apply, val_main_v22_apply,
    val_main_v23_apply, val_main_v15_apply, e1, e2, samp_v14]
  rfl

theorem sum_v52 (x0 : (⟨S4x256x512x3, .f32⟩ : BufTy).Contents (Elt Ideal))
    (x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v52 (F := Ideal) x0 x8 x9 x10 x11 (ix4 b ch r l)
      = zero + ∑ n : Fin 32, (x8 (ix4 n 0 r l) * x11 (ix2 n 0))
          * samp x0 (x10 (ix3 n r l)) (x9 (ix3 n r l)) b ch := by
  rw [val_main_v52_apply]
  refine congrArg₂ (· + ·) rfl (Finset.sum_congr rfl fun n _ => ?_)
  have e0 : idx_main_v52 (ix4 b ch r l) n = ix5 b n ch r l := by idx_eq5
  have e1 : idx_main_v47 (idx_main_v50 (ix5 b n ch r l)) = ix4 n 0 r l := by idx_eq4
  have e2 : idx_main_v46 (idx_main_v48 (idx_main_v50 (ix5 b n ch r l))) = ix2 n 0 := by idx_eq2
  rw [e0, val_main_v51_apply, val_main_v50_apply, val_main_v49_apply, val_main_v47_apply,
    val_main_v48_apply, val_main_v46_apply, e1, e2, samp_v45]
  rfl

theorem sum_v58 (x0 : (⟨S4x256x512x3, .f32⟩ : BufTy).Contents (Elt Ideal))
    (x7 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v58 (F := Ideal) x0 x7 x9 x10 x11 (ix4 b ch r l)
      = zero + ∑ n : Fin 32, (x7 (ix4 n 0 r l) * x11 (ix2 n 0))
          * samp x0 (x10 (ix3 n r l)) (x9 (ix3 n r l)) b ch := by
  rw [val_main_v58_apply]
  refine congrArg₂ (· + ·) rfl (Finset.sum_congr rfl fun n _ => ?_)
  have e0 : idx_main_v58 (ix4 b ch r l) n = ix5 b n ch r l := by idx_eq5
  have e1 : idx_main_v53 (idx_main_v56 (ix5 b n ch r l)) = ix4 n 0 r l := by idx_eq4
  have e2 : idx_main_v46 (idx_main_v54 (idx_main_v56 (ix5 b n ch r l))) = ix2 n 0 := by idx_eq2
  rw [e0, val_main_v57_apply, val_main_v56_apply, val_main_v55_apply, val_main_v53_apply,
    val_main_v54_apply, val_main_v46_apply, e1, e2, samp_v45]
  rfl

theorem sum_v84 (x1 : (⟨S4x256x512x3, .f32⟩ : BufTy).Contents (Elt Ideal))
    (x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v84 (F := Ideal) x1 x3 x4 x5 x6 (ix4 b ch r l)
      = zero + ∑ n : Fin 32, (x3 (ix4 n 0 r l) * x6 (ix2 n 0))
          * samp x1 (x5 (ix3 n r l)) (x4 (ix3 n r l)) b ch := by
  rw [val_main_v84_apply]
  refine congrArg₂ (· + ·) rfl (Finset.sum_congr rfl fun n _ => ?_)
  have e0 : idx_main_v84 (ix4 b ch r l) n = ix5 b n ch r l := by idx_eq5
  have e1 : idx_main_v79 (idx_main_v82 (ix5 b n ch r l)) = ix4 n 0 r l := by idx_eq4
  have e2 : idx_main_v78 (idx_main_v80 (idx_main_v82 (ix5 b n ch r l))) = ix2 n 0 := by idx_eq2
  rw [e0, val_main_v83_apply, val_main_v82_apply, val_main_v81_apply, val_main_v79_apply,
    val_main_v80_apply, val_main_v78_apply, e1, e2, samp_v77]
  rfl

theorem sum_v90 (x1 : (⟨S4x256x512x3, .f32⟩ : BufTy).Contents (Elt Ideal))
    (x2 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v90 (F := Ideal) x1 x2 x4 x5 x6 (ix4 b ch r l)
      = zero + ∑ n : Fin 32, (x2 (ix4 n 0 r l) * x6 (ix2 n 0))
          * samp x1 (x5 (ix3 n r l)) (x4 (ix3 n r l)) b ch := by
  rw [val_main_v90_apply]
  refine congrArg₂ (· + ·) rfl (Finset.sum_congr rfl fun n _ => ?_)
  have e0 : idx_main_v90 (ix4 b ch r l) n = ix5 b n ch r l := by idx_eq5
  have e1 : idx_main_v85 (idx_main_v88 (ix5 b n ch r l)) = ix4 n 0 r l := by idx_eq4
  have e2 : idx_main_v78 (idx_main_v86 (idx_main_v88 (ix5 b n ch r l))) = ix2 n 0 := by idx_eq2
  rw [e0, val_main_v89_apply, val_main_v88_apply, val_main_v87_apply, val_main_v85_apply,
    val_main_v86_apply, val_main_v78_apply, e1, e2, samp_v77]
  rfl

theorem sum_v115 (x1 : (⟨S4x256x512x3, .f32⟩ : BufTy).Contents (Elt Ideal))
    (x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v115 (F := Ideal) x1 x8 x9 x10 x11 (ix4 b ch r l)
      = zero + ∑ n : Fin 32, (x8 (ix4 n 0 r l) * x11 (ix2 n 0))
          * samp x1 (x10 (ix3 n r l)) (x9 (ix3 n r l)) b ch := by
  rw [val_main_v115_apply]
  refine congrArg₂ (· + ·) rfl (Finset.sum_congr rfl fun n _ => ?_)
  have e0 : idx_main_v115 (ix4 b ch r l) n = ix5 b n ch r l := by idx_eq5
  have e1 : idx_main_v110 (idx_main_v113 (ix5 b n ch r l)) = ix4 n 0 r l := by idx_eq4
  have e2 : idx_main_v109 (idx_main_v111 (idx_main_v113 (ix5 b n ch r l))) = ix2 n 0 := by idx_eq2
  rw [e0, val_main_v114_apply, val_main_v113_apply, val_main_v112_apply, val_main_v110_apply,
    val_main_v111_apply, val_main_v109_apply, e1, e2, samp_v108]
  rfl

theorem sum_v121 (x1 : (⟨S4x256x512x3, .f32⟩ : BufTy).Contents (Elt Ideal))
    (x7 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v121 (F := Ideal) x1 x7 x9 x10 x11 (ix4 b ch r l)
      = zero + ∑ n : Fin 32, (x7 (ix4 n 0 r l) * x11 (ix2 n 0))
          * samp x1 (x10 (ix3 n r l)) (x9 (ix3 n r l)) b ch := by
  rw [val_main_v121_apply]
  refine congrArg₂ (· + ·) rfl (Finset.sum_congr rfl fun n _ => ?_)
  have e0 : idx_main_v121 (ix4 b ch r l) n = ix5 b n ch r l := by idx_eq5
  have e1 : idx_main_v116 (idx_main_v119 (ix5 b n ch r l)) = ix4 n 0 r l := by idx_eq4
  have e2 : idx_main_v109 (idx_main_v117 (idx_main_v119 (ix5 b n ch r l))) = ix2 n 0 := by idx_eq2
  rw [e0, val_main_v120_apply, val_main_v119_apply, val_main_v118_apply, val_main_v116_apply,
    val_main_v117_apply, val_main_v109_apply, e1, e2, samp_v108]
  rfl

/-! ## The passes -/

theorem pass_v30 (x0 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v30 (F := Ideal) x0 x2 x3 x4 x5 x6 (ix4 b ch r l)
      = passRef zero ten (fun n => x3 (ix4 n 0 r l)) (fun n => x2 (ix4 n 0 r l)) (fun n => x6 (ix2 n 0))
          (fun n => samp x0 (x5 (ix3 n r l)) (x4 (ix3 n r l)) b ch) := by
  rw [val_main_v30_apply, val_main_v29_apply, val_main_v28_apply, val_main_cst_4_apply,
    sum_v21, sum_v27]
  rfl

theorem pass_v61 (x0 : (⟨S4x256x512x3, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v61 (F := Ideal) x0 x7 x8 x9 x10 x11 (ix4 b ch r l)
      = passRef zero ten (fun n => x8 (ix4 n 0 r l)) (fun n => x7 (ix4 n 0 r l)) (fun n => x11 (ix2 n 0))
          (fun n => samp x0 (x10 (ix3 n r l)) (x9 (ix3 n r l)) b ch) := by
  rw [val_main_v61_apply, val_main_v60_apply, val_main_v59_apply, val_main_cst_11_apply,
    sum_v52, sum_v58]
  rfl

theorem pass_v93 (x1 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (b : Fin 4) (ch : Fin 3) (r l : Fin 128) :
    val_main_v93 (F := Ideal) x1 x2 x3 x4 x5 x6 (ix4 b ch r l)
      = passRef zero ten (fun n => x3 (ix4 n 0 r l)) (fun n => x2 (ix4 n 0 r l)) (fun n => x6 (ix2 n 0))
          (fun n => samp x1 (x5 (ix3 n r l)) (x4 (ix3 n r l)) b ch) := by
  rw [val_main_v93_apply, val_main_v92_apply, val_main_v91_apply, val_main_cst_18_apply,
    sum_v84, sum_v90]
  rfl

theorem pass_v124 (x1 : (⟨S4x256x512x3, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v124 (F := Ideal) x1 x7 x8 x9 x10 x11 (ix4 b ch r l)
      = passRef zero ten (fun n => x8 (ix4 n 0 r l)) (fun n => x7 (ix4 n 0 r l)) (fun n => x11 (ix2 n 0))
          (fun n => samp x1 (x10 (ix3 n r l)) (x9 (ix3 n r l)) b ch) := by
  rw [val_main_v124_apply, val_main_v123_apply, val_main_v122_apply, val_main_cst_25_apply,
    sum_v115, sum_v121]
  rfl

/-! ## The three results -/

/-- The first render of the reference at (b, ch, r, l) is the specification's. -/
theorem pred_ref (x0 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v62 (F := Ideal) x0 x2 x3 x4 x5 x6 x7 x8 x9 x10 x11 (ix4 b ch r l)
      = renderRefAt zero ten x0 x2 x3 x4 x5 x6 x7 x8 x9 x10 x11 b ch r l := by
  rw [val_main_v62_apply, pass_v30, pass_v61]
  rfl

/-- The second render of the reference at (b, ch, r, l) is the specification's. -/
theorem gt_ref (x1 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (b : Fin 4) (ch : Fin 3) (r l : Fin 128) :
    val_main_v125 (F := Ideal) x1 x2 x3 x4 x5 x6 x7 x8 x9 x10 x11 (ix4 b ch r l)
      = renderRefAt zero ten x1 x2 x3 x4 x5 x6 x7 x8 x9 x10 x11 b ch r l := by
  rw [val_main_v125_apply, pass_v93, pass_v124]
  rfl

/-- The flat position of (ch, r, l) in [3, 128, 128] read back in [1, 3, 128, 128] and placed in [4, 3, 128, 128]
    is (0, ch, r, l). -/
theorem slice_idx_v131 (ch : Fin 3) (r l : Fin 128) : idx_main_v130 (idx_main_v131 (ix3 ch r l)) = ix4 0 ch r l := by
  funext a; refine Fin.ext ?_
  have h0 := ch.isLt; have h1 := r.isLt; have h2 := l.isLt
  match a with
  | ⟨0, _⟩ => rfl
  | ⟨1, _⟩ => show ((ch.val * 128 + r.val) * 128 + l.val) / 16384 % 3 = ch.val; omega
  | ⟨2, _⟩ => show ((ch.val * 128 + r.val) * 128 + l.val) / 128 % 128 = r.val; omega
  | ⟨3, _⟩ => show ((ch.val * 128 + r.val) * 128 + l.val) % 128 = l.val; omega

theorem slice_idx_v133 (ch : Fin 3) (r l : Fin 128) : idx_main_v132 (idx_main_v133 (ix3 ch r l)) = ix4 0 ch r l := by
  funext a; refine Fin.ext ?_
  have h0 := ch.isLt; have h1 := r.isLt; have h2 := l.isLt
  match a with
  | ⟨0, _⟩ => rfl
  | ⟨1, _⟩ => show ((ch.val * 128 + r.val) * 128 + l.val) / 16384 % 3 = ch.val; omega
  | ⟨2, _⟩ => show ((ch.val * 128 + r.val) * 128 + l.val) / 128 % 128 = r.val; omega
  | ⟨3, _⟩ => show ((ch.val * 128 + r.val) * 128 + l.val) % 128 = l.val; omega

/-- The second result is the first render's batch 0. -/
theorem res_pred (x0 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (ch : Fin 3) (r l : Fin 128) :
    val_main_v131 (F := Ideal) x0 x2 x3 x4 x5 x6 x7 x8 x9 x10 x11 (ix3 ch r l) = val_main_v62 (F := Ideal) x0 x2 x3 x4 x5 x6 x7 x8 x9 x10 x11 (ix4 0 ch r l) := by
  rw [val_main_v131_apply, val_main_v130_apply, slice_idx_v131]

/-- The third result is the second render's batch 0. -/
theorem res_gt (x1 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal))
    (ch : Fin 3) (r l : Fin 128) :
    val_main_v133 (F := Ideal) x1 x2 x3 x4 x5 x6 x7 x8 x9 x10 x11 (ix3 ch r l) = val_main_v125 (F := Ideal) x1 x2 x3 x4 x5 x6 x7 x8 x9 x10 x11 (ix4 0 ch r l) := by
  rw [val_main_v133_apply, val_main_v132_apply, slice_idx_v133]

/-- The first result is the sum of squared differences of the two renders over all four axes, divided by the
    pixel count. -/
theorem res_loss (x0 x1 : (⟨S4x256x512x3, .f32⟩ : BufTy).Contents (Elt Ideal))
    (x2 x3 : (⟨S32x1x128x128, .f32⟩ : BufTy).Contents (Elt Ideal))
    (x4 x5 : (⟨S32x128x128, .i32⟩ : BufTy).Contents (Elt Ideal))
    (x6 : (⟨S32x1, .f32⟩ : BufTy).Contents (Elt Ideal))
    (x7 x8 : (⟨S32x1x128x128, .f32⟩ : BufTy).Contents (Elt Ideal))
    (x9 x10 : (⟨S32x128x128, .i32⟩ : BufTy).Contents (Elt Ideal))
    (x11 : (⟨S32x1, .f32⟩ : BufTy).Contents (Elt Ideal)) :
    val_main_v129 (F := Ideal) x0 x1 x2 x3 x4 x5 x6 x7 x8 x9 x10 x11 ix0
      = Ideal.div (sqSumAll zero (val_main_v62 (F := Ideal) x0 x2 x3 x4 x5 x6 x7 x8 x9 x10 x11) (val_main_v125 (F := Ideal) x1 x2 x3 x4 x5 x6 x7 x8 x9 x10 x11)) npix := by
  rw [val_main_v129_apply, val_main_v128_apply]
  exact congrArg₂ Ideal.div (congrArg₂ (· + ·) rfl (Finset.sum_congr rfl fun j _ => rfl)) rfl

end Cert.Render.Ref

end
-- ==== Proof.Bridge.lean ====
/-
  The two programs compute the same three arrays.

  Under the precondition every float argument is a real number, so the render with folded coefficients accumulated
  in chunks equals the render with the diffuse and specular sums kept apart (distributivity holds among reals); the
  sum of squared differences may be taken in any order; and batch 0 of a render is the same slice on both sides.
  Hence each of the kernel program's results is the corresponding stage of the reference program, read at the same
  arguments.
-/
import proofs.«172565_j15144054686503_2_alg».proof.Proof.KValue
import proofs.«172565_j15144054686503_2_alg».proof.Proof.Algebra
import proofs.«172565_j15144054686503_2_alg».proof.Proof.Finite
import proofs.«172565_j15144054686503_2_alg».proof.Proof.RefSide

set_option maxRecDepth 16384

noncomputable section

open scoped BigOperators

namespace Cert.Render.Bridge

open Cert.KernelIdeal Cert.KernelIdeal.Gen Idealize.ShloMosaic Idealize.ShloMosaic.TcCoe Idealize.SL.Sem
open Idealize.ShloMosaic.ValueIdx Cert.Render

local notation "zero" => Ideal.ofBits FTy.f32 0x00000000#32
local notation "ten" => Ideal.ofBits FTy.f32 0x41200000#32
local notation "npix" => Ideal.ofBits FTy.f32 0x47C00000#32

variable (m : (ℓ : Loc nD τ sig) → Buf (Elt Ideal) ℓ) (hpre : Cert.Pre_KernelIdeal m) (c : Dev nD)
include hpre

/-- The first map's chunked render is the reference's first render stage. -/
theorem render_x (b : Fin 4) (ch : Fin 3) (r l : Fin 128) :
    KValue.renderOf m c (m ((c : Thread nD τ).loc main_arg0) : S4x256x512x3.Idx → EReal) b ch r l
      = Cert.ReferenceIdeal.Read.val_main_v62 (F := Ideal) (m ((c : Thread nD τ).loc main_arg0) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) (ix4 b ch r l) := by
  obtain ⟨h0, h1, h2, h3, h6, h7, h8, h11⟩ := Cert.Render.Fin.real_of_pre m hpre c
  rw [Ref.pred_ref]
  unfold KValue.renderOf
  exact Alg.renderKAt_eq_renderRefAt zero ten Alg.zero_lit Alg.ten_real _ _ _ _ _ _ _ _ _ _ _ h0 h2 h3 h6 h7 h8 h11 b ch r l

/-- The second map's chunked render is the reference's second render stage. -/
theorem render_y (b : Fin 4) (ch : Fin 3) (r l : Fin 128) :
    KValue.renderOf m c (m ((c : Thread nD τ).loc main_arg1) : S4x256x512x3.Idx → EReal) b ch r l
      = Cert.ReferenceIdeal.Read.val_main_v125 (F := Ideal) (m ((c : Thread nD τ).loc main_arg1) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) (ix4 b ch r l) := by
  obtain ⟨h0, h1, h2, h3, h6, h7, h8, h11⟩ := Cert.Render.Fin.real_of_pre m hpre c
  rw [Ref.gt_ref]
  unfold KValue.renderOf
  exact Alg.renderKAt_eq_renderRefAt zero ten Alg.zero_lit Alg.ten_real _ _ _ _ _ _ _ _ _ _ _ h1 h2 h3 h6 h7 h8 h11 b ch r l

/-- The first render array is the reference's first render stage. -/
theorem predArr_x :
    KArr.predArr (V m c main_v18) (V m c main_v37) = Cert.ReferenceIdeal.Read.val_main_v62 (F := Ideal) (m ((c : Thread nD τ).loc main_arg0) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) := by
  funext j
  obtain ⟨b, ch, r, l, rfl⟩ : ∃ (b : Fin 4) (ch : Fin 3) (r l : Fin 128), j = ix4 b ch r l := ⟨j 0, j 1, j 2, j 3, eq_ix4 j⟩
  rw [KValue.pred_apply]
  exact render_x m hpre c b ch r l

/-- The second render array is the reference's second render stage. -/
theorem predArr_y :
    KArr.predArr (V m c main_v18) (V m c main_v38) = Cert.ReferenceIdeal.Read.val_main_v125 (F := Ideal) (m ((c : Thread nD τ).loc main_arg1) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) := by
  funext j
  obtain ⟨b, ch, r, l, rfl⟩ : ∃ (b : Fin 4) (ch : Fin 3) (r l : Fin 128), j = ix4 b ch r l := ⟨j 0, j 1, j 2, j 3, eq_ix4 j⟩
  rw [KValue.gt_apply]
  exact render_y m hpre c b ch r l

/-- THE SECOND RESULT is the reference's. -/
theorem result_pred :
    (Pipeline.afterTail₀ cfgs (dats m) 0 (V0 m) [hostOps1] c main_v43 : S3x128x128.Idx → EReal)
      = Cert.ReferenceIdeal.Read.val_main_v131 (F := Ideal) (m ((c : Thread nD τ).loc main_arg0) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) := by
  funext j
  obtain ⟨ch, r, l, rfl⟩ : ∃ (ch : Fin 3) (r l : Fin 128), j = ix3 ch r l := ⟨j 0, j 1, j 2, eq_ix3 j⟩
  rw [KValue.res_pred, Ref.res_pred]
  exact render_x m hpre c 0 ch r l

/-- THE THIRD RESULT is the reference's. -/
theorem result_gt :
    (Pipeline.afterTail₀ cfgs (dats m) 0 (V0 m) [hostOps1] c main_v45 : S3x128x128.Idx → EReal)
      = Cert.ReferenceIdeal.Read.val_main_v133 (F := Ideal) (m ((c : Thread nD τ).loc main_arg1) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) := by
  funext j
  obtain ⟨ch, r, l, rfl⟩ : ∃ (ch : Fin 3) (r l : Fin 128), j = ix3 ch r l := ⟨j 0, j 1, j 2, eq_ix3 j⟩
  rw [KValue.res_gt, Ref.res_gt]
  exact render_y m hpre c 0 ch r l

/-- THE FIRST RESULT is the reference's. -/
theorem result_loss :
    (Pipeline.afterTail₀ cfgs (dats m) 0 (V0 m) [hostOps1] c main_v41 : S_.Idx → EReal)
      = Cert.ReferenceIdeal.Read.val_main_v129 (F := Ideal) (m ((c : Thread nD τ).loc main_arg0) : S4x256x512x3.Idx → EReal) (m ((c : Thread nD τ).loc main_arg1) : S4x256x512x3.Idx → EReal) (m ((c : Thread nD τ).loc main_arg2) : S32x1x128x128.Idx → EReal) (m ((c : Thread nD τ).loc main_arg3) : S32x1x128x128.Idx → EReal) (m ((c : Thread nD τ).loc main_arg4) : S32x128x128.Idx → BitVec 32) (m ((c : Thread nD τ).loc main_arg5) : S32x128x128.Idx → BitVec 32) (m ((c : Thread nD τ).loc main_arg6) : S32x1.Idx → EReal) (m ((c : Thread nD τ).loc main_arg7) : S32x1x128x128.Idx → EReal) (m ((c : Thread nD τ).loc main_arg8) : S32x1x128x128.Idx → EReal) (m ((c : Thread nD τ).loc main_arg9) : S32x128x128.Idx → BitVec 32) (m ((c : Thread nD τ).loc main_arg10) : S32x128x128.Idx → BitVec 32) (m ((c : Thread nD τ).loc main_arg11) : S32x1.Idx → EReal) := by
  funext j
  rw [eq_ix0 j, KValue.res_loss, Ref.res_loss, Alg.sqSumPixels_eq_sqSumAll, predArr_x m hpre c, predArr_y m hpre c]

end Cert.Render.Bridge

end
-- ==== Proof.lean ====
/- The certificate of a rendering loss computed two ways.

   Both programs take two environment maps [4, 256, 512, 3] and, for each of two passes, 32 sampled directions with
   their specular and diffuse reflectances [32, 1, 128, 128], position words [32, 128, 128] and weights [32, 1].  A
   render sums over a pass's directions the map sampled at the direction's position, times the direction's weight,
   times diffuse plus ten times specular reflectance; the two passes add.  The results are the mean squared
   difference of the two maps' renders and batch 0 of each render.

   The reference keeps the diffuse and specular sums of each pass apart and scales the specular one afterwards.  The
   kernel program folds weight and reflectance into one coefficient per direction, joins the two passes into 64
   directions and the two maps into one, gathers once, and in a kernel of eight grid points of sixteen image rows
   accumulates the 64 products in eight chunks of eight; the same kernel sums the squared difference over batch and
   channel, and the image sum and the division follow the call.

   At the exact values the two agree: the positions sampled are the same (joining and transposing the maps moves
   no entry), a sum may be regrouped freely, and folding the coefficient is distributivity, which holds because
   the precondition makes every float argument real.  The frames of the two kernel programs are the generated ones;
   the reference's frame is its generated run with the results dropped; nothing was rewritten between the kernel
   program and its exact reading. -/
import proofs.«172565_j15144054686503_2_alg».proof.Defs
import proofs.«172565_j15144054686503_2_alg».proof.Proof.Gen.Kernel
import proofs.«172565_j15144054686503_2_alg».proof.Proof.Gen.Kernel.Skeleton
import proofs.«172565_j15144054686503_2_alg».proof.Proof.Gen.Kernel.Launch
import proofs.«172565_j15144054686503_2_alg».proof.Proof.Gen.Kernel.Points
import proofs.«172565_j15144054686503_2_alg».proof.Proof.Gen.Kernel.Frame
import proofs.«172565_j15144054686503_2_alg».proof.Proof.Gen.KernelIdeal
import proofs.«172565_j15144054686503_2_alg».proof.Proof.Gen.KernelIdeal.Skeleton
import proofs.«172565_j15144054686503_2_alg».proof.Proof.Gen.KernelIdeal.Launch
import proofs.«172565_j15144054686503_2_alg».proof.Proof.Gen.KernelIdeal.Points
import proofs.«172565_j15144054686503_2_alg».proof.Proof.Gen.KernelIdeal.Frame
import proofs.«172565_j15144054686503_2_alg».proof.Proof.Gen.ReferenceIdeal
import proofs.«172565_j15144054686503_2_alg».proof.Proof.Gen.ReferenceIdeal.Run
import proofs.«172565_j15144054686503_2_alg».proof.Proof.Gen.ReferenceIdeal.Read
import proofs.«172565_j15144054686503_2_alg».proof.Proof.Gen.Pre_finite_inputs
import Idealize.ShloMosaic.Adequacy
import Idealize.ShloMosaic.Init

import proofs.«172565_j15144054686503_2_alg».proof.Proof.Bridge

set_option maxRecDepth 16384

noncomputable section

namespace Cert.Proof

open Idealize.ShloMosaic Idealize.SL.Sem Idealize.ShloMosaic.TcCoe

/-- The kernel program as printed runs and leaves its arguments unchanged. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- The reference runs and leaves its arguments unchanged: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the reference's three result stages read at the (agreeing) arguments. -/
theorem algebraic : Cert.algebraic_KernelIdeal_ReferenceIdeal := by
  intro m ρ m' ρ' hpre hagree
  refine ⟨fun c => Cert.ReferenceIdeal.Read.val_main_v129 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v133 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Gen.run_main m ρ)
    exact ⟨((h c).2 Cert.KernelIdeal.main_v41 (Pipeline.mem_restRefs_of Cert.KernelIdeal.main_v41 (by decide) (by decide))).trans (Cert.Render.Bridge.result_loss m hpre c),
      ((h c).2 Cert.KernelIdeal.main_v43 (Pipeline.mem_restRefs_of Cert.KernelIdeal.main_v43 (by decide) (by decide))).trans (Cert.Render.Bridge.result_pred m hpre c),
      ((h c).2 Cert.KernelIdeal.main_v45 (Pipeline.mem_restRefs_of Cert.KernelIdeal.main_v45 (by decide) (by decide))).trans (Cert.Render.Bridge.result_gt m hpre c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c),
      ((h c).2 Cert.KernelIdeal.main_arg7 (Pipeline.mem_restRefs_of Cert.KernelIdeal.main_arg7 (by decide) (by decide))).trans (Cert.KernelIdeal.Gen.W_main_arg7 m (Cert.KernelIdeal.Gen.dats m) c),
      ((h c).2 Cert.KernelIdeal.main_arg8 (Pipeline.mem_restRefs_of Cert.KernelIdeal.main_arg8 (by decide) (by decide))).trans (Cert.KernelIdeal.Gen.W_main_arg8 m (Cert.KernelIdeal.Gen.dats m) c),
      ((h c).2 Cert.KernelIdeal.main_arg9 (Pipeline.mem_restRefs_of Cert.KernelIdeal.main_arg9 (by decide) (by decide))).trans (Cert.KernelIdeal.Gen.W_main_arg9 m (Cert.KernelIdeal.Gen.dats m) c),
      ((h c).2 Cert.KernelIdeal.main_arg10 (Pipeline.mem_restRefs_of Cert.KernelIdeal.main_arg10 (by decide) (by decide))).trans (Cert.KernelIdeal.Gen.W_main_arg10 m (Cert.KernelIdeal.Gen.dats m) c),
      ((h c).2 Cert.KernelIdeal.main_arg11 (Pipeline.mem_restRefs_of Cert.KernelIdeal.main_arg11 (by decide) (by decide))).trans (Cert.KernelIdeal.Gen.W_main_arg11 m (Cert.KernelIdeal.Gen.dats m) c)⟩
  · refine (θ_run Cert.ReferenceIdeal.defs _ _).mono (fun r h c => ⟨?_, ?_, ?_, (h c).2.2.2⟩) (Cert.ReferenceIdeal.Value.run (F := Ideal) m' ρ')
    · rw [(h c).1, Cert.ReferenceIdeal.Read.val_main_v129_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    · rw [(h c).2.1, Cert.ReferenceIdeal.Read.val_main_v131_eq, (hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    · rw [(h c).2.2.1, Cert.ReferenceIdeal.Read.val_main_v133_eq, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
